-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v92)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v92) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v121) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S256 : Shape := ⟨1, ![256]⟩
abbrev S50000 : Shape := ⟨1, ![50000]⟩
abbrev S128x128 : Shape := ⟨2, ![128, 128]⟩
abbrev S128 : Shape := ⟨1, ![128]⟩
abbrev S2x256 : Shape := ⟨2, ![2, 256]⟩
abbrev S2 : Shape := ⟨1, ![2]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S2x256 : S_.BroadcastsInDim S2x256 (![] : Fin 0 → Fin S2x256.rank)
  reducesTo_S2x256_S_d0_1 : S2x256.ReducesTo [0, 1] S_
  bcast_S_S2 : S_.BroadcastsInDim S2 (![] : Fin 0 → Fin S2.rank)
  reducesTo_S2_S_d0 : S2.ReducesTo [0] S_

variable [Facts]

def fn_part4 {F : FTy → Type} [FloatOps F] (main_arg17 : FVec F S2 .f32) (main_v63 : IVec S_ 1) (main_v67 : IVec S_ 1) : IVec S_ 1 :=
  let main_v68 : IVec S_ 1 := andi main_v63 main_v67
  let main_v69 : FVec F S2 .f32 := Host.absf main_arg17
  let main_cst_26 : FVec F S_ .f32 := constant S_ .f32 0x7F800000#32
  let main_v70 : FVec F S2 .f32 := broadcastInDim S2 ![] bcast_S_S2 main_cst_26
  let main_v71 : IVec S2 1 := cmpf .olt main_v69 main_v70
  let main_c_27 : IVec S_ 1 := constantI S_ 1 1#1
  let main_v72 : IVec S_ 1 := (fun x v => Host.reduce IntOp.andi x v reducesTo_S2_S_d0 h_S_) main_v71 main_c_27
  let main_v73 : IVec S_ 1 := andi main_v68 main_v72
  main_v73

def fn_part3 {F : FTy → Type} [FloatOps F] (main_arg14 : FVec F S128 .f32) (main_arg15 : FVec F S128x128 .f32) (main_arg16 : FVec F S2x256 .f32) (main_arg17 : FVec F S2 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg14
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg15
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S2x256 .f32 := Host.absf main_arg16
  let main_cst_24 : FVec F S_ .f32 := constant S_ .f32 0x7F800000#32
  let main_v65 : FVec F S2x256 .f32 := broadcastInDim S2x256 ![] bcast_S_S2x256 main_cst_24
  let main_v66 : IVec S2x256 1 := cmpf .olt main_v64 main_v65
  let main_c_25 : IVec S_ 1 := constantI S_ 1 1#1
  let main_v67 : IVec S_ 1 := (fun x v => Host.reduce IntOp.andi x v reducesTo_S2x256_S_d0_1 h_S_) main_v66 main_c_25
  fn_part4 (F := F) main_arg17 main_v63 main_v67

def fn_part2 {F : FTy → Type} [FloatOps F] (main_arg10 : FVec F S128x128 .f32) (main_arg11 : FVec F S128 .f32) (main_arg12 : FVec F S128x128 .f32) (main_arg13 : FVec F S128x128 .f32) (main_arg14 : FVec F S128 .f32) (main_arg15 : FVec F S128x128 .f32) (main_arg16 : FVec F S2x256 .f32) (main_arg17 : FVec F S2 .f32) (main_v33 : IVec S_ 1) : IVec S_ 1 :=
  let main_v34 : FVec F S128x128 .f32 := Host.absf main_arg10
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg11
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg12
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128x128 .f32 := Host.absf main_arg13
  let main_cst_18 : FVec F S_ .f32 := constant S_ .f32 0x7F800000#32
  let main_v50 : FVec F S128x128 .f32 := broadcastInDim S128x128 ![] bcast_S_S128x128 main_cst_18
  fn_part3 (F := F) main_arg14 main_arg15 main_arg16 main_arg17 main_v48 main_v49 main_v50

def fn_part1 {F : FTy → Type} [FloatOps F] (main_arg7 : FVec F S128x128 .f32) (main_arg8 : FVec F S128 .f32) (main_arg9 : FVec F S128x128 .f32) (main_arg10 : FVec F S128x128 .f32) (main_arg11 : FVec F S128 .f32) (main_arg12 : FVec F S128x128 .f32) (main_arg13 : FVec F S128x128 .f32) (main_arg14 : FVec F S128 .f32) (main_arg15 : FVec F S128x128 .f32) (main_arg16 : FVec F S2x256 .f32) (main_arg17 : FVec F S2 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg7
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg8
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg9
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg10 main_arg11 main_arg12 main_arg13 main_arg14 main_arg15 main_arg16 main_arg17 main_v33

def fn {F : FTy → Type} [FloatOps F] (main_arg0 : FVec F S50000x128 .f32) (main_arg1 : IVec S2x600000 32) (main_arg2 : IVec S256 32) (main_arg3 : IVec S50000 32) (main_arg4 : FVec F S128x128 .f32) (main_arg5 : FVec F S128 .f32) (main_arg6 : FVec F S128x128 .f32) (main_arg7 : FVec F S128x128 .f32) (main_arg8 : FVec F S128 .f32) (main_arg9 : FVec F S128x128 .f32) (main_arg10 : FVec F S128x128 .f32) (main_arg11 : FVec F S128 .f32) (main_arg12 : FVec F S128x128 .f32) (main_arg13 : FVec F S128x128 .f32) (main_arg14 : FVec F S128 .f32) (main_arg15 : FVec F S128x128 .f32) (main_arg16 : FVec F S2x256 .f32) (main_arg17 : FVec F S2 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg4
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg5
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg6
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg7 main_arg8 main_arg9 main_arg10 main_arg11 main_arg12 main_arg13 main_arg14 main_arg15 main_arg16 main_arg17 main_v13 main_v16
-- ==== Kernel.lean ====
abbrev S50000x128 : Shape := ⟨2, ![50000, 128]⟩
abbrev S2x600000 : Shape := ⟨2, ![2, 600000]⟩
abbrev S256 : Shape := ⟨1, ![256]⟩
abbrev S50000 : Shape := ⟨1, ![50000]⟩
abbrev S128x128 : Shape := ⟨2, ![128, 128]⟩
abbrev S128 : Shape := ⟨1, ![128]⟩
abbrev S2x256 : Shape := ⟨2, ![2, 256]⟩
abbrev S2 : Shape := ⟨1, ![2]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S50000x1 : Shape := ⟨2, ![50000, 1]⟩
abbrev S600000x128 : Shape := ⟨2, ![600000, 128]⟩
abbrev S1x128 : Shape := ⟨2, ![1, 128]⟩
abbrev S10000x128 : Shape := ⟨2, ![10000, 128]⟩
abbrev S10000x1 : Shape := ⟨2, ![10000, 1]⟩
abbrev S256x1 : Shape := ⟨2, ![256, 1]⟩
abbrev S256x128 : Shape := ⟨2, ![256, 128]⟩
abbrev S256x256 : Shape := ⟨2, ![256, 256]⟩
abbrev S1x2 : Shape := ⟨2, ![1, 2]⟩
abbrev S256x2 : Shape := ⟨2, ![256, 2]⟩

abbrev nBuf : Space → Nat
  | .hbm => 133
  | .vmem => 48
  | .smem => 0
  | _ => 0

abbrev hbmTy0_0 (i : Nat) : BufTy := match i % 128 with
  | 0 => ⟨S50000x128, .f32⟩
  | 1 => ⟨S2x600000, .i32⟩
  | 2 => ⟨S256, .i32⟩
  | 3 => ⟨S50000, .i32⟩
  | 4 => ⟨S128x128, .f32⟩
  | 5 => ⟨S128, .f32⟩
  | 6 => ⟨S128x128, .f32⟩
  | 7 => ⟨S128x128, .f32⟩
  | 8 => ⟨S128, .f32⟩
  | 9 => ⟨S128x128, .f32⟩
  | 10 => ⟨S128x128, .f32⟩
  | 11 => ⟨S128, .f32⟩
  | 12 => ⟨S128x128, .f32⟩
  | 13 => ⟨S128x128, .f32⟩
  | 14 => ⟨S128, .f32⟩
  | 15 => ⟨S128x128, .f32⟩
  | 16 => ⟨S2x256, .f32⟩
  | 17 => ⟨S2, .f32⟩
  | 18 => ⟨S1x600000, .i32⟩
  | 19 => ⟨S600000, .i32⟩
  | 20 => ⟨S1x600000, .i32⟩
  | 21 => ⟨S600000, .i32⟩
  | 22 => ⟨S_, .i32⟩
  | 23 => ⟨S600000, .i32⟩
  | 24 => ⟨S_, .i32⟩
  | 25 => ⟨S50000, .i32⟩
  | 26 => ⟨S600000x1, .i32⟩
  | 27 => ⟨S50000, .i32⟩
  | 28 => ⟨S50000, .f32⟩
  | 29 => ⟨S_, .f32⟩
  | 30 => ⟨S50000, .f32⟩
  | 31 => ⟨S50000, .f32⟩
  | 32 => ⟨S_, .f32⟩
  | 33 => ⟨S50000, .f32⟩
  | 34 => ⟨S50000, .f32⟩
  | 35 => ⟨S50000x1, .f32⟩
  | 36 => ⟨S128x128, .f32⟩
  | 37 => ⟨S128x128, .f32⟩
  | 38 => ⟨S_, .i32⟩
  | 39 => ⟨S600000, .i32⟩
  | 40 => ⟨S600000, .i1⟩
  | 41 => ⟨S_, .i32⟩
  | 42 => ⟨S600000, .i32⟩
  | 43 => ⟨S600000, .i32⟩
  | 44 => ⟨S600000, .i32⟩
  | 45 => ⟨S600000x1, .i32⟩
  | 46 => ⟨S600000x128, .f32⟩
  | 47 => ⟨S_, .f32⟩
  | 48 => ⟨S50000x128, .f32⟩
  | 49 => ⟨S600000x1, .i32⟩
  | 50 => ⟨S50000x128, .f32⟩
  | 51 => ⟨S1x128, .f32⟩
  | 52 => ⟨S50000x128, .f32⟩
  | 53 => ⟨S128x128, .f32⟩
  | 54 => ⟨S128x128, .f32⟩
  | 55 => ⟨S_, .i32⟩
  | 56 => ⟨S600000, .i32⟩
  | 57 => ⟨S600000, .i1⟩
  | 58 => ⟨S_, .i32⟩
  | 59 => ⟨S600000, .i32⟩
  | 60 => ⟨S600000, .i32⟩
  | 61 => ⟨S600000, .i32⟩
  | 62 => ⟨S600000x1, .i32⟩
  | 63 => ⟨S600000x128, .f32⟩
  | 64 => ⟨S_, .f32⟩
  | 65 => ⟨S50000x128, .f32⟩
  | 66 => ⟨S600000x1, .i32⟩
  | 67 => ⟨S50000x128, .f32⟩
  | 68 => ⟨S1x128, .f32⟩
  | 69 => ⟨S50000x128, .f32⟩
  | 70 => ⟨S128x128, .f32⟩
  | 71 => ⟨S128x128, .f32⟩
  | 72 => ⟨S_, .i32⟩
  | 73 => ⟨S600000, .i32⟩
  | 74 => ⟨S600000, .i1⟩
  | 75 => ⟨S_, .i32⟩
  | 76 => ⟨S600000, .i32⟩
  | 77 => ⟨S600000, .i32⟩
  | 78 => ⟨S600000, .i32⟩
  | 79 => ⟨S600000x1, .i32⟩
  | 80 => ⟨S600000x128, .f32⟩
  | 81 => ⟨S_, .f32⟩
  | 82 => ⟨S50000x128, .f32⟩
  | 83 => ⟨S600000x1, .i32⟩
  | 84 => ⟨S50000x128, .f32⟩
  | 85 => ⟨S1x128, .f32⟩
  | 86 => ⟨S50000x128, .f32⟩
  | 87 => ⟨S128x128, .f32⟩
  | 88 => ⟨S128x128, .f32⟩
  | 89 => ⟨S_, .i32⟩
  | 90 => ⟨S600000, .i32⟩
  | 91 => ⟨S600000, .i1⟩
  | 92 => ⟨S_, .i32⟩
  | 93 => ⟨S600000, .i32⟩
  | 94 => ⟨S600000, .i32⟩
  | 95 => ⟨S600000, .i32⟩
  | 96 => ⟨S600000x1, .i32⟩
  | 97 => ⟨S600000x128, .f32⟩
  | 98 => ⟨S_, .f32⟩
  | 99 => ⟨S50000x128, .f32⟩
  | 100 => ⟨S600000x1, .i32⟩
  | 101 => ⟨S50000x128, .f32⟩
  | 102 => ⟨S1x128, .f32⟩
  | 103 => ⟨S50000x128, .f32⟩
  | 104 => ⟨S_, .i32⟩
  | 105 => ⟨S256, .i32⟩
  | 106 => ⟨S256, .i1⟩
  | 107 => ⟨S_, .i32⟩
  | 108 => ⟨S256, .i32⟩
  | 109 => ⟨S256, .i32⟩
  | 110 => ⟨S256, .i32⟩
  | 111 => ⟨S256x1, .i32⟩
  | 112 => ⟨S256x128, .f32⟩
  | 113 => ⟨S_, .f32⟩
  | 114 => ⟨S256x128, .f32⟩
  | 115 => ⟨S50000x1, .i32⟩
  | 116 => ⟨S256x128, .f32⟩
  | 117 => ⟨S_, .i32⟩
  | 118 => ⟨S50000, .i32⟩
  | 119 => ⟨S_, .i32⟩
  | 120 => ⟨S256, .i32⟩
  | 121 => ⟨S50000x1, .i32⟩
  | 122 => ⟨S256, .i32⟩
  | 123 => ⟨S256, .f32⟩
  | 124 => ⟨S_, .f32⟩
  | 125 => ⟨S256, .f32⟩
  | 126 => ⟨S256, .f32⟩
  | 127 => ⟨S256x1, .f32⟩
  | _ => ⟨S50000x128, .f32⟩

abbrev hbmTy0_1 (i : Nat) : BufTy := match i % 128 with
  | 0 => ⟨S256x128, .f32⟩
  | 1 => ⟨S256x128, .f32⟩
  | 2 => ⟨S256x256, .f32⟩
  | 3 => ⟨S1x2, .f32⟩
  | 4 => ⟨S256x2, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S10000x128, .f32⟩
  | .local _ .vmem, ⟨1, _⟩ => ⟨S10000x128, .f32⟩
  | .local _ .vmem, ⟨2, _⟩ => ⟨S10000x128, .f32⟩
  | .local _ .vmem, ⟨3, _⟩ => ⟨S10000x128, .f32⟩
  | .local _ .vmem, ⟨4, _⟩ => ⟨S10000x1, .f32⟩
  | .local _ .vmem, ⟨5, _⟩ => ⟨S10000x1, .f32⟩
  | .local _ .vmem, ⟨6, _⟩ => ⟨S128x128, .f32⟩
  | .local _ .vmem, ⟨7, _⟩ => ⟨S1x128, .f32⟩
  | .local _ .vmem, ⟨8, _⟩ => ⟨S128x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S10000x128, .f32⟩
  | .local _ .vmem, ⟨13, _⟩ => ⟨S10000x128, .f32⟩
  | .local _ .vmem, ⟨14, _⟩ => ⟨S10000x128, .f32⟩
  | .local _ .vmem, ⟨15, _⟩ => ⟨S10000x1, .f32⟩
  | .local _ .vmem, ⟨16, _⟩ => ⟨S10000x1, .f32⟩
  | .local _ .vmem, ⟨17, _⟩ => ⟨S128x128, .f32⟩
  | .local _ .vmem, ⟨18, _⟩ => ⟨S1x128, .f32⟩
  | .local _ .vmem, ⟨19, _⟩ => ⟨S128x128, .f32⟩
  | .local _ .vmem, ⟨20, _⟩ => ⟨S10000x128, .f32⟩
  | .local _ .vmem, ⟨21, _⟩ => ⟨S10000x128, .f32⟩
  | .local _ .vmem, ⟨22, _⟩ => ⟨S10000x128, .f32⟩
  | .local _ .vmem, ⟨23, _⟩ => ⟨S10000x128, .f32⟩
  | .local _ .vmem, ⟨24, _⟩ => ⟨S10000x128, .f32⟩
  | .local _ .vmem, ⟨25, _⟩ => ⟨S10000x128, .f32⟩
  | .local _ .vmem, ⟨26, _⟩ => ⟨S10000x1, .f32⟩
  | .local _ .vmem, ⟨27, _⟩ => ⟨S10000x1, .f32⟩
  | .local _ .vmem, ⟨28, _⟩ => ⟨S128x128, .f32⟩
  | .local _ .vmem, ⟨29, _⟩ => ⟨S1x128, .f32⟩
  | .local _ .vmem, ⟨30, _⟩ => ⟨S128x128, .f32⟩
  | .local _ .vmem, ⟨31, _⟩ => ⟨S10000x128, .f32⟩
  | .local _ .vmem, ⟨32, _⟩ => ⟨S10000x128, .f32⟩
  | .local _ .vmem, ⟨33, _⟩ => ⟨S10000x128, .f32⟩
  | .local _ .vmem, ⟨34, _⟩ => ⟨S10000x128, .f32⟩
  | .local _ .vmem, ⟨35, _⟩ => ⟨S10000x128, .f32⟩
  | .local _ .vmem, ⟨36, _⟩ => ⟨S10000x128, .f32⟩
  | .local _ .vmem, ⟨37, _⟩ => ⟨S10000x1, .f32⟩
  | .local _ .vmem, ⟨38, _⟩ => ⟨S10000x1, .f32⟩
  | .local _ .vmem, ⟨39, _⟩ => ⟨S128x128, .f32⟩
  | .local _ .vmem, ⟨40, _⟩ => ⟨S1x128, .f32⟩
  | .local _ .vmem, ⟨41, _⟩ => ⟨S128x128, .f32⟩
  | .local _ .vmem, ⟨42, _⟩ => ⟨S10000x128, .f32⟩
  | .local _ .vmem, ⟨43, _⟩ => ⟨S10000x128, .f32⟩
  | .local _ .vmem, ⟨44, _⟩ => ⟨S256x256, .f32⟩
  | .local _ .vmem, ⟨45, _⟩ => ⟨S2x256, .f32⟩
  | .local _ .vmem, ⟨46, _⟩ => ⟨S1x2, .f32⟩
  | .local _ .vmem, ⟨47, _⟩ => ⟨S256x2, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_c : Ref sig .tc := ⟨.hbm, 22, rfl⟩
abbrev main_v4 : Ref sig .tc := ⟨.hbm, 23, rfl⟩
abbrev main_c_0 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_cst : Ref sig .tc := ⟨.hbm, 29, rfl⟩
abbrev main_v9 : Ref sig .tc := ⟨.hbm, 30, rfl⟩
abbrev main_v10 : Ref sig .tc := ⟨.hbm, 31, rfl⟩
abbrev main_cst_1 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_c_2 : Ref sig .tc := ⟨.hbm, 38, rfl⟩
abbrev main_v16 : Ref sig .tc := ⟨.hbm, 39, rfl⟩
abbrev main_v17 : Ref sig .tc := ⟨.hbm, 40, rfl⟩
abbrev main_c_3 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_cst_4 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_c_5 : Ref sig .tc := ⟨.hbm, 55, rfl⟩
abbrev main_v30 : Ref sig .tc := ⟨.hbm, 56, rfl⟩
abbrev main_v31 : Ref sig .tc := ⟨.hbm, 57, rfl⟩
abbrev main_c_6 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_cst_7 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_c_8 : Ref sig .tc := ⟨.hbm, 72, rfl⟩
abbrev main_v44 : Ref sig .tc := ⟨.hbm, 73, rfl⟩
abbrev main_v45 : Ref sig .tc := ⟨.hbm, 74, rfl⟩
abbrev main_c_9 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_cst_10 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_c_11 : Ref sig .tc := ⟨.hbm, 89, rfl⟩
abbrev main_v58 : Ref sig .tc := ⟨.hbm, 90, rfl⟩
abbrev main_v59 : Ref sig .tc := ⟨.hbm, 91, rfl⟩
abbrev main_c_12 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_cst_13 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_c_14 : Ref sig .tc := ⟨.hbm, 104, rfl⟩
abbrev main_v70 : Ref sig .tc := ⟨.hbm, 105, rfl⟩
abbrev main_v71 : Ref sig .tc := ⟨.hbm, 106, rfl⟩
abbrev main_c_15 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_cst_16 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_c_17 : Ref sig .tc := ⟨.hbm, 117, rfl⟩
abbrev main_v80 : Ref sig .tc := ⟨.hbm, 118, rfl⟩
abbrev main_c_18 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_cst_19 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg6_1 : Ref sig .tc := ⟨.vmem, 32, rfl⟩
abbrev cc3_stg0_0 : Ref sig .tc := ⟨.vmem, 33, rfl⟩
abbrev cc3_stg0_1 : Ref sig .tc := ⟨.vmem, 34, rfl⟩
abbrev cc3_stg1_0 : Ref sig .tc := ⟨.vmem, 35, rfl⟩
abbrev cc3_stg1_1 : Ref sig .tc := ⟨.vmem, 36, rfl⟩
abbrev cc3_stg2_0 : Ref sig .tc := ⟨.vmem, 37, rfl⟩
abbrev cc3_stg2_1 : Ref sig .tc := ⟨.vmem, 38, rfl⟩
abbrev cc3_stg3_0 : Ref sig .tc := ⟨.vmem, 39, rfl⟩
abbrev cc3_stg4_0 : Ref sig .tc := ⟨.vmem, 40, rfl⟩
abbrev cc3_stg5_0 : Ref sig .tc := ⟨.vmem, 41, rfl⟩
abbrev cc3_stg6_0 : Ref sig .tc := ⟨.vmem, 42, rfl⟩
abbrev cc3_stg6_1 : Ref sig .tc := ⟨.vmem, 43, rfl⟩
abbrev cc4_stg0_0 : Ref sig .tc := ⟨.vmem, 44, rfl⟩
abbrev cc4_stg1_0 : Ref sig .tc := ⟨.vmem, 45, rfl⟩
abbrev cc4_stg2_0 : Ref sig .tc := ⟨.vmem, 46, rfl⟩
abbrev cc4_stg3_0 : Ref sig .tc := ⟨.vmem, 47, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem4_0 : DmaSem sig := 29
abbrev cc2_sem5_0 : DmaSem sig := 30
abbrev cc2_sem6_0 : DmaSem sig := 31
abbrev cc2_sem6_1 : DmaSem sig := 32
abbrev cc3_sem0_0 : DmaSem sig := 33
abbrev cc3_sem0_1 : DmaSem sig := 34
abbrev cc3_sem1_0 : DmaSem sig := 35
abbrev cc3_sem1_1 : DmaSem sig := 36
abbrev cc3_sem2_0 : DmaSem sig := 37
abbrev cc3_sem2_1 : DmaSem sig := 38
abbrev cc3_sem3_0 : DmaSem sig := 39
abbrev cc3_sem4_0 : DmaSem sig := 40
abbrev cc3_sem5_0 : DmaSem sig := 41
abbrev cc3_sem6_0 : DmaSem sig := 42
abbrev cc3_sem6_1 : DmaSem sig := 43
abbrev cc4_sem0_0 : DmaSem sig := 44
abbrev cc4_sem1_0 : DmaSem sig := 45
abbrev cc4_sem2_0 : DmaSem sig := 46
abbrev cc4_sem3_0 : DmaSem sig := 47

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S10000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S10000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S10000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S10000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S10000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S10000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S256x256 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S2x256 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x2 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S256x2 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  shapeCasts_S50000_S50000x1 : S50000.ShapeCasts S50000x1
  transposes_S128x128_S128x128_1_0 : S128x128.Transposes [1, 0] S128x128
  bcast_S_S50000x128 : S_.BroadcastsInDim S50000x128 (![] : Fin 0 → Fin S50000x128.rank)
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x128 : S10000x1.Broadcasts S10000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  bcast_S_S256 : S_.BroadcastsInDim S256 (![] : Fin 0 → Fin S256.rank)
  bcast_S256_S256x1_0 : S256.BroadcastsInDim S256x1 (![0] : Fin 1 → Fin S256x1.rank)
  bcast_S_S256x128 : S_.BroadcastsInDim S256x128 (![] : Fin 0 → Fin S256x128.rank)
  bcast_S50000_S50000x1_0 : S50000.BroadcastsInDim S50000x1 (![0] : Fin 1 → Fin S50000x1.rank)
  bcast_S256x1_S256x128_0_1 : S256x1.BroadcastsInDim S256x128 (![0, 1] : Fin 2 → Fin S256x128.rank)
  concatenates_S256x128_S256x128_S256x256_d1 : Shape.Concatenates [S256x128, S256x128] S256x256 1
  shapeCasts_S2_S1x2 : S2.ShapeCasts S1x2
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S2x256_S2x256_0_0 : ∀ a, (![0, 0] : Fin 2 → Nat) a + S2x256.size a ≤ S2x256.size a
  h_S2x256 : 0 < S2x256.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  transposes_S2x256_p1_0_S256x2 : S2x256.Transposes [1, 0] S256x2
  broadcasts_S1x2_S256x2 : S1x2.Broadcasts S256x2
  inb_S256x2_S256x2_0_0 : ∀ a, (![0, 0] : Fin 2 → Nat) a + S256x2.size a ≤ S256x2.size a
  h_S256x2 : 0 < S256x2.numel
  scatter_S50000_S600000x1_S600000_n_0_0_1_wf : ScatterDims.WF S50000 S600000x1 S600000 [] [0] [0] 1
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S10000x128_S128x128_S10000x128_1_0_0_1_n_n_wf : DotDims.WF S10000x128 S128x128 S10000x128 [1] [0] [0] [1] [] []
  gather_S50000x128_S256x1_S256x128_1_0_n_n_0_1_1128_wf : GatherDims.WF S50000x128 S256x1 S256x128 [1] [0] [] [0] [] 1 ![1, 128]
  scatter_S256x128_S50000x1_S50000x128_1_0_0_1_wf : ScatterDims.WF S256x128 S50000x1 S50000x128 [1] [0] [0] 1
  scatter_S256_S50000x1_S50000_n_0_0_1_wf : ScatterDims.WF S256 S50000x1 S50000 [] [0] [0] 1
  dot_S256x256_S256x2_S256x2_1_0_0_1_n_n_wf : DotDims.WF S256x256 S256x2 S256x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S50000x128.size a
  hwx0_0 : ∀ i : grid0.Coords, EltTy.bits .f32 = 32 ∨ (Rect.block (s := S50000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S50000x128.size a
  hwx0_1 : ∀ i : grid0.Coords, EltTy.bits .f32 = 32 ∨ (Rect.block (s := S50000x128) S10000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x1.size a ≤ S50000x1.size a
  hwx0_2 : ∀ i : grid0.Coords, EltTy.bits .f32 = 32 ∨ (Rect.block (s := S50000x1) S10000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S10000x128.size a ≤ S50000x128.size a
  hwx0_6 : ∀ i : grid0.Coords, EltTy.bits .f32 = 32 ∨ (Rect.block (s := S50000x128) S10000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S50000x128.size a
  hwx1_0 : ∀ i : grid1.Coords, EltTy.bits .f32 = 32 ∨ (Rect.block (s := S50000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S50000x128.size a
  hwx1_1 : ∀ i : grid1.Coords, EltTy.bits .f32 = 32 ∨ (Rect.block (s := S50000x128) S10000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x1.size a ≤ S50000x1.size a
  hwx1_2 : ∀ i : grid1.Coords, EltTy.bits .f32 = 32 ∨ (Rect.block (s := S50000x1) S10000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S10000x128.size a ≤ S50000x128.size a
  hwx1_6 : ∀ i : grid1.Coords, EltTy.bits .f32 = 32 ∨ (Rect.block (s := S50000x128) S10000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S50000x128.size a
  hwx2_0 : ∀ i : grid2.Coords, EltTy.bits .f32 = 32 ∨ (Rect.block (s := S50000x128) S10000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x128.size a ≤ S50000x128.size a
  hwx2_1 : ∀ i : grid2.Coords, EltTy.bits .f32 = 32 ∨ (Rect.block (s := S50000x128) S10000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x1.size a ≤ S50000x1.size a
  hwx2_2 : ∀ i : grid2.Coords, EltTy.bits .f32 = 32 ∨ (Rect.block (s := S50000x1) S10000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S10000x128.size a ≤ S50000x128.size a
  hwx2_6 : ∀ i : grid2.Coords, EltTy.bits .f32 = 32 ∨ (Rect.block (s := S50000x128) S10000x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S50000x128.size a
  hwx3_0 : ∀ i : grid3.Coords, EltTy.bits .f32 = 32 ∨ (Rect.block (s := S50000x128) S10000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x128.size a ≤ S50000x128.size a
  hwx3_1 : ∀ i : grid3.Coords, EltTy.bits .f32 = 32 ∨ (Rect.block (s := S50000x128) S10000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x1.size a ≤ S50000x1.size a
  hwx3_2 : ∀ i : grid3.Coords, EltTy.bits .f32 = 32 ∨ (Rect.block (s := S50000x1) S10000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128x128.size a ≤ S128x128.size a
  hwx3_5 : ∀ i : grid3.Coords, EltTy.bits .f32 = 32 ∨ (Rect.block (s := S128x128) S128x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S10000x128.size a ≤ S50000x128.size a
  hwx3_6 : ∀ i : grid3.Coords, EltTy.bits .f32 = 32 ∨ (Rect.block (s := S50000x128) S10000x128.size (cc3_transform_6 i) (hinb3_6 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S256x256.size a ≤ S256x256.size a
  hwx4_0 : ∀ i : grid4.Coords, EltTy.bits .f32 = 32 ∨ (Rect.block (s := S256x256) S256x256.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S2x256.size a ≤ S2x256.size a
  hwx4_1 : ∀ i : grid4.Coords, EltTy.bits .f32 = 32 ∨ (Rect.block (s := S2x256) S2x256.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x2.size a ≤ S1x2.size a
  hwx4_2 : ∀ i : grid4.Coords, EltTy.bits .f32 = 32 ∨ (Rect.block (s := S1x2) S1x2.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S256x2.size a ≤ S256x2.size a
  hwx4_3 : ∀ i : grid4.Coords, EltTy.bits .f32 = 32 ∨ (Rect.block (s := S256x2) S256x2.size (cc4_transform_3 i) (hinb4_3 i)).WholeWords (EltTy.packing .f32)

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S50000x128_S256x1_S256x128_1_0_n_n_0_1_1128 : GatherDims S50000x128 S256x1 S256x128 where
  offsetDims := [1]
  collapsedSliceDims := [0]
  operandBatchingDims := []
  startIndicesBatchingDims := []
  startIndexMap := [0]
  indexVectorDim := 1
  sliceSizes := ![1, 128]
  wf := gather_S50000x128_S256x1_S256x128_1_0_n_n_0_1_1128_wf
def scatter_S256x128_S50000x1_S50000x128_1_0_0_1 : ScatterDims S256x128 S50000x1 S50000x128 where
  updateWindowDims := [1]
  insertedWindowDims := [0]
  scatterDimsToOperandDims := [0]
  indexVectorDim := 1
  wf := scatter_S256x128_S50000x1_S50000x128_1_0_0_1_wf
def scatter_S256_S50000x1_S50000_n_0_0_1 : ScatterDims S256 S50000x1 S50000 where
  updateWindowDims := []
  insertedWindowDims := [0]
  scatterDimsToOperandDims := [0]
  indexVectorDim := 1
  wf := scatter_S256_S50000x1_S50000_n_0_0_1_wf
def dot_S256x256_S256x2_S256x2_1_0_0_1_n_n : DotDims S256x256 S256x2 S256x2 where
  lhsContracting := [1]
  rhsContracting := [0]
  lhsNonContracting := [0]
  rhsNonContracting := [1]
  lhsBatch := []
  rhsBatch := []
  wf := dot_S256x256_S256x2_S256x2_1_0_0_1_n_n_wf

abbrev win0_0 : Pipeline.Window sig grid0 :=
  Pipeline.Window.ofSpec (Memref.whole main_v25) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S10000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v14) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v26) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v27) S10000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v39) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S10000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v13) S10000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v28) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v40) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v29) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v41) S10000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v53) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v41) S10000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v13) S10000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v42) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v54) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v43) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v55) S10000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v67) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v55) S10000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v13) S10000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v56) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v68) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v57) S128x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v69) S10000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v90) S256x256.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_arg16) S2x256.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v91) S1x2.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v92) S256x2.size cc4_transform_3 reads4_3 true true 1 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S256 : Shape := ⟨1, ![256]⟩
abbrev S50000 : Shape := ⟨1, ![50000]⟩
abbrev S128x128 : Shape := ⟨2, ![128, 128]⟩
abbrev S128 : Shape := ⟨1, ![128]⟩
abbrev S2x256 : Shape := ⟨2, ![2, 256]⟩
abbrev S2 : Shape := ⟨1, ![2]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S50000x1 : Shape := ⟨2, ![50000, 1]⟩
abbrev S600000x128 : Shape := ⟨2, ![600000, 128]⟩
abbrev S1x128 : Shape := ⟨2, ![1, 128]⟩
abbrev S256x1 : Shape := ⟨2, ![256, 1]⟩
abbrev S256x128 : Shape := ⟨2, ![256, 128]⟩
abbrev S256x256 : Shape := ⟨2, ![256, 256]⟩
abbrev S256x2 : Shape := ⟨2, ![256, 2]⟩
abbrev S1x2 : Shape := ⟨2, ![1, 2]⟩

abbrev nBuf : Space → Nat
  | .hbm => 170
  | .vmem => 0
  | .smem => 0
  | _ => 0

abbrev hbmTy0_0 (i : Nat) : BufTy := match i % 128 with
  | 0 => ⟨S50000x128, .f32⟩
  | 1 => ⟨S2x600000, .i32⟩
  | 2 => ⟨S256, .i32⟩
  | 3 => ⟨S50000, .i32⟩
  | 4 => ⟨S128x128, .f32⟩
  | 5 => ⟨S128, .f32⟩
  | 6 => ⟨S128x128, .f32⟩
  | 7 => ⟨S128x128, .f32⟩
  | 8 => ⟨S128, .f32⟩
  | 9 => ⟨S128x128, .f32⟩
  | 10 => ⟨S128x128, .f32⟩
  | 11 => ⟨S128, .f32⟩
  | 12 => ⟨S128x128, .f32⟩
  | 13 => ⟨S128x128, .f32⟩
  | 14 => ⟨S128, .f32⟩
  | 15 => ⟨S128x128, .f32⟩
  | 16 => ⟨S2x256, .f32⟩
  | 17 => ⟨S2, .f32⟩
  | 18 => ⟨S1x600000, .i32⟩
  | 19 => ⟨S600000, .i32⟩
  | 20 => ⟨S1x600000, .i32⟩
  | 21 => ⟨S600000, .i32⟩
  | 22 => ⟨S_, .f32⟩
  | 23 => ⟨S600000, .f32⟩
  | 24 => ⟨S_, .f32⟩
  | 25 => ⟨S50000, .f32⟩
  | 26 => ⟨S600000x1, .i32⟩
  | 27 => ⟨S50000, .f32⟩
  | 28 => ⟨S_, .f32⟩
  | 29 => ⟨S50000, .f32⟩
  | 30 => ⟨S50000, .f32⟩
  | 31 => ⟨S_, .f32⟩
  | 32 => ⟨S50000, .f32⟩
  | 33 => ⟨S50000, .f32⟩
  | 34 => ⟨S50000x1, .f32⟩
  | 35 => ⟨S_, .i32⟩
  | 36 => ⟨S600000, .i32⟩
  | 37 => ⟨S600000, .i1⟩
  | 38 => ⟨S_, .i32⟩
  | 39 => ⟨S600000, .i32⟩
  | 40 => ⟨S600000, .i32⟩
  | 41 => ⟨S600000, .i32⟩
  | 42 => ⟨S600000x1, .i32⟩
  | 43 => ⟨S600000x128, .f32⟩
  | 44 => ⟨S_, .f32⟩
  | 45 => ⟨S50000x128, .f32⟩
  | 46 => ⟨S600000x1, .i32⟩
  | 47 => ⟨S50000x128, .f32⟩
  | 48 => ⟨S50000x128, .f32⟩
  | 49 => ⟨S50000x128, .f32⟩
  | 50 => ⟨S128x128, .f32⟩
  | 51 => ⟨S50000x128, .f32⟩
  | 52 => ⟨S1x128, .f32⟩
  | 53 => ⟨S50000x128, .f32⟩
  | 54 => ⟨S50000x128, .f32⟩
  | 55 => ⟨S128x128, .f32⟩
  | 56 => ⟨S50000x128, .f32⟩
  | 57 => ⟨S50000x128, .f32⟩
  | 58 => ⟨S_, .f32⟩
  | 59 => ⟨S50000x128, .f32⟩
  | 60 => ⟨S50000x128, .f32⟩
  | 61 => ⟨S_, .i32⟩
  | 62 => ⟨S600000, .i32⟩
  | 63 => ⟨S600000, .i1⟩
  | 64 => ⟨S_, .i32⟩
  | 65 => ⟨S600000, .i32⟩
  | 66 => ⟨S600000, .i32⟩
  | 67 => ⟨S600000, .i32⟩
  | 68 => ⟨S600000x1, .i32⟩
  | 69 => ⟨S600000x128, .f32⟩
  | 70 => ⟨S_, .f32⟩
  | 71 => ⟨S50000x128, .f32⟩
  | 72 => ⟨S600000x1, .i32⟩
  | 73 => ⟨S50000x128, .f32⟩
  | 74 => ⟨S50000x128, .f32⟩
  | 75 => ⟨S50000x128, .f32⟩
  | 76 => ⟨S128x128, .f32⟩
  | 77 => ⟨S50000x128, .f32⟩
  | 78 => ⟨S1x128, .f32⟩
  | 79 => ⟨S50000x128, .f32⟩
  | 80 => ⟨S50000x128, .f32⟩
  | 81 => ⟨S128x128, .f32⟩
  | 82 => ⟨S50000x128, .f32⟩
  | 83 => ⟨S50000x128, .f32⟩
  | 84 => ⟨S_, .f32⟩
  | 85 => ⟨S50000x128, .f32⟩
  | 86 => ⟨S50000x128, .f32⟩
  | 87 => ⟨S_, .i32⟩
  | 88 => ⟨S600000, .i32⟩
  | 89 => ⟨S600000, .i1⟩
  | 90 => ⟨S_, .i32⟩
  | 91 => ⟨S600000, .i32⟩
  | 92 => ⟨S600000, .i32⟩
  | 93 => ⟨S600000, .i32⟩
  | 94 => ⟨S600000x1, .i32⟩
  | 95 => ⟨S600000x128, .f32⟩
  | 96 => ⟨S_, .f32⟩
  | 97 => ⟨S50000x128, .f32⟩
  | 98 => ⟨S600000x1, .i32⟩
  | 99 => ⟨S50000x128, .f32⟩
  | 100 => ⟨S50000x128, .f32⟩
  | 101 => ⟨S50000x128, .f32⟩
  | 102 => ⟨S128x128, .f32⟩
  | 103 => ⟨S50000x128, .f32⟩
  | 104 => ⟨S1x128, .f32⟩
  | 105 => ⟨S50000x128, .f32⟩
  | 106 => ⟨S50000x128, .f32⟩
  | 107 => ⟨S128x128, .f32⟩
  | 108 => ⟨S50000x128, .f32⟩
  | 109 => ⟨S50000x128, .f32⟩
  | 110 => ⟨S_, .f32⟩
  | 111 => ⟨S50000x128, .f32⟩
  | 112 => ⟨S50000x128, .f32⟩
  | 113 => ⟨S_, .i32⟩
  | 114 => ⟨S600000, .i32⟩
  | 115 => ⟨S600000, .i1⟩
  | 116 => ⟨S_, .i32⟩
  | 117 => ⟨S600000, .i32⟩
  | 118 => ⟨S600000, .i32⟩
  | 119 => ⟨S600000, .i32⟩
  | 120 => ⟨S600000x1, .i32⟩
  | 121 => ⟨S600000x128, .f32⟩
  | 122 => ⟨S_, .f32⟩
  | 123 => ⟨S50000x128, .f32⟩
  | 124 => ⟨S600000x1, .i32⟩
  | 125 => ⟨S50000x128, .f32⟩
  | 126 => ⟨S50000x128, .f32⟩
  | 127 => ⟨S50000x128, .f32⟩
  | _ => ⟨S50000x128, .f32⟩

abbrev hbmTy0_1 (i : Nat) : BufTy := match i % 128 with
  | 0 => ⟨S128x128, .f32⟩
  | 1 => ⟨S50000x128, .f32⟩
  | 2 => ⟨S1x128, .f32⟩
  | 3 => ⟨S50000x128, .f32⟩
  | 4 => ⟨S50000x128, .f32⟩
  | 5 => ⟨S128x128, .f32⟩
  | 6 => ⟨S50000x128, .f32⟩
  | 7 => ⟨S50000x128, .f32⟩
  | 8 => ⟨S_, .f32⟩
  | 9 => ⟨S50000x128, .f32⟩
  | 10 => ⟨S50000x128, .f32⟩
  | 11 => ⟨S_, .i32⟩
  | 12 => ⟨S256, .i32⟩
  | 13 => ⟨S256, .i1⟩
  | 14 => ⟨S_, .i32⟩
  | 15 => ⟨S256, .i32⟩
  | 16 => ⟨S256, .i32⟩
  | 17 => ⟨S256, .i32⟩
  | 18 => ⟨S256x1, .i32⟩
  | 19 => ⟨S256x128, .f32⟩
  | 20 => ⟨S_, .f32⟩
  | 21 => ⟨S256x128, .f32⟩
  | 22 => ⟨S50000x1, .i32⟩
  | 23 => ⟨S256x128, .f32⟩
  | 24 => ⟨S_, .f32⟩
  | 25 => ⟨S50000, .f32⟩
  | 26 => ⟨S_, .f32⟩
  | 27 => ⟨S256, .f32⟩
  | 28 => ⟨S50000x1, .i32⟩
  | 29 => ⟨S256, .f32⟩
  | 30 => ⟨S_, .f32⟩
  | 31 => ⟨S256, .f32⟩
  | 32 => ⟨S256, .f32⟩
  | 33 => ⟨S256x1, .f32⟩
  | 34 => ⟨S256x128, .f32⟩
  | 35 => ⟨S256x128, .f32⟩
  | 36 => ⟨S256x256, .f32⟩
  | 37 => ⟨S256x2, .f32⟩
  | 38 => ⟨S256x2, .f32⟩
  | 39 => ⟨S1x2, .f32⟩
  | 40 => ⟨S256x2, .f32⟩
  | 41 => ⟨S256x2, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_cst : Ref sig .tc := ⟨.hbm, 22, rfl⟩
abbrev main_v4 : Ref sig .tc := ⟨.hbm, 23, rfl⟩
abbrev main_cst_0 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_cst_1 : Ref sig .tc := ⟨.hbm, 28, rfl⟩
abbrev main_v8 : Ref sig .tc := ⟨.hbm, 29, rfl⟩
abbrev main_v9 : Ref sig .tc := ⟨.hbm, 30, rfl⟩
abbrev main_cst_2 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_c : Ref sig .tc := ⟨.hbm, 35, rfl⟩
abbrev main_v13 : Ref sig .tc := ⟨.hbm, 36, rfl⟩
abbrev main_v14 : Ref sig .tc := ⟨.hbm, 37, rfl⟩
abbrev main_c_3 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_cst_4 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_call0_cst : Ref sig .tc := ⟨.hbm, 58, rfl⟩
abbrev main_call0_v0 : Ref sig .tc := ⟨.hbm, 59, rfl⟩
abbrev main_v33 : Ref sig .tc := ⟨.hbm, 60, rfl⟩
abbrev main_c_5 : Ref sig .tc := ⟨.hbm, 61, rfl⟩
abbrev main_v34 : Ref sig .tc := ⟨.hbm, 62, rfl⟩
abbrev main_v35 : Ref sig .tc := ⟨.hbm, 63, rfl⟩
abbrev main_c_6 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_cst_7 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_call1_cst : Ref sig .tc := ⟨.hbm, 84, rfl⟩
abbrev main_call1_v0 : Ref sig .tc := ⟨.hbm, 85, rfl⟩
abbrev main_v54 : Ref sig .tc := ⟨.hbm, 86, rfl⟩
abbrev main_c_8 : Ref sig .tc := ⟨.hbm, 87, rfl⟩
abbrev main_v55 : Ref sig .tc := ⟨.hbm, 88, rfl⟩
abbrev main_v56 : Ref sig .tc := ⟨.hbm, 89, rfl⟩
abbrev main_c_9 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_cst_10 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_call2_cst : Ref sig .tc := ⟨.hbm, 110, rfl⟩
abbrev main_call2_v0 : Ref sig .tc := ⟨.hbm, 111, rfl⟩
abbrev main_v75 : Ref sig .tc := ⟨.hbm, 112, rfl⟩
abbrev main_c_11 : Ref sig .tc := ⟨.hbm, 113, rfl⟩
abbrev main_v76 : Ref sig .tc := ⟨.hbm, 114, rfl⟩
abbrev main_v77 : Ref sig .tc := ⟨.hbm, 115, rfl⟩
abbrev main_c_12 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_cst_13 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_call3_cst : Ref sig .tc := ⟨.hbm, 136, rfl⟩
abbrev main_call3_v0 : Ref sig .tc := ⟨.hbm, 137, rfl⟩
abbrev main_v96 : Ref sig .tc := ⟨.hbm, 138, rfl⟩
abbrev main_c_14 : Ref sig .tc := ⟨.hbm, 139, rfl⟩
abbrev main_v97 : Ref sig .tc := ⟨.hbm, 140, rfl⟩
abbrev main_v98 : Ref sig .tc := ⟨.hbm, 141, rfl⟩
abbrev main_c_15 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_cst_16 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_cst_17 : Ref sig .tc := ⟨.hbm, 152, rfl⟩
abbrev main_v107 : Ref sig .tc := ⟨.hbm, 153, rfl⟩
abbrev main_cst_18 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_cst_19 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_v121 : Ref sig .tc := ⟨.hbm, 169, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  bcast_S50000_S50000x1_0 : S50000.BroadcastsInDim S50000x1 (![0] : Fin 1 → Fin S50000x1.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S256 : S_.BroadcastsInDim S256 (![] : Fin 0 → Fin S256.rank)
  bcast_S256_S256x1_0 : S256.BroadcastsInDim S256x1 (![0] : Fin 1 → Fin S256x1.rank)
  bcast_S_S256x128 : S_.BroadcastsInDim S256x128 (![] : Fin 0 → Fin S256x128.rank)
  bcast_S256x1_S256x128_0_1 : S256x1.BroadcastsInDim S256x128 (![0, 1] : Fin 2 → Fin S256x128.rank)
  concatenates_S256x128_S256x128_S256x256_d1 : Shape.Concatenates [S256x128, S256x128] S256x256 1
  transposes_S2x256_S256x2_1_0 : S2x256.Transposes [1, 0] S256x2
  bcast_S2_S1x2_1 : S2.BroadcastsInDim S1x2 (![1] : Fin 1 → Fin S1x2.rank)
  bcast_S1x2_S256x2_0_1 : S1x2.BroadcastsInDim S256x2 (![0, 1] : Fin 2 → Fin S256x2.rank)
  scatter_S50000_S600000x1_S600000_n_0_0_1_wf : ScatterDims.WF S50000 S600000x1 S600000 [] [0] [0] 1
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S50000x128_S128x128_S50000x128_1_0_0_1_n_n_wf : DotDims.WF S50000x128 S128x128 S50000x128 [1] [0] [0] [1] [] []
  gather_S50000x128_S256x1_S256x128_1_0_n_n_0_1_1128_wf : GatherDims.WF S50000x128 S256x1 S256x128 [1] [0] [] [0] [] 1 ![1, 128]
  scatter_S256x128_S50000x1_S50000x128_1_0_0_1_wf : ScatterDims.WF S256x128 S50000x1 S50000x128 [1] [0] [0] 1
  scatter_S256_S50000x1_S50000_n_0_0_1_wf : ScatterDims.WF S256 S50000x1 S50000 [] [0] [0] 1
  dot_S256x256_S256x2_S256x2_1_0_0_1_n_n_wf : DotDims.WF S256x256 S256x2 S256x2 [1] [0] [0] [1] [] []

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S256x1_S256x128_1_0_n_n_0_1_1128 : GatherDims S50000x128 S256x1 S256x128 where
  offsetDims := [1]
  collapsedSliceDims := [0]
  operandBatchingDims := []
  startIndicesBatchingDims := []
  startIndexMap := [0]
  indexVectorDim := 1
  sliceSizes := ![1, 128]
  wf := gather_S50000x128_S256x1_S256x128_1_0_n_n_0_1_1128_wf
def scatter_S256x128_S50000x1_S50000x128_1_0_0_1 : ScatterDims S256x128 S50000x1 S50000x128 where
  updateWindowDims := [1]
  insertedWindowDims := [0]
  scatterDimsToOperandDims := [0]
  indexVectorDim := 1
  wf := scatter_S256x128_S50000x1_S50000x128_1_0_0_1_wf
def scatter_S256_S50000x1_S50000_n_0_0_1 : ScatterDims S256 S50000x1 S50000 where
  updateWindowDims := []
  insertedWindowDims := [0]
  scatterDimsToOperandDims := [0]
  indexVectorDim := 1
  wf := scatter_S256_S50000x1_S50000_n_0_0_1_wf
def dot_S256x256_S256x2_S256x2_1_0_0_1_n_n : DotDims S256x256 S256x2 S256x2 where
  lhsContracting := [1]
  rhsContracting := [0]
  lhsNonContracting := [0]
  rhsNonContracting := [1]
  lhsBatch := []
  rhsBatch := []
  wf := dot_S256x256_S256x2_S256x2_1_0_0_1_n_n_wf

class Facts : Prop extends Facts₀ where

variable [Facts]
-- ==== Proof.KRun.lean ====
/-
  The idealized kernel's run, with its result named.

  @main is ten segments: five stretches of host operations and five pipelined regions.  The contents of every
  TensorCore buffer at each segment boundary are a fold through @main from the launch memory (`Gen.W0` … `Gen.W10`): a
  stretch of host operations applies its operations' functions, a region replaces its output array by what its
  write-backs leave and keeps every other buffer.  Every weakly fair execution terminates with each unscoped buffer at
  the last boundary's contents; here that is read at the result buffer as well as at the argument buffers.
-/
import proofs.«144729_j33328946217667_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and the argument arrays as launched. -/
theorem run_result : θ_run defs (onTc (τ := τ) (main (F := F))) ⟨m, fun _ => 0, ρ⟩ (fun r => ∀ c : Dev nD,
      r.2.mem ((c.tc : Thread nD τ).loc main_v92) = W10 m ρ c (Proc.devRef .tc main_v92)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v92 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c),
       (h c _ (mem_uc main_arg11 (by decide))).trans (W10_main_arg11 m ρ c),
       (h c _ (mem_uc main_arg12 (by decide))).trans (W10_main_arg12 m ρ c),
       (h c _ (mem_uc main_arg13 (by decide))).trans (W10_main_arg13 m ρ c),
       (h c _ (mem_uc main_arg14 (by decide))).trans (W10_main_arg14 m ρ c),
       (h c _ (mem_uc main_arg15 (by decide))).trans (W10_main_arg15 m ρ c),
       (h c _ (mem_uc main_arg16 (by decide))).trans (W10_main_arg16 m ρ c),
       (h c _ (mem_uc main_arg17 (by decide))).trans (W10_main_arg17 m ρ c)⟩)

end Cert.KernelIdeal.KRun

end
-- ==== Proof.LibScatterCount.lean ====
/-
  Counting by scatter, two ways.

  A StableHLO scatter whose body adds, fed the all-ones updates into the all-zeros operand, counts at every operand
  index `i` the update indices that land on `i`.  Done on 32-bit integers (a left fold over the update indices in row-major
  order, each step adding one at the landing index) the count is exact as long as the number of updates stays below
  `2^31`; done on the extended reals it is the sum of ones over the landing set.  Both are the cardinality of one and
  the same set `{ j | resultIdx? j idx = some i }`, so the integer count converted to a float IS the float count.
-/
import Idealize.ShloMosaic.PureOps.Ideal.Laws
import Idealize.ShloMosaic.Lib.ValueIdx

noncomputable section

open scoped BigOperators

namespace Cert.LibScatterCount

open Idealize.ShloMosaic

/-- A left fold whose step adds one at the places `p j ·` holds and changes nothing else counts, at `i`, the list's
    members `j` with `p j i` (the list without repetitions). -/
theorem foldl_count {ι κ : Type} [DecidableEq κ] (p : κ → ι → Prop) [∀ j i, Decidable (p j i)]
    (g : (ι → BitVec 32) → κ → ι → BitVec 32)
    (hg : ∀ r j i, g r j i = if p j i then r i + 1#32 else r i)
    (L : List κ) (hL : L.Nodup) (x : ι → BitVec 32) (i : ι) :
    L.foldl g x i = x i + BitVec.ofNat 32 ((L.toFinset.filter fun j => p j i).card) := by
  induction L generalizing x with
  | nil => simp
  | cons j L ih =>
    have hj : j ∉ L.toFinset := by rw [List.mem_toFinset]; exact (List.nodup_cons.mp hL).1
    rw [List.foldl_cons, ih (List.nodup_cons.mp hL).2, hg, List.toFinset_cons, Finset.filter_insert]
    by_cases h : p j i
    · rw [if_pos h, if_pos h, Finset.card_insert_of_notMem (fun hm => hj (Finset.mem_filter.mp hm).1),
        BitVec.ofNat_add]
      ac_rfl
    · rw [if_neg h, if_neg h]

variable {s si u : Shape} {w : Nat}

/-- The integer scatter-add of ones into zeros, at `i`: the number of update indices landing on `i`. -/
theorem scatter_addi_ones (d : ScatterDims s si u) (idx : IVec si w) (i : s.Idx) :
    Host.scatter d IntOp.addi (fun _ => (0#32 : BitVec 32)) idx (fun _ => (1#32 : BitVec 32)) i
      = BitVec.ofNat 32 ((Finset.univ.filter fun j : u.Idx => d.resultIdx? j idx = some i).card) := by
  unfold Host.scatter
  have hnd : ((List.finRange u.numel).map u.rowMajor.symm).Nodup :=
    (List.nodup_finRange _).map u.rowMajor.symm.injective
  have hall : ((List.finRange u.numel).map u.rowMajor.symm).toFinset = Finset.univ :=
    Finset.eq_univ_iff_forall.mpr fun j => List.mem_toFinset.mpr
      (List.mem_map.mpr ⟨u.rowMajor j, List.mem_finRange _, u.rowMajor.symm_apply_apply j⟩)
  have := foldl_count (fun (j : u.Idx) (i : s.Idx) => d.resultIdx? j idx = some i)
    (fun r j => match d.resultIdx? j idx with
      | some i0 => fun i' => if i' = i0 then IntOp.addi (r i0) (1#32) else r i'
      | none => r)
    (fun r j i => by
      cases hr : d.resultIdx? j idx with
      | none => simp
      | some i0 =>
        by_cases h : i = i0
        · subst h; simp [IntOp.addi]
        · have h' : ¬ (some i0 = some i) := fun e => h (Option.some.inj e).symm
          simp [h, h'])
    _ hnd (fun _ => 0#32) i
  rw [List.foldl_map, hall] at this
  exact this.trans (BitVec.zero_add _)

/-- The count never exceeds the number of update indices. -/
theorem card_le (d : ScatterDims s si u) (idx : IVec si w) (i : s.Idx) :
    (Finset.univ.filter fun j : u.Idx => d.resultIdx? j idx = some i).card ≤ u.numel := by
  refine (Finset.card_filter_le _ _).trans ?_
  rw [Finset.card_univ, Fintype.card_congr u.rowMajor, Fintype.card_fin]

/-- The pattern of the float one. -/
theorem ofBits_one : Ideal.ofBits .f32 0x3F800000#32 = 1 := by
  simp [Ideal.ofBits, Ideal.ieee, -EReal.coe_mul]; norm_num

/-- THE TWO COUNTS AGREE: the integer scatter-add of ones into zeros, converted to a float, is the float scatter-add of
    ones into zeros, as long as fewer than `2^31` updates are scattered. -/
theorem sitofp_scatter_ones (d : ScatterDims s si u) (idx : IVec si w) (hu : u.numel < 2 ^ 31) :
    sitofp (F := Ideal) .f32 (Host.scatter d IntOp.addi (fun _ => (0#32 : BitVec 32)) idx (fun _ => (1#32 : BitVec 32)))
      = Host.scatterAdd (F := Ideal) d (fun _ => Ideal.ofBits .f32 0x00000000#32) idx
          (fun _ => Ideal.ofBits .f32 0x3F800000#32) := by
  funext i
  have hc := card_le d idx i
  set c := (Finset.univ.filter fun j : u.Idx => d.resultIdx? j idx = some i).card with hcdef
  have h1 : (BitVec.ofNat 32 c).toNat = c := by rw [BitVec.toNat_ofNat]; omega
  have h2 : (BitVec.ofNat 32 c).toInt = (c : Int) := by
    rw [BitVec.toInt_eq_toNat_cond, h1]; split <;> omega
  show ((((Host.scatter d IntOp.addi (fun _ => (0#32 : BitVec 32)) idx (fun _ => (1#32 : BitVec 32))) i).toInt : ℝ) : EReal) = _
  rw [scatter_addi_ones, ← hcdef, h2]
  simp only [Host.scatterAdd, Ideal.hostScatterAdd_def, Ideal.hostScatterAdd, Ideal.ofBits_zero_f32, ofBits_one, zero_add,
    Finset.sum_const, nsmul_eq_mul, mul_one]
  simp [hcdef]

end Cert.LibScatterCount

end
-- ==== Proof.LibColumnForms.lean ====
/-
  Four index forms of vector operations on the extended reals, at explicit coordinates and for any extents: the sum
  along the rows of a matrix started from zero, the cast of a vector to a one-column matrix, the broadcast of a
  one-column matrix along the rows, and the square root read at an index.
-/
import Idealize.ShloMosaic.Lib.ValueIdx
import Idealize.ShloMosaic.Lib.Pipeline.Value
import Idealize.ShloMosaic.PureOps.Ideal.Laws

noncomputable section

open scoped BigOperators

namespace Cert.Lib.ColumnForms

open Idealize.ShloMosaic Idealize.ShloMosaic.ValueIdx

variable {α : Type}

/-- The sum along the rows of an a×b array, started from the zero word, read at row r: the sum over the b columns
    of the entries of that row. -/
theorem rowSum_apply {a b : Nat} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (r : Fin a) :
    multiReduction (F := Ideal) .add [1] ⟨1, ![a]⟩ src 0x00000000#32 h hφ hacc (ix1 r) = ∑ k : Fin b, src (ix2 r k) := by
  refine (Ideal.multiReduction_add_single src _ h hφ hacc (ix1 r)).trans ?_
  refine Finset.sum_congr rfl fun k _ => congrArg src ?_
  funext ax; apply Fin.ext
  match ax with
  | ⟨0, _⟩ => rfl
  | ⟨1, _⟩ => rfl

/-- An [a] array cast to a column [a, 1] reads, at (r, z), the operand at r, whatever the unit coordinate z. -/
theorem shapeCast_a_a1_apply {a : Nat} (x : (⟨1, ![a]⟩ : Shape).Idx → α) (h : (⟨1, ![a]⟩ : Shape).ShapeCasts ⟨2, ![a, 1]⟩)
    (r : Fin a) (z : Fin 1) : shapeCast ⟨2, ![a, 1]⟩ x h (ix2 r z) = x (ix1 r) :=
  shapeCast_apply x h _ _ (by
    have hz : z.val = 0 := by omega
    rw [Shape.rowMajor_val_two, Shape.rowMajor_val_one]
    show r.val = r.val * 1 + z.val
    rw [hz, Nat.mul_one, Nat.add_zero])

/-- A column [a, 1] broadcast to [a, b] reads, at (p, c), the column's entry of row p. -/
theorem broadcastTo_a1_ab_apply {a b : Nat} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The square root of a vector reads, at an index, the square root of the entry. -/
theorem sqrt_apply {s : Shape} {φ : FTy} (a : FVec Ideal s φ) (i : s.Idx) : sqrt a i = Ideal.sqrt (a i) := rfl

end Cert.Lib.ColumnForms

end
-- ==== Proof.Stages.lean ====
/-
  The stages both programs share, as functions of whole arrays.

  Both programs read the edge list `e : i32[2, 600000]` as a source row and a target row, gather the source nodes' feature
  rows (a negative index wrapped once by the number of nodes, as `x[src]` does), and scatter-add them at the target nodes:
  `aggOf h e`.  Both scale by the inverse of the target degree clamped below by one.  They differ in how the degree is
  counted: one program scatter-adds integer ones and converts, the other scatter-adds float ones; and in how a vector
  is turned into a column or a row (a reshape in one, a broadcast along a new unit axis in the other).  Those pairs are
  shown equal here; everything else is the same operation applied to the same operands.
-/
import proofs.«144729_j33328946217667_2_alg».proof.KernelIdeal
import proofs.«144729_j33328946217667_2_alg».proof.Proof.Gen.KernelIdeal
import proofs.«144729_j33328946217667_2_alg».proof.Proof.LibScatterCount
import proofs.«144729_j33328946217667_2_alg».proof.Proof.LibColumnForms
import Idealize.ShloMosaic.Lib.Pipeline.Value
import Idealize.ShloMosaic.Lib.ValueIdx

set_option maxRecDepth 16384

noncomputable section

namespace Cert.KernelIdeal.Stages

open Cert.KernelIdeal Cert.KernelIdeal.Gen Idealize.ShloMosaic Idealize.ShloMosaic.ValueIdx

variable {F : FTy → Type} [FloatOps F]

/-- The edges' source row. -/
def srcOf (e : IVec S2x600000 32) : IVec S600000 32 :=
  shapeCast _ (extractStridedSlice S1x600000 ![0, 0] e slices_S2x600000_S1x600000_0_0) shapeCasts_S1x600000_S600000
/-- The edges' target row. -/
def tgtOf (e : IVec S2x600000 32) : IVec S600000 32 :=
  shapeCast _ (extractStridedSlice S1x600000 ![1, 0] e slices_S2x600000_S1x600000_1_0) shapeCasts_S1x600000_S600000
/-- A vector of node indices as gather start indices: a negative index wrapped once by the number of nodes. -/
def wrapIdx (v : IVec S600000 32) : IVec S600000x1 32 :=
  broadcastInDim S600000x1 ![0] bcast_S600000_S600000x1_0
    (select (cmpi .slt v (broadcastInDim S600000 ![] bcast_S_S600000 (constantI S_ 32 0#32)))
      (addi v (broadcastInDim S600000 ![] bcast_S_S600000 (constantI S_ 32 50000#32))) v)
/-- The target row as scatter indices. -/
def tgtIdx (e : IVec S2x600000 32) : IVec S600000x1 32 :=
  broadcastInDim S600000x1 ![0] bcast_S600000_S600000x1_0 (tgtOf e)
/-- The neighbour sum: the source nodes' rows of `h`, added up at the target nodes. -/
def aggOf (h : FVec F S50000x128 .f32) (e : IVec S2x600000 32) : FVec F S50000x128 .f32 :=
  Host.scatterAdd scatter_S50000x128_S600000x1_S600000x128_1_0_0_1
    (broadcastInDim S50000x128 ![] bcast_S_S50000x128 (constant S_ .f32 0x00000000#32)) (tgtIdx e)
    (Host.gather gather_S50000x128_S600000x1_S600000x128_1_0_n_n_0_1_1128 h (wrapIdx (srcOf e)))

/-- The float ones [50000]. -/
def ones50000 : FVec F S50000 .f32 := broadcastInDim S50000 ![] bcast_S_S50000 (constant S_ .f32 0x3F800000#32)

/-- The target degree, counted on integers and converted. -/
def degI (e : IVec S2x600000 32) : FVec F S50000 .f32 :=
  sitofp .f32 (Host.scatter scatter_S50000_S600000x1_S600000_n_0_0_1 IntOp.addi
    (broadcastInDim S50000 ![] bcast_S_S50000 (constantI S_ 32 0#32)) (tgtIdx e)
    (broadcastInDim S600000 ![] bcast_S_S600000 (constantI S_ 32 1#32)))
/-- The target degree, counted on floats. -/
def degF (e : IVec S2x600000 32) : FVec F S50000 .f32 :=
  Host.scatterAdd scatter_S50000_S600000x1_S600000_n_0_0_1
    (broadcastInDim S50000 ![] bcast_S_S50000 (constant S_ .f32 0x00000000#32)) (tgtIdx e)
    (broadcastInDim S600000 ![] bcast_S_S600000 (constant S_ .f32 0x3F800000#32))

/-- The inverse degrees as a column, by a reshape of the integer count's quotient. -/
def degInvK (e : IVec S2x600000 32) : FVec F S50000x1 .f32 :=
  shapeCast _ (Host.divf ones50000 (maximumf (degI e) ones50000)) shapeCasts_S50000_S50000x1
/-- The inverse degrees as a column, by a broadcast of the float count's quotient along a new unit axis. -/
def degInvR (e : IVec S2x600000 32) : FVec F S50000x1 .f32 :=
  broadcastInDim S50000x1 ![0] bcast_S50000_S50000x1_0 (Host.divf ones50000 (maximumf (degF e) ones50000))

/-- The two degree counts agree at the ideal values: 600000 edges are far below `2^31`. -/
theorem degI_eq_degF (e : IVec S2x600000 32) : degI (F := Ideal) e = degF (F := Ideal) e :=
  Cert.LibScatterCount.sitofp_scatter_ones scatter_S50000_S600000x1_S600000_n_0_0_1 (tgtIdx e) (by decide)

/-- A vector [a] broadcast along a new trailing unit axis reads, at (r, z), the vector at r. -/
theorem broadcastInDim_a_a1_apply {α : Type} {a : Nat} (x : (⟨1, ![a]⟩ : Shape).Idx → α)
    (h : (⟨1, ![a]⟩ : Shape).BroadcastsInDim ⟨2, ![a, 1]⟩ ![0]) (r : Fin a) (z : Fin 1) :
    broadcastInDim ⟨2, ![a, 1]⟩ ![0] h x (ix2 r z) = x (ix1 r) := by
  refine broadcastInDim_apply _ h x (ix2 r z) (ix1 r) fun ax => ?_
  match ax with
  | ⟨0, _⟩ =>
    show r.val = if a = 1 then 0 else r.val
    split
    · have := r.isLt; omega
    · rfl

/-- A vector [n] broadcast along a new leading unit axis reads, at (z, q), the vector at q. -/
theorem broadcastInDim_n_1n_apply {α : Type} {n : Nat} (x : (⟨1, ![n]⟩ : Shape).Idx → α)
    (h : (⟨1, ![n]⟩ : Shape).BroadcastsInDim ⟨2, ![1, n]⟩ ![1]) (z : Fin 1) (q : Fin n) :
    broadcastInDim ⟨2, ![1, n]⟩ ![1] h x (ix2 z q) = x (ix1 q) := by
  refine broadcastInDim_apply _ h x (ix2 z q) (ix1 q) fun ax => ?_
  match ax with
  | ⟨0, _⟩ =>
    show q.val = if n = 1 then 0 else q.val
    split
    · have := q.isLt; omega
    · rfl

/-- A vector [n] cast to a row [1, n] reads, at (z, q), the vector at q. -/
theorem shapeCast_n_1n_apply {α : Type} {n : Nat} (x : (⟨1, ![n]⟩ : Shape).Idx → α) (h : (⟨1, ![n]⟩ : Shape).ShapeCasts ⟨2, ![1, n]⟩)
    (z : Fin 1) (q : Fin n) : shapeCast ⟨2, ![1, n]⟩ x h (ix2 z q) = x (ix1 q) :=
  shapeCast_apply x h _ _ (by
    have hz : z.val = 0 := by omega
    rw [Shape.rowMajor_val_two, Shape.rowMajor_val_one]
    show q.val = z.val * n + q.val
    rw [hz, Nat.zero_mul, Nat.zero_add])

/-- A column from a vector: the reshape and the broadcast along a new unit axis are one array. -/
theorem column_eq {α : Type} {a : Nat} (x : (⟨1, ![a]⟩ : Shape).Idx → α) (h : (⟨1, ![a]⟩ : Shape).ShapeCasts ⟨2, ![a, 1]⟩)
    (h' : (⟨1, ![a]⟩ : Shape).BroadcastsInDim ⟨2, ![a, 1]⟩ ![0]) :
    shapeCast ⟨2, ![a, 1]⟩ x h = broadcastInDim ⟨2, ![a, 1]⟩ ![0] h' x := by
  funext j
  obtain ⟨r, z, rfl⟩ : ∃ (r : Fin a) (z : Fin 1), j = ix2 r z := ⟨j 0, j 1, eq_ix2 j⟩
  rw [Cert.Lib.ColumnForms.shapeCast_a_a1_apply, broadcastInDim_a_a1_apply]

/-- A row from a vector: the reshape and the broadcast along a new unit axis are one array. -/
theorem row_eq {α : Type} {n : Nat} (x : (⟨1, ![n]⟩ : Shape).Idx → α) (h : (⟨1, ![n]⟩ : Shape).ShapeCasts ⟨2, ![1, n]⟩)
    (h' : (⟨1, ![n]⟩ : Shape).BroadcastsInDim ⟨2, ![1, n]⟩ ![1]) :
    shapeCast ⟨2, ![1, n]⟩ x h = broadcastInDim ⟨2, ![1, n]⟩ ![1] h' x := by
  funext j
  obtain ⟨z, q, rfl⟩ : ∃ (z : Fin 1) (q : Fin n), j = ix2 z q := ⟨j 0, j 1, eq_ix2 j⟩
  rw [shapeCast_n_1n_apply, broadcastInDim_n_1n_apply]

/-- The two columns of inverse degrees are one array, at the ideal values. -/
theorem degInvK_eq_degInvR (e : IVec S2x600000 32) : degInvK (F := Ideal) e = degInvR (F := Ideal) e := by
  unfold degInvK degInvR
  rw [degI_eq_degF]
  exact column_eq _ _ _

/-! ## The readout -/

/-- The root nodes as gather start indices (a negative index wrapped once). -/
def rootIdx (r : IVec S256 32) : IVec S256x1 32 :=
  broadcastInDim S256x1 ![0] bcast_S256_S256x1_0
    (select (cmpi .slt r (broadcastInDim S256 ![] bcast_S_S256 (constantI S_ 32 0#32)))
      (addi r (broadcastInDim S256 ![] bcast_S_S256 (constantI S_ 32 50000#32))) r)
/-- The graph assignment as scatter indices. -/
def batchIdx (bt : IVec S50000 32) : IVec S50000x1 32 := broadcastInDim S50000x1 ![0] bcast_S50000_S50000x1_0 bt
/-- The float ones [256]. -/
def ones256 : FVec F S256 .f32 := broadcastInDim S256 ![] bcast_S_S256 (constant S_ .f32 0x3F800000#32)
/-- The graph sizes, counted on integers and converted. -/
def cntI (bt : IVec S50000 32) : FVec F S256 .f32 :=
  sitofp .f32 (Host.scatter scatter_S256_S50000x1_S50000_n_0_0_1 IntOp.addi
    (broadcastInDim S256 ![] bcast_S_S256 (constantI S_ 32 0#32)) (batchIdx bt)
    (broadcastInDim S50000 ![] bcast_S_S50000 (constantI S_ 32 1#32)))
/-- The graph sizes, counted on floats. -/
def cntF (bt : IVec S50000 32) : FVec F S256 .f32 :=
  Host.scatterAdd scatter_S256_S50000x1_S50000_n_0_0_1
    (broadcastInDim S256 ![] bcast_S_S256 (constant S_ .f32 0x00000000#32)) (batchIdx bt)
    (broadcastInDim S50000 ![] bcast_S_S50000 (constant S_ .f32 0x3F800000#32))

/-- The two graph-size counts agree at the ideal values. -/
theorem cntI_eq_cntF (bt : IVec S50000 32) : cntI (F := Ideal) bt = cntF (F := Ideal) bt :=
  Cert.LibScatterCount.sitofp_scatter_ones scatter_S256_S50000x1_S50000_n_0_0_1 (batchIdx bt) (by decide)

/-- The classifier's input: the root nodes' rows beside the graphs' mean rows, for a given vector of graph sizes. -/
def pooled (h : FVec F S50000x128 .f32) (r : IVec S256 32) (bt : IVec S50000 32) (cnt : FVec F S256 .f32) : FVec F S256x256 .f32 :=
  concatenate S256x256 1
    [⟨S256x128, Host.gather gather_S50000x128_S256x1_S256x128_1_0_n_n_0_1_1128 h (rootIdx r)⟩,
     ⟨S256x128, Host.divf
        (Host.scatterAdd scatter_S256x128_S50000x1_S50000x128_1_0_0_1
          (broadcastInDim S256x128 ![] bcast_S_S256x128 (constant S_ .f32 0x00000000#32)) (batchIdx bt) h)
        (broadcastInDim S256x128 ![0, 1] bcast_S256x1_S256x128_0_1
          (broadcastInDim S256x1 ![0] bcast_S256_S256x1_0 (maximumf cnt ones256)))⟩]
    concatenates_S256x128_S256x128_S256x256_d1

end Cert.KernelIdeal.Stages

end
-- ==== Proof.LibMatmulNN.lean ====
/-
  A matrix product read at an entry, at the ideal instance.

  For a `tpu.matmul` whose dimension numbers are the plain ones — the left operand M×K contracted on its second axis,
  the right operand K×N contracted on its first, no batch axis — into the zero accumulator, the entry at row `a` and
  column `b` is the textbook sum over `k : Fin K` of `lhs (a, k) · rhs (k, b)` on the extended reals: the
  contraction's one-axis index set is identified with `Fin K` and each operand index is named by its coordinates.
  The lemma is stated for any dimension-number record with those five lists, so it applies to every printed record
  of this form whatever the extents.
-/
import Idealize.ShloMosaic.PureOps.Ideal.Laws
import Idealize.ShloMosaic.Lib.ValueIdx

noncomputable section

open scoped BigOperators

namespace Cert.LibMatmulNN

open Idealize.ShloMosaic Idealize.ShloMosaic.ValueIdx

variable {M K N : Nat} {φ₁ φ₂ : FTy}

/-- The contraction shape of a record with one left contracting axis has rank one. -/
theorem contr_rank (d : DotDims ⟨2, ![M, K]⟩ ⟨2, ![K, N]⟩ ⟨2, ![M, N]⟩) (hlc : d.lhsContracting = [1]) :
    d.contr.rank = 1 := by
  rw [d.rank_contr, hlc]; rfl

/-- Its one extent is the left operand's second. -/
theorem contr_size (d : DotDims ⟨2, ![M, K]⟩ ⟨2, ![K, N]⟩ ⟨2, ![M, N]⟩) (hlc : d.lhsContracting = [1]) :
    d.contr.size ⟨0, by rw [contr_rank d hlc]; exact Nat.one_pos⟩ = K := by
  have h := d.size_contr 0 (by rw [hlc]; exact Nat.one_pos)
  rw [h]
  simp only [hlc, List.getElem_cons_zero]
  rfl

/-- A rank-2 index read at a position known to be the first is its first coordinate. -/
theorem ix2_val_zero {n0 n1 : Nat} (a : Fin n0) (b : Fin n1) (p : Nat) (hp : p < 2) (h : p = 0) :
    (ix2 a b ⟨p, hp⟩).val = a.val := by subst h; rfl

/-- At a position known to be the second, its second coordinate. -/
theorem ix2_val_one {n0 n1 : Nat} (a : Fin n0) (b : Fin n1) (p : Nat) (hp : p < 2) (h : p = 1) :
    (ix2 a b ⟨p, hp⟩).val = b.val := by subst h; rfl

/-- The left operand's index at output `(a, b)` and contraction position `k` is `(a, k)`. -/
theorem lhsIdx_eq (d : DotDims ⟨2, ![M, K]⟩ ⟨2, ![K, N]⟩ ⟨2, ![M, N]⟩)
    (hlc : d.lhsContracting = [1]) (hln : d.lhsNonContracting = [0]) (hlb : d.lhsBatch = [])
    (a : Fin M) (b : Fin N) (k : Fin K) :
    d.lhsIdx (ix2 a b) ((contrEquiv1 d K (contr_rank d hlc) (contr_size d hlc)).symm k) = ix2 a k := by
  funext c
  apply Fin.ext
  match c with
  | ⟨0, _⟩ =>
    show (d.lhsIdx (ix2 a b) _ (0 : Fin 2)).val = a.val
    have hnb : (0 : Fin 2) ∉ d.lhsBatch := by rw [hlb]; exact List.not_mem_nil
    have hn : (0 : Fin 2) ∈ d.lhsNonContracting := by rw [hln]; exact List.mem_singleton.mpr rfl
    unfold DotDims.lhsIdx
    rw [dif_neg hnb, dif_pos hn]
    simp only [Fin.val_cast]
    exact ix2_val_zero a b _ _ (by simp [hlb, hln])
  | ⟨1, _⟩ =>
    show (d.lhsIdx (ix2 a b) _ (1 : Fin 2)).val = k.val
    rw [DotDims.lhsIdx_val_of_single d hlc]
    exact contrEquiv1_symm_val d K (contr_rank d hlc) (contr_size d hlc) k

/-- The right operand's index there is `(k, b)`. -/
theorem rhsIdx_eq (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (a : Fin M) (b : Fin N) (k : Fin K) :
    d.rhsIdx (ix2 a b) ((contrEquiv1 d K (contr_rank d hlc) (contr_size d hlc)).symm k) = ix2 k b := by
  funext c
  apply Fin.ext
  match c with
  | ⟨0, _⟩ =>
    show (d.rhsIdx (ix2 a b) _ (0 : Fin 2)).val = k.val
    rw [DotDims.rhsIdx_val_of_single d hrc]
    exact contrEquiv1_symm_val d K (contr_rank d hlc) (contr_size d hlc) k
  | ⟨1, _⟩ =>
    show (d.rhsIdx (ix2 a b) _ (1 : Fin 2)).val = b.val
    have hnb : (1 : Fin 2) ∉ d.rhsBatch := by rw [hrb]; exact List.not_mem_nil
    have hn : (1 : Fin 2) ∈ d.rhsNonContracting := by rw [hrn]; exact List.mem_singleton.mpr rfl
    unfold DotDims.rhsIdx
    rw [dif_neg hnb, dif_pos hn]
    simp only [Fin.val_cast]
    exact ix2_val_one a b _ _ (by simp [hlb, hln, hrn])

/-- A plain matrix product into the zero accumulator, read at the entry `(a, b)`: the sum over `k` of the left
    operand's `(a, k)` times the right operand's `(k, b)`. -/
theorem matmul_zero_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (lhs : FVec Ideal ⟨2, ![M, K]⟩ φ₁) (rhs : FVec Ideal ⟨2, ![K, N]⟩ φ₂) (a : Fin M) (b : Fin N) :
    FloatOps.matmul d prec lhs rhs (constant (F := Ideal) ⟨2, ![M, N]⟩ .f32 0x00000000#32) (ix2 a b)
      = ∑ k : Fin K, lhs (ix2 a k) * rhs (ix2 k b) := by
  rw [Ideal.matmul_constant_zero_apply]
  rw [← Equiv.sum_comp (contrEquiv1 d K (contr_rank d hlc) (contr_size d hlc)).symm]
  refine Finset.sum_congr rfl fun k _ => ?_
  rw [lhsIdx_eq d hlc hln hlb a b k, rhsIdx_eq d hlc hrc hln hrn hlb hrb a b k]

/-- The same for the product written with the vector operation `matmul`, as a printed kernel body applies it. -/
theorem matmul_zero_apply' (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (lhs : FVec Ideal ⟨2, ![M, K]⟩ φ₁) (rhs : FVec Ideal ⟨2, ![K, N]⟩ φ₂) (a : Fin M) (b : Fin N) :
    matmul d prec lhs rhs (constant (F := Ideal) ⟨2, ![M, N]⟩ .f32 0x00000000#32) (ix2 a b)
      = ∑ k : Fin K, lhs (ix2 a k) * rhs (ix2 k b) :=
  matmul_zero_apply d hlc hrc hln hrn hlb hrb prec lhs rhs a b

end Cert.LibMatmulNN

end
-- ==== Proof.LibDotGeneralNN.lean ====
/-
  A host matrix product read at an entry, at the ideal instance.

  For a `dot_general` on the host whose dimension numbers are the plain ones — the left operand M×K contracted on its
  second axis, the right operand K×N contracted on its first, no batch axis — the entry at row `a` and column `b` is
  the textbook sum over `k : Fin K` of `lhs (a, k) · rhs (k, b)` on the extended reals, whatever the precision and the
  schedule key: the same sum a matrix product into the zero accumulator has. Stated for any dimension-number record
  with those lists.
-/
import proofs.«144729_j33328946217667_2_alg».proof.Proof.LibMatmulNN

noncomputable section

open scoped BigOperators

namespace Cert.LibDotGeneralNN

open Idealize.ShloMosaic Idealize.ShloMosaic.ValueIdx Cert.LibMatmulNN

variable {M K N : Nat} {φ₁ φ₂ : FTy}

/-- A plain host matrix product, read at the entry `(a, b)`: the sum over `k` of the left operand's `(a, k)` times the
    right operand's `(k, b)`. -/
theorem dotGeneral_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule)
    (lhs : FVec Ideal ⟨2, ![M, K]⟩ φ₁) (rhs : FVec Ideal ⟨2, ![K, N]⟩ φ₂) (a : Fin M) (b : Fin N) :
    FloatOps.dotGeneral d prec sched lhs rhs (ix2 a b) = ∑ k : Fin K, lhs (ix2 a k) * rhs (ix2 k b) := by
  rw [Ideal.dotGeneral_apply]
  rw [← Equiv.sum_comp (contrEquiv1 d K (contr_rank d hlc) (contr_size d hlc)).symm]
  refine Finset.sum_congr rfl fun k _ => ?_
  rw [lhsIdx_eq d hlc hln hlb a b k, rhsIdx_eq d hlc hrc hln hrn hlb hrb a b k]

end Cert.LibDotGeneralNN

end
-- ==== Proof.LayerForms.lean ====
/-
  One mean-aggregation layer, read entry by entry.

  For a block (or a whole array) of `M` rows: with `agg` the summed neighbour features, `dv` the column of inverse degrees,
  `x` the node's own features, `wl`, `wr` the two (already transposed) weight matrices and `b` the bias row, the layer's
  entry `(p, q)` is

    max( (Σ_k (agg(p,k) · dv(p,0)) · wl(k,q)  +  b(0,q))  +  Σ_k x(p,k) · wr(k,q) ,  0 )

  on the extended reals.  A kernel body computes it as `((A + X) + b)`, the host program as `((A + b) + X)`: the same
  number, since addition of extended reals is commutative and associative (no infinity is cancelled here).
  Also: the affine head `c · w + b`, which both programs compute in one order.
-/
import proofs.«144729_j33328946217667_2_alg».proof.Proof.LibMatmulNN
import proofs.«144729_j33328946217667_2_alg».proof.Proof.LibDotGeneralNN
import proofs.«144729_j33328946217667_2_alg».proof.Proof.LibColumnForms
import Idealize.ShloMosaic.Lib.Pipeline.Value

noncomputable section

open scoped BigOperators

namespace Cert.LayerForms

open Idealize.ShloMosaic Idealize.ShloMosaic.ValueIdx

variable {M K N : Nat}

/-- The layer's entry `(p, q)`. -/
def layerAt (agg x : (⟨2, ![M, K]⟩ : Shape).Idx → EReal) (dv : (⟨2, ![M, 1]⟩ : Shape).Idx → EReal)
    (wl wr : (⟨2, ![K, N]⟩ : Shape).Idx → EReal) (b : (⟨2, ![1, N]⟩ : Shape).Idx → EReal) (p : Fin M) (q : Fin N) : EReal :=
  max (((∑ k : Fin K, (agg (ix2 p k) * dv (ix2 p (0 : Fin 1))) * wl (ix2 k q)) + b (ix2 (0 : Fin 1) q))
      + ∑ k : Fin K, x (ix2 p k) * wr (ix2 k q)) (Ideal.ofBits .f32 0x00000000#32)

/-- The affine head's entry `(p, q)`. -/
def affineAt (c : (⟨2, ![M, K]⟩ : Shape).Idx → EReal) (w : (⟨2, ![K, N]⟩ : Shape).Idx → EReal)
    (b : (⟨2, ![1, N]⟩ : Shape).Idx → EReal) (p : Fin M) (q : Fin N) : EReal :=
  (∑ k : Fin K, c (ix2 p k) * w (ix2 k q)) + b (ix2 (0 : Fin 1) q)

/-- The layer's entry depends only on row `p` of the row-blocked operands and on column `q` of the others: two
    entries, of arrays of possibly different heights, agree when those rows and columns do. -/
theorem layerAt_congr {M' : Nat} {agg x : (⟨2, ![M, K]⟩ : Shape).Idx → EReal} {dv : (⟨2, ![M, 1]⟩ : Shape).Idx → EReal}
    {wl wr : (⟨2, ![K, N]⟩ : Shape).Idx → EReal} {b : (⟨2, ![1, N]⟩ : Shape).Idx → EReal}
    {agg' x' : (⟨2, ![M', K]⟩ : Shape).Idx → EReal} {dv' : (⟨2, ![M', 1]⟩ : Shape).Idx → EReal}
    {wl' wr' : (⟨2, ![K, N]⟩ : Shape).Idx → EReal} {b' : (⟨2, ![1, N]⟩ : Shape).Idx → EReal}
    {p : Fin M} {p' : Fin M'} {q q' : Fin N}
    (hagg : ∀ k : Fin K, agg (ix2 p k) = agg' (ix2 p' k)) (hx : ∀ k : Fin K, x (ix2 p k) = x' (ix2 p' k))
    (hdv : dv (ix2 p (0 : Fin 1)) = dv' (ix2 p' (0 : Fin 1)))
    (hwl : ∀ k : Fin K, wl (ix2 k q) = wl' (ix2 k q')) (hwr : ∀ k : Fin K, wr (ix2 k q) = wr' (ix2 k q'))
    (hb : b (ix2 (0 : Fin 1) q) = b' (ix2 (0 : Fin 1) q')) :
    layerAt agg x dv wl wr b p q = layerAt agg' x' dv' wl' wr' b' p' q' := by
  unfold layerAt
  simp only [hagg, hx, hdv, hwl, hwr, hb]

/-- The affine head's entry depends only on row `p` of the left operand and column `q` of the others. -/
theorem affineAt_congr {c c' : (⟨2, ![M, K]⟩ : Shape).Idx → EReal} {w w' : (⟨2, ![K, N]⟩ : Shape).Idx → EReal}
    {b b' : (⟨2, ![1, N]⟩ : Shape).Idx → EReal} {p p' : Fin M} {q q' : Fin N}
    (hc : ∀ k : Fin K, c (ix2 p k) = c' (ix2 p' k)) (hw : ∀ k : Fin K, w (ix2 k q) = w' (ix2 k q'))
    (hb : b (ix2 (0 : Fin 1) q) = b' (ix2 (0 : Fin 1) q')) :
    affineAt c w b p q = affineAt c' w' b' p' q' := by
  unfold affineAt
  simp only [hc, hw, hb]

/-- A row [1, N] broadcast to [M, N] reads, at (p, q), the row's entry of column q. -/
theorem broadcastTo_1n_mn_apply {α : Type} (v : (⟨2, ![1, N]⟩ : Shape).Idx → α) (h : (⟨2, ![1, N]⟩ : Shape).Broadcasts ⟨2, ![M, N]⟩)
    (p : Fin M) (q : Fin N) : broadcastTo ⟨2, ![M, N]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if N = 1 then 0 else q.val
    split
    · have := q.isLt; omega
    · rfl

/-- A column [M, 1] broadcast (host form, dims [0, 1]) to [M, K] reads, at (p, k), the column's entry of row p. -/
theorem broadcastInDim_m1_mk_apply {α : Type} (v : (⟨2, ![M, 1]⟩ : Shape).Idx → α)
    (h : (⟨2, ![M, 1]⟩ : Shape).BroadcastsInDim ⟨2, ![M, K]⟩ ![0, 1]) (p : Fin M) (k : Fin K) :
    broadcastInDim ⟨2, ![M, K]⟩ ![0, 1] h v (ix2 p k) = v (ix2 p (0 : Fin 1)) := by
  refine broadcastInDim_apply _ h v (ix2 p k) (ix2 p (0 : Fin 1)) fun ax => ?_
  match ax with
  | ⟨0, _⟩ =>
    show p.val = if M = 1 then 0 else p.val
    split
    · have := p.isLt; omega
    · rfl
  | ⟨1, _⟩ => rfl

/-- A row [1, N] broadcast (host form, dims [0, 1]) to [M, N] reads, at (p, q), the row's entry of column q. -/
theorem broadcastInDim_1n_mn_apply {α : Type} (v : (⟨2, ![1, N]⟩ : Shape).Idx → α)
    (h : (⟨2, ![1, N]⟩ : Shape).BroadcastsInDim ⟨2, ![M, N]⟩ ![0, 1]) (p : Fin M) (q : Fin N) :
    broadcastInDim ⟨2, ![M, N]⟩ ![0, 1] h v (ix2 p q) = v (ix2 (0 : Fin 1) q) := by
  refine broadcastInDim_apply _ h v (ix2 p q) (ix2 (0 : Fin 1) q) fun ax => ?_
  match ax with
  | ⟨0, _⟩ => rfl
  | ⟨1, _⟩ =>
    show q.val = if N = 1 then 0 else q.val
    split
    · have := q.isLt; omega
    · rfl

section Kernel

variable (d : DotDims ⟨2, ![M, K]⟩ ⟨2, ![K, N]⟩ ⟨2, ![M, N]⟩)
  (hlc : d.lhsContracting = [1]) (hrc : d.rhsContracting = [0]) (hln : d.lhsNonContracting = [0])
  (hrn : d.rhsNonContracting = [1]) (hlb : d.lhsBatch = []) (hrb : d.rhsBatch = [])

include hlc hrc hln hrn hlb hrb

/-- The kernel body's form of the layer, `max(((A + X) + b), 0)` over matrix products into zero accumulators. -/
theorem kernel_layer_apply (hb1 : (⟨2, ![M, 1]⟩ : Shape).Broadcasts ⟨2, ![M, K]⟩) (hb2 : (⟨2, ![1, N]⟩ : Shape).Broadcasts ⟨2, ![M, N]⟩)
    (agg x : FVec Ideal ⟨2, ![M, K]⟩ .f32) (dv : FVec Ideal ⟨2, ![M, 1]⟩ .f32) (wl wr : FVec Ideal ⟨2, ![K, N]⟩ .f32)
    (b : FVec Ideal ⟨2, ![1, N]⟩ .f32) (p : Fin M) (q : Fin N) :
    maximumf (addf (addf (matmul d none (mulf agg (broadcastTo ⟨2, ![M, K]⟩ dv hb1)) wl (constant (F := Ideal) ⟨2, ![M, N]⟩ .f32 0x00000000#32))
        (matmul d none x wr (constant (F := Ideal) ⟨2, ![M, N]⟩ .f32 0x00000000#32)))
      (broadcastTo ⟨2, ![M, N]⟩ b hb2)) (broadcast ⟨2, ![M, N]⟩ (Scalar.ofBits (F := Ideal) .f32 0x00000000#32)) (ix2 p q)
      = layerAt agg x dv wl wr b p q := by
  show max (((matmul d none (mulf agg (broadcastTo ⟨2, ![M, K]⟩ dv hb1)) wl (constant (F := Ideal) ⟨2, ![M, N]⟩ .f32 0x00000000#32)) (ix2 p q)
      + (matmul d none x wr (constant (F := Ideal) ⟨2, ![M, N]⟩ .f32 0x00000000#32)) (ix2 p q))
      + broadcastTo ⟨2, ![M, N]⟩ b hb2 (ix2 p q)) (Ideal.ofBits .f32 0x00000000#32) = _
  rw [Cert.LibMatmulNN.matmul_zero_apply' d hlc hrc hln hrn hlb hrb, Cert.LibMatmulNN.matmul_zero_apply' d hlc hrc hln hrn hlb hrb,
    broadcastTo_1n_mn_apply]
  unfold layerAt
  rw [add_right_comm]
  refine congrArg (fun z => max ((z + _) + _) _) (Finset.sum_congr rfl fun k _ => ?_)
  show (agg (ix2 p k) * broadcastTo ⟨2, ![M, K]⟩ dv hb1 (ix2 p k)) * wl (ix2 k q) = _
  rw [Cert.Lib.ColumnForms.broadcastTo_a1_ab_apply]

/-- The kernel body's form of the affine head, a matrix product into the zero accumulator plus the bias row. -/
theorem kernel_affine_apply (hb2 : (⟨2, ![1, N]⟩ : Shape).Broadcasts ⟨2, ![M, N]⟩)
    (c : FVec Ideal ⟨2, ![M, K]⟩ .f32) (w : FVec Ideal ⟨2, ![K, N]⟩ .f32) (b : FVec Ideal ⟨2, ![1, N]⟩ .f32) (p : Fin M) (q : Fin N) :
    addf (matmul d none c w (constant (F := Ideal) ⟨2, ![M, N]⟩ .f32 0x00000000#32)) (broadcastTo ⟨2, ![M, N]⟩ b hb2) (ix2 p q)
      = affineAt c w b p q := by
  show (matmul d none c w (constant (F := Ideal) ⟨2, ![M, N]⟩ .f32 0x00000000#32)) (ix2 p q) + broadcastTo ⟨2, ![M, N]⟩ b hb2 (ix2 p q) = _
  rw [Cert.LibMatmulNN.matmul_zero_apply' d hlc hrc hln hrn hlb hrb, broadcastTo_1n_mn_apply]
  rfl

/-- The host program's form of the layer, `max(((A + b) + X), 0)` over `dot_general`s. -/
theorem host_layer_apply (hb1 : (⟨2, ![M, 1]⟩ : Shape).BroadcastsInDim ⟨2, ![M, K]⟩ ![0, 1])
    (hb2 : (⟨2, ![1, N]⟩ : Shape).BroadcastsInDim ⟨2, ![M, N]⟩ ![0, 1]) (hb0 : (⟨0, ![]⟩ : Shape).BroadcastsInDim ⟨2, ![M, N]⟩ ![])
    (agg x : FVec Ideal ⟨2, ![M, K]⟩ .f32) (dv : FVec Ideal ⟨2, ![M, 1]⟩ .f32) (wl wr : FVec Ideal ⟨2, ![K, N]⟩ .f32)
    (b : FVec Ideal ⟨2, ![1, N]⟩ .f32) (p : Fin M) (q : Fin N) :
    maximumf (addf (addf (Host.dotGeneral d none (mulf agg (broadcastInDim ⟨2, ![M, K]⟩ ![0, 1] hb1 dv)) wl)
        (broadcastInDim ⟨2, ![M, N]⟩ ![0, 1] hb2 b)) (Host.dotGeneral d none x wr))
      (broadcastInDim ⟨2, ![M, N]⟩ ![] hb0 (constant (F := Ideal) ⟨0, ![]⟩ .f32 0x00000000#32)) (ix2 p q)
      = layerAt agg x dv wl wr b p q := by
  show max (((Host.dotGeneral d none (mulf agg (broadcastInDim ⟨2, ![M, K]⟩ ![0, 1] hb1 dv)) wl) (ix2 p q)
      + broadcastInDim ⟨2, ![M, N]⟩ ![0, 1] hb2 b (ix2 p q)) + (Host.dotGeneral d none x wr) (ix2 p q))
      (broadcastInDim ⟨2, ![M, N]⟩ ![] hb0 (constant (F := Ideal) ⟨0, ![]⟩ .f32 0x00000000#32) (ix2 p q)) = _
  simp only [Host.dotGeneral]
  rw [Cert.LibDotGeneralNN.dotGeneral_apply d hlc hrc hln hrn hlb hrb, Cert.LibDotGeneralNN.dotGeneral_apply d hlc hrc hln hrn hlb hrb,
    broadcastInDim_1n_mn_apply]
  unfold layerAt
  refine congrArg₂ (fun z o => max ((z + _) + _) o) (Finset.sum_congr rfl fun k _ => ?_) rfl
  show (agg (ix2 p k) * broadcastInDim ⟨2, ![M, K]⟩ ![0, 1] hb1 dv (ix2 p k)) * wl (ix2 k q) = _
  rw [broadcastInDim_m1_mk_apply]

/-- The host program's form of the affine head. -/
theorem host_affine_apply (hb2 : (⟨2, ![1, N]⟩ : Shape).BroadcastsInDim ⟨2, ![M, N]⟩ ![0, 1])
    (c : FVec Ideal ⟨2, ![M, K]⟩ .f32) (w : FVec Ideal ⟨2, ![K, N]⟩ .f32) (b : FVec Ideal ⟨2, ![1, N]⟩ .f32) (p : Fin M) (q : Fin N) :
    addf (Host.dotGeneral d none c w) (broadcastInDim ⟨2, ![M, N]⟩ ![0, 1] hb2 b) (ix2 p q) = affineAt c w b p q := by
  show (Host.dotGeneral d none c w) (ix2 p q) + broadcastInDim ⟨2, ![M, N]⟩ ![0, 1] hb2 b (ix2 p q) = _
  simp only [Host.dotGeneral]
  rw [Cert.LibDotGeneralNN.dotGeneral_apply d hlc hrc hln hrn hlb hrb, broadcastInDim_1n_mn_apply]
  rfl

/-- The layer as a whole array. -/
def layerArr (agg x : (⟨2, ![M, K]⟩ : Shape).Idx → EReal) (dv : (⟨2, ![M, 1]⟩ : Shape).Idx → EReal)
    (wl wr : (⟨2, ![K, N]⟩ : Shape).Idx → EReal) (b : (⟨2, ![1, N]⟩ : Shape).Idx → EReal) : (⟨2, ![M, N]⟩ : Shape).Idx → EReal :=
  fun i => layerAt agg x dv wl wr b (⟨(i 0).val, (i 0).isLt⟩ : Fin M) (⟨(i 1).val, (i 1).isLt⟩ : Fin N)

/-- The affine head as a whole array. -/
def affineArr (c : (⟨2, ![M, K]⟩ : Shape).Idx → EReal) (w : (⟨2, ![K, N]⟩ : Shape).Idx → EReal)
    (b : (⟨2, ![1, N]⟩ : Shape).Idx → EReal) : (⟨2, ![M, N]⟩ : Shape).Idx → EReal :=
  fun i => affineAt c w b (⟨(i 0).val, (i 0).isLt⟩ : Fin M) (⟨(i 1).val, (i 1).isLt⟩ : Fin N)

omit hlc hrc hln hrn hlb hrb in
theorem layerArr_ix2 (agg x : (⟨2, ![M, K]⟩ : Shape).Idx → EReal) (dv : (⟨2, ![M, 1]⟩ : Shape).Idx → EReal)
    (wl wr : (⟨2, ![K, N]⟩ : Shape).Idx → EReal) (b : (⟨2, ![1, N]⟩ : Shape).Idx → EReal) (p : Fin M) (q : Fin N) :
    layerArr agg x dv wl wr b (ix2 p q) = layerAt agg x dv wl wr b p q := rfl

omit hlc hrc hln hrn hlb hrb in
theorem affineArr_ix2 (c : (⟨2, ![M, K]⟩ : Shape).Idx → EReal) (w : (⟨2, ![K, N]⟩ : Shape).Idx → EReal)
    (b : (⟨2, ![1, N]⟩ : Shape).Idx → EReal) (p : Fin M) (q : Fin N) : affineArr c w b (ix2 p q) = affineAt c w b p q := rfl

/-- The host program's layer, as a whole array. -/
theorem host_layer_eq (hb1 : (⟨2, ![M, 1]⟩ : Shape).BroadcastsInDim ⟨2, ![M, K]⟩ ![0, 1])
    (hb2 : (⟨2, ![1, N]⟩ : Shape).BroadcastsInDim ⟨2, ![M, N]⟩ ![0, 1]) (hb0 : (⟨0, ![]⟩ : Shape).BroadcastsInDim ⟨2, ![M, N]⟩ ![])
    (agg x : FVec Ideal ⟨2, ![M, K]⟩ .f32) (dv : FVec Ideal ⟨2, ![M, 1]⟩ .f32) (wl wr : FVec Ideal ⟨2, ![K, N]⟩ .f32)
    (b : FVec Ideal ⟨2, ![1, N]⟩ .f32) :
    maximumf (addf (addf (Host.dotGeneral d none (mulf agg (broadcastInDim ⟨2, ![M, K]⟩ ![0, 1] hb1 dv)) wl)
        (broadcastInDim ⟨2, ![M, N]⟩ ![0, 1] hb2 b)) (Host.dotGeneral d none x wr))
      (broadcastInDim ⟨2, ![M, N]⟩ ![] hb0 (constant (F := Ideal) ⟨0, ![]⟩ .f32 0x00000000#32))
      = layerArr agg x dv wl wr b := by
  funext j
  obtain ⟨p, q, rfl⟩ : ∃ (p : Fin M) (q : Fin N), j = ix2 p q := ⟨j 0, j 1, eq_ix2 j⟩
  rw [layerArr_ix2]
  exact host_layer_apply d hlc hrc hln hrn hlb hrb hb1 hb2 hb0 agg x dv wl wr b p q

/-- The host program's affine head, as a whole array. -/
theorem host_affine_eq (hb2 : (⟨2, ![1, N]⟩ : Shape).BroadcastsInDim ⟨2, ![M, N]⟩ ![0, 1])
    (c : FVec Ideal ⟨2, ![M, K]⟩ .f32) (w : FVec Ideal ⟨2, ![K, N]⟩ .f32) (b : FVec Ideal ⟨2, ![1, N]⟩ .f32) :
    addf (Host.dotGeneral d none c w) (broadcastInDim ⟨2, ![M, N]⟩ ![0, 1] hb2 b) = affineArr c w b := by
  funext j
  obtain ⟨p, q, rfl⟩ : ∃ (p : Fin M) (q : Fin N), j = ix2 p q := ⟨j 0, j 1, eq_ix2 j⟩
  rw [affineArr_ix2]
  exact host_affine_apply d hlc hrc hln hrn hlb hrb hb2 c w b p q

end Kernel

end Cert.LayerForms

end
-- ==== Proof.Net.lean ====
/-
  The network both programs compute, as one function of the argument arrays.

  Four mean-aggregation layers, each the layer (Proof/LayerForms.lean) of the neighbour sums of the previous features,
  the previous features, the inverse degrees, the two transposed weight matrices and the bias as a row; then the
  readout: the root nodes' rows beside the graphs' mean rows, and the affine head with the transposed classifier
  weights and the bias as a row.
-/
import proofs.«144729_j33328946217667_2_alg».proof.Proof.Stages
import proofs.«144729_j33328946217667_2_alg».proof.Proof.LayerForms

set_option maxRecDepth 16384

noncomputable section

namespace Cert.KernelIdeal.Net

open Cert.KernelIdeal Cert.KernelIdeal.Gen Cert.KernelIdeal.Stages Cert.LayerForms Idealize.ShloMosaic

/-- The neighbour sum from a source vector and a target vector. -/
def aggOfST {F : FTy → Type} [FloatOps F] (h : FVec F S50000x128 .f32) (s t : IVec S600000 32) : FVec F S50000x128 .f32 :=
  Host.scatterAdd scatter_S50000x128_S600000x1_S600000x128_1_0_0_1
    (broadcastInDim S50000x128 ![] bcast_S_S50000x128 (constant S_ .f32 0x00000000#32))
    (broadcastInDim S600000x1 ![0] bcast_S600000_S600000x1_0 t)
    (Host.gather gather_S50000x128_S600000x1_S600000x128_1_0_n_n_0_1_1128 h (wrapIdx s))

theorem aggOfST_eq {F : FTy → Type} [FloatOps F] (h : FVec F S50000x128 .f32) (e : IVec S2x600000 32) :
    aggOfST h (srcOf e) (tgtOf e) = aggOf h e := rfl

/-- One layer: the features after it, from the features before it, the edges and the layer's parameters. -/
def sage (h : FVec Ideal S50000x128 .f32) (e : IVec S2x600000 32) (wl : FVec Ideal S128x128 .f32) (b : FVec Ideal S128 .f32)
    (wr : FVec Ideal S128x128 .f32) : S50000x128.Idx → EReal :=
  layerArr (aggOf h e) h (degInvK (F := Ideal) e) (transpose S128x128 [1, 0] wl transposes_S128x128_S128x128_1_0)
    (transpose S128x128 [1, 0] wr transposes_S128x128_S128x128_1_0) (shapeCast _ b shapeCasts_S128_S1x128)

/-- The same layer with the inverse degrees from the float count and the bias row by a broadcast. -/
theorem sage_eq_host (h : FVec Ideal S50000x128 .f32) (e : IVec S2x600000 32) (wl : FVec Ideal S128x128 .f32) (b : FVec Ideal S128 .f32)
    (wr : FVec Ideal S128x128 .f32) (h' : S128.BroadcastsInDim S1x128 ![1]) :
    layerArr (aggOf h e) h (degInvR (F := Ideal) e) (transpose S128x128 [1, 0] wl transposes_S128x128_S128x128_1_0)
      (transpose S128x128 [1, 0] wr transposes_S128x128_S128x128_1_0) (broadcastInDim S1x128 ![1] h' b) = sage h e wl b wr := by
  unfold sage
  rw [degInvK_eq_degInvR, row_eq b shapeCasts_S128_S1x128 h']

/-- The readout and the classifier. -/
def head (h : FVec Ideal S50000x128 .f32) (r : IVec S256 32) (bt : IVec S50000 32) (w : FVec Ideal S2x256 .f32) (bc : FVec Ideal S2 .f32) :
    S256x2.Idx → EReal :=
  affineArr (pooled h r bt (cntI (F := Ideal) bt)) (transpose S256x2 [1, 0] w transposes_S2x256_p1_0_S256x2) (shapeCast _ bc shapeCasts_S2_S1x2)

/-- The same readout with the graph sizes from the float count and the bias row by a broadcast. -/
theorem head_eq_host (h : FVec Ideal S50000x128 .f32) (r : IVec S256 32) (bt : IVec S50000 32) (w : FVec Ideal S2x256 .f32)
    (bc : FVec Ideal S2 .f32) (hT : S2x256.Transposes [1, 0] S256x2) (h' : S2.BroadcastsInDim S1x2 ![1]) :
    affineArr (pooled h r bt (cntF (F := Ideal) bt)) (transpose S256x2 [1, 0] w hT) (broadcastInDim S1x2 ![1] h' bc) = head h r bt w bc := by
  unfold head
  rw [cntI_eq_cntF, row_eq bc shapeCasts_S2_S1x2 h']

end Cert.KernelIdeal.Net

end
-- ==== Proof.Region0.lean ====
/-
  Region 0: what the pipelined layer kernel leaves in its output array.

  The grid has five points; point `t` stages rows `10000·t … 10000·t + 9999` of the neighbour sums, of the node features
  and of the inverse-degree column, and the two weight matrices and the bias row whole; its body stores the layer's
  value on those rows, and the write-back puts them at the same rows of the output array.  The five blocks tile the
  array, so it ends holding the layer of the whole arrays, entry by entry.
-/
import proofs.«144729_j33328946217667_2_alg».proof.Proof.Gen.KernelIdeal.Frame
import proofs.«144729_j33328946217667_2_alg».proof.Proof.LayerForms

set_option maxRecDepth 16384

noncomputable section

namespace Cert.KernelIdeal.Region0

open Cert.KernelIdeal Cert.KernelIdeal.Gen Cert.LayerForms
open Idealize.ShloMosaic Idealize.ShloMosaic.TcCoe Idealize.ShloMosaic.ValueIdx Idealize.SL.Sem
open Idealize.ShloMosaic.Pipeline (Dat Cfg Window)

theorem hz : (![0, 0] : Fin 2 → Nat) = fun _ => 0 := funext fun a => by fin_cases a <;> rfl

/-- The body's stored value at the entry `(p, q)` of a block: the layer of the loaded blocks. -/
theorem pay_apply (v0 : Vec Ideal S10000x128 .f32) (v2 : Vec Ideal S10000x1 .f32) (v6 : Vec Ideal S10000x128 .f32)
    (v7 v10 : Vec Ideal S128x128 .f32) (v14 : Vec Ideal S1x128 .f32) (p : Fin 10000) (q : Fin 128) :
    k0_pay1 (F := Ideal) v0 v2 v6 v7 v10 v14 (ix2 p q) = layerAt v0 v6 v2 v7 v10 v14 p q := by
  unfold k0_pay1
  simp only [shapeCast_self]
  exact kernel_layer_apply dot_S10000x128_S128x128_S10000x128_1_0_0_1_n_n rfl rfl rfl rfl rfl rfl _ _ v0 v6 v2 v7 v10 v14 p q

/-- The printed index maps, decided over the grid: the three row-blocked inputs move with the output's row block, the
    weights and the bias stay at block 0, and the output's row block is the point's number. -/
theorem idx_facts : ∀ t : Fin cfg0.N,
    win0_0.index t (0 : Fin 2) = win0_6.index t (0 : Fin 2) ∧ win0_0.index t (1 : Fin 2) = 0
    ∧ win0_1.index t (0 : Fin 2) = win0_6.index t (0 : Fin 2) ∧ win0_1.index t (1 : Fin 2) = 0
    ∧ win0_2.index t (0 : Fin 2) = win0_6.index t (0 : Fin 2) ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) ≤ 4 ∧ win0_6.index t (1 : Fin 2) = 0 :=
  (by decide +kernel : ∀ t : Fin grid0.N, _)

/-- Every row block is some point's. -/
theorem idx_onto : ∀ q0 : Fin 5, ∃ t : Fin cfg0.N, win0_6.index t = ![q0.val, 0] :=
  (by decide +kernel : ∀ q0 : Fin 5, ∃ t : Fin grid0.N, win0_6.index t = ![q0.val, 0])

variable (V : (c : Dev nD) → (b : Ref sig .tc) → Buf (Elt Ideal) ((c : Thread nD τ).loc b))

/-- The layer of the arrays the region finds. -/
abbrev G (c : Dev nD) : S50000x128.Idx → EReal :=
  layerArr (V c main_v25) (V c main_arg0) (V c main_v13) (V c main_v14) (V c main_v15) (V c main_v26)

/-- What point `t` writes back is block `t` of the layer of the whole arrays. -/
theorem flushed_eq (c : Dev nD) (t : Fin cfg0.N) :
    (dat0 V c).flushed 6 t = ((cfg0.win 6).blk t).view.read (Elt Ideal) (G V c) := by
  show (cfg0.win 6).cut (grid0.coords t) ((dat0 V c).after 6 t) = _
  rw [after0_6]
  unfold out0_6
  rw [View.canon_unit_zero hz]
  simp only [View.ld_unit_zero (S := S10000x128) hz, View.ld_unit_zero (S := S10000x1) hz,
    View.ld_unit_zero (S := S128x128) hz, View.ld_unit_zero (S := S1x128) hz]
  obtain ⟨e00, e01, e10, e11, e20, e21, e30, e31, e40, e41, e50, e51, e6, e61⟩ := idx_facts t
  funext j
  obtain ⟨p, q, rfl⟩ : ∃ (p : Fin 10000) (q : Fin 128), j = ix2 p q := ⟨j 0, j 1, eq_ix2 j⟩
  show k0_pay1 (iblk0 V c 0 t) (iblk0 V c 2 t) (iblk0 V c 1 t) (iblk0 V c 3 t) (iblk0 V c 5 t) (iblk0 V c 4 t) (ix2 p q)
    = G V c (((cfg0.win 6).blk t).view.emb (ix2 p q))
  rw [pay_apply]
  have h0 : ∀ k : Fin 128, ((cfg0.win 0).blk t).view.emb (ix2 p k) = ix2 (⟨((((cfg0.win 6).blk t).view.emb (ix2 p q)) 0).val, ((((cfg0.win 6).blk t).view.emb (ix2 p q)) 0).isLt⟩ : Fin 50000) k := fun k => by
    funext a; apply Fin.ext
    match a with
    | ⟨0, _⟩ => show win0_0.index t (0 : Fin 2) * 10000 + 1 * p.val = win0_6.index t (0 : Fin 2) * 10000 + 1 * p.val; omega
    | ⟨1, _⟩ => show win0_0.index t (1 : Fin 2) * 128 + 1 * k.val = k.val; omega
  have h1 : ∀ k : Fin 128, ((cfg0.win 1).blk t).view.emb (ix2 p k) = ix2 (⟨((((cfg0.win 6).blk t).view.emb (ix2 p q)) 0).val, ((((cfg0.win 6).blk t).view.emb (ix2 p q)) 0).isLt⟩ : Fin 50000) k := fun k => by
    funext a; apply Fin.ext
    match a with
    | ⟨0, _⟩ => show win0_1.index t (0 : Fin 2) * 10000 + 1 * p.val = win0_6.index t (0 : Fin 2) * 10000 + 1 * p.val; omega
    | ⟨1, _⟩ => show win0_1.index t (1 : Fin 2) * 128 + 1 * k.val = k.val; omega
  have h2 : ((cfg0.win 2).blk t).view.emb (ix2 p (0 : Fin 1)) = ix2 (⟨((((cfg0.win 6).blk t).view.emb (ix2 p q)) 0).val, ((((cfg0.win 6).blk t).view.emb (ix2 p q)) 0).isLt⟩ : Fin 50000) (0 : Fin 1) := by
    funext a; apply Fin.ext
    match a with
    | ⟨0, _⟩ => show win0_2.index t (0 : Fin 2) * 10000 + 1 * p.val = win0_6.index t (0 : Fin 2) * 10000 + 1 * p.val; omega
    | ⟨1, _⟩ => show win0_2.index t (1 : Fin 2) * 1 + 1 * 0 = 0; omega
  have h3 : ∀ k : Fin 128, ((cfg0.win 3).blk t).view.emb (ix2 k q) = ix2 k (⟨((((cfg0.win 6).blk t).view.emb (ix2 p q)) 1).val, ((((cfg0.win 6).blk t).view.emb (ix2 p q)) 1).isLt⟩ : Fin 128) := fun k => by
    funext a; apply Fin.ext
    match a with
    | ⟨0, _⟩ => show win0_3.index t (0 : Fin 2) * 128 + 1 * k.val = k.val; omega
    | ⟨1, _⟩ => show win0_3.index t (1 : Fin 2) * 128 + 1 * q.val = win0_6.index t (1 : Fin 2) * 128 + 1 * q.val; omega
  have h5 : ∀ k : Fin 128, ((cfg0.win 5).blk t).view.emb (ix2 k q) = ix2 k (⟨((((cfg0.win 6).blk t).view.emb (ix2 p q)) 1).val, ((((cfg0.win 6).blk t).view.emb (ix2 p q)) 1).isLt⟩ : Fin 128) := fun k => by
    funext a; apply Fin.ext
    match a with
    | ⟨0, _⟩ => show win0_5.index t (0 : Fin 2) * 128 + 1 * k.val = k.val; omega
    | ⟨1, _⟩ => show win0_5.index t (1 : Fin 2) * 128 + 1 * q.val = win0_6.index t (1 : Fin 2) * 128 + 1 * q.val; omega
  have h4 : ((cfg0.win 4).blk t).view.emb (ix2 (0 : Fin 1) q) = ix2 (0 : Fin 1) (⟨((((cfg0.win 6).blk t).view.emb (ix2 p q)) 1).val, ((((cfg0.win 6).blk t).view.emb (ix2 p q)) 1).isLt⟩ : Fin 128) := by
    funext a; apply Fin.ext
    match a with
    | ⟨0, _⟩ => show win0_4.index t (0 : Fin 2) * 1 + 1 * 0 = 0; omega
    | ⟨1, _⟩ => show win0_4.index t (1 : Fin 2) * 128 + 1 * q.val = win0_6.index t (1 : Fin 2) * 128 + 1 * q.val; omega
  refine layerAt_congr (fun k => ?_) (fun k => ?_) ?_ (fun k => ?_) (fun k => ?_) ?_
  · exact congrArg (fun z => V c main_v25 z) (h0 k)
  · exact congrArg (fun z => V c main_arg0 z) (h1 k)
  · exact congrArg (fun z => V c main_v13 z) h2
  · exact congrArg (fun z => V c main_v14 z) (h3 k)
  · exact congrArg (fun z => V c main_v15 z) (h5 k)
  · exact congrArg (fun z => V c main_v26 z) h4

/-- An index of the array is in point `t`'s block iff each coordinate is in the block's range on its axis. -/
theorem mem_blk (t : Fin cfg0.N) (i : S50000x128.Idx) :
    i ∈ ((cfg0.win 6).blk t).view.set ↔ ∀ a : Fin 2, win0_6.index t a * S10000x128.size a ≤ (i a).val ∧ (i a).val < win0_6.index t a * S10000x128.size a + S10000x128.size a := by
  show i ∈ ((View.whole main_v27).slice (win0_6.rect t)).set ↔ _
  rw [View.set_slice_whole, Rect.mem_set_unit]
  exact Iff.rfl

/-- The output array after the region: the layer of the arrays the region finds (row `r` is written by point `r / 10000`). -/
theorem final (c : Dev nD) : (dat0 V c).arrAt 6 cfg0.N = G V c :=
  (dat0 V c).arrAt_eq_of_cover 6 (G V c) (fun t _ => flushed_eq V c t) fun i => by
    have hi0 : (i 0).val < 50000 := (i 0).isLt
    have hi1 : (i 1).val < 128 := (i 1).isLt
    obtain ⟨t, ht⟩ := idx_onto ⟨(i 0).val / 10000, by omega⟩
    have q0 : win0_6.index t (0 : Fin 2) = (i 0).val / 10000 := congrFun ht 0
    have q1 : win0_6.index t (1 : Fin 2) = 0 := congrFun ht 1
    refine ⟨t, flush0_6 t, ?_⟩
    rw [mem_blk]
    intro a
    match a with
    | ⟨0, _⟩ => show win0_6.index t (0 : Fin 2) * 10000 ≤ (i 0).val ∧ (i 0).val < win0_6.index t (0 : Fin 2) * 10000 + 10000; omega
    | ⟨1, _⟩ => show win0_6.index t (1 : Fin 2) * 128 ≤ (i 1).val ∧ (i 1).val < win0_6.index t (1 : Fin 2) * 128 + 128; omega

end Cert.KernelIdeal.Region0

end
-- ==== Proof.Region1.lean ====
/-
  Region 1: what the pipelined layer kernel leaves in its output array.

  The grid has five points; point `t` stages rows `10000·t … 10000·t + 9999` of the neighbour sums, of the node features
  and of the inverse-degree column, and the two weight matrices and the bias row whole; its body stores the layer's
  value on those rows, and the write-back puts them at the same rows of the output array.  The five blocks tile the
  array, so it ends holding the layer of the whole arrays, entry by entry.
-/
import proofs.«144729_j33328946217667_2_alg».proof.Proof.Gen.KernelIdeal.Frame
import proofs.«144729_j33328946217667_2_alg».proof.Proof.LayerForms

set_option maxRecDepth 16384

noncomputable section

namespace Cert.KernelIdeal.Region1

open Cert.KernelIdeal Cert.KernelIdeal.Gen Cert.LayerForms
open Idealize.ShloMosaic Idealize.ShloMosaic.TcCoe Idealize.ShloMosaic.ValueIdx Idealize.SL.Sem
open Idealize.ShloMosaic.Pipeline (Dat Cfg Window)

theorem hz : (![0, 0] : Fin 2 → Nat) = fun _ => 0 := funext fun a => by fin_cases a <;> rfl

/-- The body's stored value at the entry `(p, q)` of a block: the layer of the loaded blocks. -/
theorem pay_apply (v0 : Vec Ideal S10000x128 .f32) (v2 : Vec Ideal S10000x1 .f32) (v6 : Vec Ideal S10000x128 .f32)
    (v7 v10 : Vec Ideal S128x128 .f32) (v14 : Vec Ideal S1x128 .f32) (p : Fin 10000) (q : Fin 128) :
    k1_pay1 (F := Ideal) v0 v2 v6 v7 v10 v14 (ix2 p q) = layerAt v0 v6 v2 v7 v10 v14 p q := by
  unfold k1_pay1
  simp only [shapeCast_self]
  exact kernel_layer_apply dot_S10000x128_S128x128_S10000x128_1_0_0_1_n_n rfl rfl rfl rfl rfl rfl _ _ v0 v6 v2 v7 v10 v14 p q

/-- The printed index maps, decided over the grid: the three row-blocked inputs move with the output's row block, the
    weights and the bias stay at block 0, and the output's row block is the point's number. -/
theorem idx_facts : ∀ t : Fin cfg1.N,
    win1_0.index t (0 : Fin 2) = win1_6.index t (0 : Fin 2) ∧ win1_0.index t (1 : Fin 2) = 0
    ∧ win1_1.index t (0 : Fin 2) = win1_6.index t (0 : Fin 2) ∧ win1_1.index t (1 : Fin 2) = 0
    ∧ win1_2.index t (0 : Fin 2) = win1_6.index t (0 : Fin 2) ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) ≤ 4 ∧ win1_6.index t (1 : Fin 2) = 0 :=
  (by decide +kernel : ∀ t : Fin grid1.N, _)

/-- Every row block is some point's. -/
theorem idx_onto : ∀ q0 : Fin 5, ∃ t : Fin cfg1.N, win1_6.index t = ![q0.val, 0] :=
  (by decide +kernel : ∀ q0 : Fin 5, ∃ t : Fin grid1.N, win1_6.index t = ![q0.val, 0])

variable (V : (c : Dev nD) → (b : Ref sig .tc) → Buf (Elt Ideal) ((c : Thread nD τ).loc b))

/-- The layer of the arrays the region finds. -/
abbrev G (c : Dev nD) : S50000x128.Idx → EReal :=
  layerArr (V c main_v39) (V c main_v27) (V c main_v13) (V c main_v28) (V c main_v29) (V c main_v40)

/-- What point `t` writes back is block `t` of the layer of the whole arrays. -/
theorem flushed_eq (c : Dev nD) (t : Fin cfg1.N) :
    (dat1 V c).flushed 6 t = ((cfg1.win 6).blk t).view.read (Elt Ideal) (G V c) := by
  show (cfg1.win 6).cut (grid1.coords t) ((dat1 V c).after 6 t) = _
  rw [after1_6]
  unfold out1_6
  rw [View.canon_unit_zero hz]
  simp only [View.ld_unit_zero (S := S10000x128) hz, View.ld_unit_zero (S := S10000x1) hz,
    View.ld_unit_zero (S := S128x128) hz, View.ld_unit_zero (S := S1x128) hz]
  obtain ⟨e00, e01, e10, e11, e20, e21, e30, e31, e40, e41, e50, e51, e6, e61⟩ := idx_facts t
  funext j
  obtain ⟨p, q, rfl⟩ : ∃ (p : Fin 10000) (q : Fin 128), j = ix2 p q := ⟨j 0, j 1, eq_ix2 j⟩
  show k1_pay1 (iblk1 V c 0 t) (iblk1 V c 2 t) (iblk1 V c 1 t) (iblk1 V c 3 t) (iblk1 V c 5 t) (iblk1 V c 4 t) (ix2 p q)
    = G V c (((cfg1.win 6).blk t).view.emb (ix2 p q))
  rw [pay_apply]
  have h0 : ∀ k : Fin 128, ((cfg1.win 0).blk t).view.emb (ix2 p k) = ix2 (⟨((((cfg1.win 6).blk t).view.emb (ix2 p q)) 0).val, ((((cfg1.win 6).blk t).view.emb (ix2 p q)) 0).isLt⟩ : Fin 50000) k := fun k => by
    funext a; apply Fin.ext
    match a with
    | ⟨0, _⟩ => show win1_0.index t (0 : Fin 2) * 10000 + 1 * p.val = win1_6.index t (0 : Fin 2) * 10000 + 1 * p.val; omega
    | ⟨1, _⟩ => show win1_0.index t (1 : Fin 2) * 128 + 1 * k.val = k.val; omega
  have h1 : ∀ k : Fin 128, ((cfg1.win 1).blk t).view.emb (ix2 p k) = ix2 (⟨((((cfg1.win 6).blk t).view.emb (ix2 p q)) 0).val, ((((cfg1.win 6).blk t).view.emb (ix2 p q)) 0).isLt⟩ : Fin 50000) k := fun k => by
    funext a; apply Fin.ext
    match a with
    | ⟨0, _⟩ => show win1_1.index t (0 : Fin 2) * 10000 + 1 * p.val = win1_6.index t (0 : Fin 2) * 10000 + 1 * p.val; omega
    | ⟨1, _⟩ => show win1_1.index t (1 : Fin 2) * 128 + 1 * k.val = k.val; omega
  have h2 : ((cfg1.win 2).blk t).view.emb (ix2 p (0 : Fin 1)) = ix2 (⟨((((cfg1.win 6).blk t).view.emb (ix2 p q)) 0).val, ((((cfg1.win 6).blk t).view.emb (ix2 p q)) 0).isLt⟩ : Fin 50000) (0 : Fin 1) := by
    funext a; apply Fin.ext
    match a with
    | ⟨0, _⟩ => show win1_2.index t (0 : Fin 2) * 10000 + 1 * p.val = win1_6.index t (0 : Fin 2) * 10000 + 1 * p.val; omega
    | ⟨1, _⟩ => show win1_2.index t (1 : Fin 2) * 1 + 1 * 0 = 0; omega
  have h3 : ∀ k : Fin 128, ((cfg1.win 3).blk t).view.emb (ix2 k q) = ix2 k (⟨((((cfg1.win 6).blk t).view.emb (ix2 p q)) 1).val, ((((cfg1.win 6).blk t).view.emb (ix2 p q)) 1).isLt⟩ : Fin 128) := fun k => by
    funext a; apply Fin.ext
    match a with
    | ⟨0, _⟩ => show win1_3.index t (0 : Fin 2) * 128 + 1 * k.val = k.val; omega
    | ⟨1, _⟩ => show win1_3.index t (1 : Fin 2) * 128 + 1 * q.val = win1_6.index t (1 : Fin 2) * 128 + 1 * q.val; omega
  have h5 : ∀ k : Fin 128, ((cfg1.win 5).blk t).view.emb (ix2 k q) = ix2 k (⟨((((cfg1.win 6).blk t).view.emb (ix2 p q)) 1).val, ((((cfg1.win 6).blk t).view.emb (ix2 p q)) 1).isLt⟩ : Fin 128) := fun k => by
    funext a; apply Fin.ext
    match a with
    | ⟨0, _⟩ => show win1_5.index t (0 : Fin 2) * 128 + 1 * k.val = k.val; omega
    | ⟨1, _⟩ => show win1_5.index t (1 : Fin 2) * 128 + 1 * q.val = win1_6.index t (1 : Fin 2) * 128 + 1 * q.val; omega
  have h4 : ((cfg1.win 4).blk t).view.emb (ix2 (0 : Fin 1) q) = ix2 (0 : Fin 1) (⟨((((cfg1.win 6).blk t).view.emb (ix2 p q)) 1).val, ((((cfg1.win 6).blk t).view.emb (ix2 p q)) 1).isLt⟩ : Fin 128) := by
    funext a; apply Fin.ext
    match a with
    | ⟨0, _⟩ => show win1_4.index t (0 : Fin 2) * 1 + 1 * 0 = 0; omega
    | ⟨1, _⟩ => show win1_4.index t (1 : Fin 2) * 128 + 1 * q.val = win1_6.index t (1 : Fin 2) * 128 + 1 * q.val; omega
  refine layerAt_congr (fun k => ?_) (fun k => ?_) ?_ (fun k => ?_) (fun k => ?_) ?_
  · exact congrArg (fun z => V c main_v39 z) (h0 k)
  · exact congrArg (fun z => V c main_v27 z) (h1 k)
  · exact congrArg (fun z => V c main_v13 z) h2
  · exact congrArg (fun z => V c main_v28 z) (h3 k)
  · exact congrArg (fun z => V c main_v29 z) (h5 k)
  · exact congrArg (fun z => V c main_v40 z) h4

/-- An index of the array is in point `t`'s block iff each coordinate is in the block's range on its axis. -/
theorem mem_blk (t : Fin cfg1.N) (i : S50000x128.Idx) :
    i ∈ ((cfg1.win 6).blk t).view.set ↔ ∀ a : Fin 2, win1_6.index t a * S10000x128.size a ≤ (i a).val ∧ (i a).val < win1_6.index t a * S10000x128.size a + S10000x128.size a := by
  show i ∈ ((View.whole main_v41).slice (win1_6.rect t)).set ↔ _
  rw [View.set_slice_whole, Rect.mem_set_unit]
  exact Iff.rfl

/-- The output array after the region: the layer of the arrays the region finds (row `r` is written by point `r / 10000`). -/
theorem final (c : Dev nD) : (dat1 V c).arrAt 6 cfg1.N = G V c :=
  (dat1 V c).arrAt_eq_of_cover 6 (G V c) (fun t _ => flushed_eq V c t) fun i => by
    have hi0 : (i 0).val < 50000 := (i 0).isLt
    have hi1 : (i 1).val < 128 := (i 1).isLt
    obtain ⟨t, ht⟩ := idx_onto ⟨(i 0).val / 10000, by omega⟩
    have q0 : win1_6.index t (0 : Fin 2) = (i 0).val / 10000 := congrFun ht 0
    have q1 : win1_6.index t (1 : Fin 2) = 0 := congrFun ht 1
    refine ⟨t, flush1_6 t, ?_⟩
    rw [mem_blk]
    intro a
    match a with
    | ⟨0, _⟩ => show win1_6.index t (0 : Fin 2) * 10000 ≤ (i 0).val ∧ (i 0).val < win1_6.index t (0 : Fin 2) * 10000 + 10000; omega
    | ⟨1, _⟩ => show win1_6.index t (1 : Fin 2) * 128 ≤ (i 1).val ∧ (i 1).val < win1_6.index t (1 : Fin 2) * 128 + 128; omega

end Cert.KernelIdeal.Region1

end
-- ==== Proof.Region2.lean ====
/-
  Region 2: what the pipelined layer kernel leaves in its output array.

  The grid has five points; point `t` stages rows `10000·t … 10000·t + 9999` of the neighbour sums, of the node features
  and of the inverse-degree column, and the two weight matrices and the bias row whole; its body stores the layer's
  value on those rows, and the write-back puts them at the same rows of the output array.  The five blocks tile the
  array, so it ends holding the layer of the whole arrays, entry by entry.
-/
import proofs.«144729_j33328946217667_2_alg».proof.Proof.Gen.KernelIdeal.Frame
import proofs.«144729_j33328946217667_2_alg».proof.Proof.LayerForms

set_option maxRecDepth 16384

noncomputable section

namespace Cert.KernelIdeal.Region2

open Cert.KernelIdeal Cert.KernelIdeal.Gen Cert.LayerForms
open Idealize.ShloMosaic Idealize.ShloMosaic.TcCoe Idealize.ShloMosaic.ValueIdx Idealize.SL.Sem
open Idealize.ShloMosaic.Pipeline (Dat Cfg Window)

theorem hz : (![0, 0] : Fin 2 → Nat) = fun _ => 0 := funext fun a => by fin_cases a <;> rfl

/-- The body's stored value at the entry `(p, q)` of a block: the layer of the loaded blocks. -/
theorem pay_apply (v0 : Vec Ideal S10000x128 .f32) (v2 : Vec Ideal S10000x1 .f32) (v6 : Vec Ideal S10000x128 .f32)
    (v7 v10 : Vec Ideal S128x128 .f32) (v14 : Vec Ideal S1x128 .f32) (p : Fin 10000) (q : Fin 128) :
    k2_pay1 (F := Ideal) v0 v2 v6 v7 v10 v14 (ix2 p q) = layerAt v0 v6 v2 v7 v10 v14 p q := by
  unfold k2_pay1
  simp only [shapeCast_self]
  exact kernel_layer_apply dot_S10000x128_S128x128_S10000x128_1_0_0_1_n_n rfl rfl rfl rfl rfl rfl _ _ v0 v6 v2 v7 v10 v14 p q

/-- The printed index maps, decided over the grid: the three row-blocked inputs move with the output's row block, the
    weights and the bias stay at block 0, and the output's row block is the point's number. -/
theorem idx_facts : ∀ t : Fin cfg2.N,
    win2_0.index t (0 : Fin 2) = win2_6.index t (0 : Fin 2) ∧ win2_0.index t (1 : Fin 2) = 0
    ∧ win2_1.index t (0 : Fin 2) = win2_6.index t (0 : Fin 2) ∧ win2_1.index t (1 : Fin 2) = 0
    ∧ win2_2.index t (0 : Fin 2) = win2_6.index t (0 : Fin 2) ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) ≤ 4 ∧ win2_6.index t (1 : Fin 2) = 0 :=
  (by decide +kernel : ∀ t : Fin grid2.N, _)

/-- Every row block is some point's. -/
theorem idx_onto : ∀ q0 : Fin 5, ∃ t : Fin cfg2.N, win2_6.index t = ![q0.val, 0] :=
  (by decide +kernel : ∀ q0 : Fin 5, ∃ t : Fin grid2.N, win2_6.index t = ![q0.val, 0])

variable (V : (c : Dev nD) → (b : Ref sig .tc) → Buf (Elt Ideal) ((c : Thread nD τ).loc b))

/-- The layer of the arrays the region finds. -/
abbrev G (c : Dev nD) : S50000x128.Idx → EReal :=
  layerArr (V c main_v53) (V c main_v41) (V c main_v13) (V c main_v42) (V c main_v43) (V c main_v54)

/-- What point `t` writes back is block `t` of the layer of the whole arrays. -/
theorem flushed_eq (c : Dev nD) (t : Fin cfg2.N) :
    (dat2 V c).flushed 6 t = ((cfg2.win 6).blk t).view.read (Elt Ideal) (G V c) := by
  show (cfg2.win 6).cut (grid2.coords t) ((dat2 V c).after 6 t) = _
  rw [after2_6]
  unfold out2_6
  rw [View.canon_unit_zero hz]
  simp only [View.ld_unit_zero (S := S10000x128) hz, View.ld_unit_zero (S := S10000x1) hz,
    View.ld_unit_zero (S := S128x128) hz, View.ld_unit_zero (S := S1x128) hz]
  obtain ⟨e00, e01, e10, e11, e20, e21, e30, e31, e40, e41, e50, e51, e6, e61⟩ := idx_facts t
  funext j
  obtain ⟨p, q, rfl⟩ : ∃ (p : Fin 10000) (q : Fin 128), j = ix2 p q := ⟨j 0, j 1, eq_ix2 j⟩
  show k2_pay1 (iblk2 V c 0 t) (iblk2 V c 2 t) (iblk2 V c 1 t) (iblk2 V c 3 t) (iblk2 V c 5 t) (iblk2 V c 4 t) (ix2 p q)
    = G V c (((cfg2.win 6).blk t).view.emb (ix2 p q))
  rw [pay_apply]
  have h0 : ∀ k : Fin 128, ((cfg2.win 0).blk t).view.emb (ix2 p k) = ix2 (⟨((((cfg2.win 6).blk t).view.emb (ix2 p q)) 0).val, ((((cfg2.win 6).blk t).view.emb (ix2 p q)) 0).isLt⟩ : Fin 50000) k := fun k => by
    funext a; apply Fin.ext
    match a with
    | ⟨0, _⟩ => show win2_0.index t (0 : Fin 2) * 10000 + 1 * p.val = win2_6.index t (0 : Fin 2) * 10000 + 1 * p.val; omega
    | ⟨1, _⟩ => show win2_0.index t (1 : Fin 2) * 128 + 1 * k.val = k.val; omega
  have h1 : ∀ k : Fin 128, ((cfg2.win 1).blk t).view.emb (ix2 p k) = ix2 (⟨((((cfg2.win 6).blk t).view.emb (ix2 p q)) 0).val, ((((cfg2.win 6).blk t).view.emb (ix2 p q)) 0).isLt⟩ : Fin 50000) k := fun k => by
    funext a; apply Fin.ext
    match a with
    | ⟨0, _⟩ => show win2_1.index t (0 : Fin 2) * 10000 + 1 * p.val = win2_6.index t (0 : Fin 2) * 10000 + 1 * p.val; omega
    | ⟨1, _⟩ => show win2_1.index t (1 : Fin 2) * 128 + 1 * k.val = k.val; omega
  have h2 : ((cfg2.win 2).blk t).view.emb (ix2 p (0 : Fin 1)) = ix2 (⟨((((cfg2.win 6).blk t).view.emb (ix2 p q)) 0).val, ((((cfg2.win 6).blk t).view.emb (ix2 p q)) 0).isLt⟩ : Fin 50000) (0 : Fin 1) := by
    funext a; apply Fin.ext
    match a with
    | ⟨0, _⟩ => show win2_2.index t (0 : Fin 2) * 10000 + 1 * p.val = win2_6.index t (0 : Fin 2) * 10000 + 1 * p.val; omega
    | ⟨1, _⟩ => show win2_2.index t (1 : Fin 2) * 1 + 1 * 0 = 0; omega
  have h3 : ∀ k : Fin 128, ((cfg2.win 3).blk t).view.emb (ix2 k q) = ix2 k (⟨((((cfg2.win 6).blk t).view.emb (ix2 p q)) 1).val, ((((cfg2.win 6).blk t).view.emb (ix2 p q)) 1).isLt⟩ : Fin 128) := fun k => by
    funext a; apply Fin.ext
    match a with
    | ⟨0, _⟩ => show win2_3.index t (0 : Fin 2) * 128 + 1 * k.val = k.val; omega
    | ⟨1, _⟩ => show win2_3.index t (1 : Fin 2) * 128 + 1 * q.val = win2_6.index t (1 : Fin 2) * 128 + 1 * q.val; omega
  have h5 : ∀ k : Fin 128, ((cfg2.win 5).blk t).view.emb (ix2 k q) = ix2 k (⟨((((cfg2.win 6).blk t).view.emb (ix2 p q)) 1).val, ((((cfg2.win 6).blk t).view.emb (ix2 p q)) 1).isLt⟩ : Fin 128) := fun k => by
    funext a; apply Fin.ext
    match a with
    | ⟨0, _⟩ => show win2_5.index t (0 : Fin 2) * 128 + 1 * k.val = k.val; omega
    | ⟨1, _⟩ => show win2_5.index t (1 : Fin 2) * 128 + 1 * q.val = win2_6.index t (1 : Fin 2) * 128 + 1 * q.val; omega
  have h4 : ((cfg2.win 4).blk t).view.emb (ix2 (0 : Fin 1) q) = ix2 (0 : Fin 1) (⟨((((cfg2.win 6).blk t).view.emb (ix2 p q)) 1).val, ((((cfg2.win 6).blk t).view.emb (ix2 p q)) 1).isLt⟩ : Fin 128) := by
    funext a; apply Fin.ext
    match a with
    | ⟨0, _⟩ => show win2_4.index t (0 : Fin 2) * 1 + 1 * 0 = 0; omega
    | ⟨1, _⟩ => show win2_4.index t (1 : Fin 2) * 128 + 1 * q.val = win2_6.index t (1 : Fin 2) * 128 + 1 * q.val; omega
  refine layerAt_congr (fun k => ?_) (fun k => ?_) ?_ (fun k => ?_) (fun k => ?_) ?_
  · exact congrArg (fun z => V c main_v53 z) (h0 k)
  · exact congrArg (fun z => V c main_v41 z) (h1 k)
  · exact congrArg (fun z => V c main_v13 z) h2
  · exact congrArg (fun z => V c main_v42 z) (h3 k)
  · exact congrArg (fun z => V c main_v43 z) (h5 k)
  · exact congrArg (fun z => V c main_v54 z) h4

/-- An index of the array is in point `t`'s block iff each coordinate is in the block's range on its axis. -/
theorem mem_blk (t : Fin cfg2.N) (i : S50000x128.Idx) :
    i ∈ ((cfg2.win 6).blk t).view.set ↔ ∀ a : Fin 2, win2_6.index t a * S10000x128.size a ≤ (i a).val ∧ (i a).val < win2_6.index t a * S10000x128.size a + S10000x128.size a := by
  show i ∈ ((View.whole main_v55).slice (win2_6.rect t)).set ↔ _
  rw [View.set_slice_whole, Rect.mem_set_unit]
  exact Iff.rfl

/-- The output array after the region: the layer of the arrays the region finds (row `r` is written by point `r / 10000`). -/
theorem final (c : Dev nD) : (dat2 V c).arrAt 6 cfg2.N = G V c :=
  (dat2 V c).arrAt_eq_of_cover 6 (G V c) (fun t _ => flushed_eq V c t) fun i => by
    have hi0 : (i 0).val < 50000 := (i 0).isLt
    have hi1 : (i 1).val < 128 := (i 1).isLt
    obtain ⟨t, ht⟩ := idx_onto ⟨(i 0).val / 10000, by omega⟩
    have q0 : win2_6.index t (0 : Fin 2) = (i 0).val / 10000 := congrFun ht 0
    have q1 : win2_6.index t (1 : Fin 2) = 0 := congrFun ht 1
    refine ⟨t, flush2_6 t, ?_⟩
    rw [mem_blk]
    intro a
    match a with
    | ⟨0, _⟩ => show win2_6.index t (0 : Fin 2) * 10000 ≤ (i 0).val ∧ (i 0).val < win2_6.index t (0 : Fin 2) * 10000 + 10000; omega
    | ⟨1, _⟩ => show win2_6.index t (1 : Fin 2) * 128 ≤ (i 1).val ∧ (i 1).val < win2_6.index t (1 : Fin 2) * 128 + 128; omega

end Cert.KernelIdeal.Region2

end
-- ==== Proof.Region3.lean ====
/-
  Region 3: what the pipelined layer kernel leaves in its output array.

  The grid has five points; point `t` stages rows `10000·t … 10000·t + 9999` of the neighbour sums, of the node features
  and of the inverse-degree column, and the two weight matrices and the bias row whole; its body stores the layer's
  value on those rows, and the write-back puts them at the same rows of the output array.  The five blocks tile the
  array, so it ends holding the layer of the whole arrays, entry by entry.
-/
import proofs.«144729_j33328946217667_2_alg».proof.Proof.Gen.KernelIdeal.Frame
import proofs.«144729_j33328946217667_2_alg».proof.Proof.LayerForms

set_option maxRecDepth 16384

noncomputable section

namespace Cert.KernelIdeal.Region3

open Cert.KernelIdeal Cert.KernelIdeal.Gen Cert.LayerForms
open Idealize.ShloMosaic Idealize.ShloMosaic.TcCoe Idealize.ShloMosaic.ValueIdx Idealize.SL.Sem
open Idealize.ShloMosaic.Pipeline (Dat Cfg Window)

theorem hz : (![0, 0] : Fin 2 → Nat) = fun _ => 0 := funext fun a => by fin_cases a <;> rfl

/-- The body's stored value at the entry `(p, q)` of a block: the layer of the loaded blocks. -/
theorem pay_apply (v0 : Vec Ideal S10000x128 .f32) (v2 : Vec Ideal S10000x1 .f32) (v6 : Vec Ideal S10000x128 .f32)
    (v7 v10 : Vec Ideal S128x128 .f32) (v14 : Vec Ideal S1x128 .f32) (p : Fin 10000) (q : Fin 128) :
    k3_pay1 (F := Ideal) v0 v2 v6 v7 v10 v14 (ix2 p q) = layerAt v0 v6 v2 v7 v10 v14 p q := by
  unfold k3_pay1
  simp only [shapeCast_self]
  exact kernel_layer_apply dot_S10000x128_S128x128_S10000x128_1_0_0_1_n_n rfl rfl rfl rfl rfl rfl _ _ v0 v6 v2 v7 v10 v14 p q

/-- The printed index maps, decided over the grid: the three row-blocked inputs move with the output's row block, the
    weights and the bias stay at block 0, and the output's row block is the point's number. -/
theorem idx_facts : ∀ t : Fin cfg3.N,
    win3_0.index t (0 : Fin 2) = win3_6.index t (0 : Fin 2) ∧ win3_0.index t (1 : Fin 2) = 0
    ∧ win3_1.index t (0 : Fin 2) = win3_6.index t (0 : Fin 2) ∧ win3_1.index t (1 : Fin 2) = 0
    ∧ win3_2.index t (0 : Fin 2) = win3_6.index t (0 : Fin 2) ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) ≤ 4 ∧ win3_6.index t (1 : Fin 2) = 0 :=
  (by decide +kernel : ∀ t : Fin grid3.N, _)

/-- Every row block is some point's. -/
theorem idx_onto : ∀ q0 : Fin 5, ∃ t : Fin cfg3.N, win3_6.index t = ![q0.val, 0] :=
  (by decide +kernel : ∀ q0 : Fin 5, ∃ t : Fin grid3.N, win3_6.index t = ![q0.val, 0])

variable (V : (c : Dev nD) → (b : Ref sig .tc) → Buf (Elt Ideal) ((c : Thread nD τ).loc b))

/-- The layer of the arrays the region finds. -/
abbrev G (c : Dev nD) : S50000x128.Idx → EReal :=
  layerArr (V c main_v67) (V c main_v55) (V c main_v13) (V c main_v56) (V c main_v57) (V c main_v68)

/-- What point `t` writes back is block `t` of the layer of the whole arrays. -/
theorem flushed_eq (c : Dev nD) (t : Fin cfg3.N) :
    (dat3 V c).flushed 6 t = ((cfg3.win 6).blk t).view.read (Elt Ideal) (G V c) := by
  show (cfg3.win 6).cut (grid3.coords t) ((dat3 V c).after 6 t) = _
  rw [after3_6]
  unfold out3_6
  rw [View.canon_unit_zero hz]
  simp only [View.ld_unit_zero (S := S10000x128) hz, View.ld_unit_zero (S := S10000x1) hz,
    View.ld_unit_zero (S := S128x128) hz, View.ld_unit_zero (S := S1x128) hz]
  obtain ⟨e00, e01, e10, e11, e20, e21, e30, e31, e40, e41, e50, e51, e6, e61⟩ := idx_facts t
  funext j
  obtain ⟨p, q, rfl⟩ : ∃ (p : Fin 10000) (q : Fin 128), j = ix2 p q := ⟨j 0, j 1, eq_ix2 j⟩
  show k3_pay1 (iblk3 V c 0 t) (iblk3 V c 2 t) (iblk3 V c 1 t) (iblk3 V c 3 t) (iblk3 V c 5 t) (iblk3 V c 4 t) (ix2 p q)
    = G V c (((cfg3.win 6).blk t).view.emb (ix2 p q))
  rw [pay_apply]
  have h0 : ∀ k : Fin 128, ((cfg3.win 0).blk t).view.emb (ix2 p k) = ix2 (⟨((((cfg3.win 6).blk t).view.emb (ix2 p q)) 0).val, ((((cfg3.win 6).blk t).view.emb (ix2 p q)) 0).isLt⟩ : Fin 50000) k := fun k => by
    funext a; apply Fin.ext
    match a with
    | ⟨0, _⟩ => show win3_0.index t (0 : Fin 2) * 10000 + 1 * p.val = win3_6.index t (0 : Fin 2) * 10000 + 1 * p.val; omega
    | ⟨1, _⟩ => show win3_0.index t (1 : Fin 2) * 128 + 1 * k.val = k.val; omega
  have h1 : ∀ k : Fin 128, ((cfg3.win 1).blk t).view.emb (ix2 p k) = ix2 (⟨((((cfg3.win 6).blk t).view.emb (ix2 p q)) 0).val, ((((cfg3.win 6).blk t).view.emb (ix2 p q)) 0).isLt⟩ : Fin 50000) k := fun k => by
    funext a; apply Fin.ext
    match a with
    | ⟨0, _⟩ => show win3_1.index t (0 : Fin 2) * 10000 + 1 * p.val = win3_6.index t (0 : Fin 2) * 10000 + 1 * p.val; omega
    | ⟨1, _⟩ => show win3_1.index t (1 : Fin 2) * 128 + 1 * k.val = k.val; omega
  have h2 : ((cfg3.win 2).blk t).view.emb (ix2 p (0 : Fin 1)) = ix2 (⟨((((cfg3.win 6).blk t).view.emb (ix2 p q)) 0).val, ((((cfg3.win 6).blk t).view.emb (ix2 p q)) 0).isLt⟩ : Fin 50000) (0 : Fin 1) := by
    funext a; apply Fin.ext
    match a with
    | ⟨0, _⟩ => show win3_2.index t (0 : Fin 2) * 10000 + 1 * p.val = win3_6.index t (0 : Fin 2) * 10000 + 1 * p.val; omega
    | ⟨1, _⟩ => show win3_2.index t (1 : Fin 2) * 1 + 1 * 0 = 0; omega
  have h3 : ∀ k : Fin 128, ((cfg3.win 3).blk t).view.emb (ix2 k q) = ix2 k (⟨((((cfg3.win 6).blk t).view.emb (ix2 p q)) 1).val, ((((cfg3.win 6).blk t).view.emb (ix2 p q)) 1).isLt⟩ : Fin 128) := fun k => by
    funext a; apply Fin.ext
    match a with
    | ⟨0, _⟩ => show win3_3.index t (0 : Fin 2) * 128 + 1 * k.val = k.val; omega
    | ⟨1, _⟩ => show win3_3.index t (1 : Fin 2) * 128 + 1 * q.val = win3_6.index t (1 : Fin 2) * 128 + 1 * q.val; omega
  have h5 : ∀ k : Fin 128, ((cfg3.win 5).blk t).view.emb (ix2 k q) = ix2 k (⟨((((cfg3.win 6).blk t).view.emb (ix2 p q)) 1).val, ((((cfg3.win 6).blk t).view.emb (ix2 p q)) 1).isLt⟩ : Fin 128) := fun k => by
    funext a; apply Fin.ext
    match a with
    | ⟨0, _⟩ => show win3_5.index t (0 : Fin 2) * 128 + 1 * k.val = k.val; omega
    | ⟨1, _⟩ => show win3_5.index t (1 : Fin 2) * 128 + 1 * q.val = win3_6.index t (1 : Fin 2) * 128 + 1 * q.val; omega
  have h4 : ((cfg3.win 4).blk t).view.emb (ix2 (0 : Fin 1) q) = ix2 (0 : Fin 1) (⟨((((cfg3.win 6).blk t).view.emb (ix2 p q)) 1).val, ((((cfg3.win 6).blk t).view.emb (ix2 p q)) 1).isLt⟩ : Fin 128) := by
    funext a; apply Fin.ext
    match a with
    | ⟨0, _⟩ => show win3_4.index t (0 : Fin 2) * 1 + 1 * 0 = 0; omega
    | ⟨1, _⟩ => show win3_4.index t (1 : Fin 2) * 128 + 1 * q.val = win3_6.index t (1 : Fin 2) * 128 + 1 * q.val; omega
  refine layerAt_congr (fun k => ?_) (fun k => ?_) ?_ (fun k => ?_) (fun k => ?_) ?_
  · exact congrArg (fun z => V c main_v67 z) (h0 k)
  · exact congrArg (fun z => V c main_v55 z) (h1 k)
  · exact congrArg (fun z => V c main_v13 z) h2
  · exact congrArg (fun z => V c main_v56 z) (h3 k)
  · exact congrArg (fun z => V c main_v57 z) (h5 k)
  · exact congrArg (fun z => V c main_v68 z) h4

/-- An index of the array is in point `t`'s block iff each coordinate is in the block's range on its axis. -/
theorem mem_blk (t : Fin cfg3.N) (i : S50000x128.Idx) :
    i ∈ ((cfg3.win 6).blk t).view.set ↔ ∀ a : Fin 2, win3_6.index t a * S10000x128.size a ≤ (i a).val ∧ (i a).val < win3_6.index t a * S10000x128.size a + S10000x128.size a := by
  show i ∈ ((View.whole main_v69).slice (win3_6.rect t)).set ↔ _
  rw [View.set_slice_whole, Rect.mem_set_unit]
  exact Iff.rfl

/-- The output array after the region: the layer of the arrays the region finds (row `r` is written by point `r / 10000`). -/
theorem final (c : Dev nD) : (dat3 V c).arrAt 6 cfg3.N = G V c :=
  (dat3 V c).arrAt_eq_of_cover 6 (G V c) (fun t _ => flushed_eq V c t) fun i => by
    have hi0 : (i 0).val < 50000 := (i 0).isLt
    have hi1 : (i 1).val < 128 := (i 1).isLt
    obtain ⟨t, ht⟩ := idx_onto ⟨(i 0).val / 10000, by omega⟩
    have q0 : win3_6.index t (0 : Fin 2) = (i 0).val / 10000 := congrFun ht 0
    have q1 : win3_6.index t (1 : Fin 2) = 0 := congrFun ht 1
    refine ⟨t, flush3_6 t, ?_⟩
    rw [mem_blk]
    intro a
    match a with
    | ⟨0, _⟩ => show win3_6.index t (0 : Fin 2) * 10000 ≤ (i 0).val ∧ (i 0).val < win3_6.index t (0 : Fin 2) * 10000 + 10000; omega
    | ⟨1, _⟩ => show win3_6.index t (1 : Fin 2) * 128 ≤ (i 1).val ∧ (i 1).val < win3_6.index t (1 : Fin 2) * 128 + 128; omega

end Cert.KernelIdeal.Region3

end
-- ==== Proof.Region4.lean ====
/-
  Region 4: what the classifier kernel leaves in its output array.

  One grid point stages the pooled features [256, 256], the classifier's weights [2, 256] and its bias row [1, 2] whole;
  the body transposes the weights, multiplies and adds the bias row, and stores the [256, 2] result, which the write-back
  puts in the output array: the affine head of the whole arrays, entry by entry.
-/
import proofs.«144729_j33328946217667_2_alg».proof.Proof.Gen.KernelIdeal.Frame
import proofs.«144729_j33328946217667_2_alg».proof.Proof.LayerForms

set_option maxRecDepth 16384

noncomputable section

namespace Cert.KernelIdeal.Region4

open Cert.KernelIdeal Cert.KernelIdeal.Gen Cert.LayerForms
open Idealize.ShloMosaic Idealize.ShloMosaic.TcCoe Idealize.ShloMosaic.ValueIdx Idealize.SL.Sem
open Idealize.ShloMosaic.Pipeline (Dat Cfg Window)

theorem hz : (![0, 0] : Fin 2 → Nat) = fun _ => 0 := funext fun a => by fin_cases a <;> rfl

/-- The body's stored value at the entry `(p, q)`: the affine head of the loaded arrays, the weights transposed. -/
theorem pay_apply (v0 : Vec Ideal S256x256 .f32) (v2 : Vec Ideal S2x256 .f32) (v3 : Vec Ideal S1x2 .f32) (p : Fin 256) (q : Fin 2) :
    k4_pay1 (F := Ideal) v0 v2 v3 (ix2 p q) = affineAt v0 (transpose S256x2 [1, 0] v2 transposes_S2x256_p1_0_S256x2) v3 p q := by
  unfold k4_pay1
  simp only [shapeCast_self]
  exact kernel_affine_apply dot_S256x256_S256x2_S256x2_1_0_0_1_n_n rfl rfl rfl rfl rfl rfl _ v0 _ v3 p q

/-- The printed index maps at the one grid point: every window at block 0. -/
theorem idx_facts : ∀ t : Fin cfg4.N,
    win4_0.index t (0 : Fin 2) = 0 ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0 :=
  (by decide +kernel : ∀ t : Fin grid4.N, _)

variable (V : (c : Dev nD) → (b : Ref sig .tc) → Buf (Elt Ideal) ((c : Thread nD τ).loc b))

/-- The affine head of the arrays the region finds. -/
abbrev G (c : Dev nD) : S256x2.Idx → EReal :=
  affineArr (V c main_v90) (transpose S256x2 [1, 0] (V c main_arg16) transposes_S2x256_p1_0_S256x2) (V c main_v91)

/-- What the one point writes back is the affine head of the whole arrays. -/
theorem flushed_eq (c : Dev nD) (t : Fin cfg4.N) :
    (dat4 V c).flushed 3 t = ((cfg4.win 3).blk t).view.read (Elt Ideal) (G V c) := by
  show (cfg4.win 3).cut (grid4.coords t) ((dat4 V c).after 3 t) = _
  rw [after4_3]
  unfold out4_3
  rw [View.canon_unit_zero hz]
  simp only [View.ld_unit_zero (S := S256x256) hz, View.ld_unit_zero (S := S2x256) hz,
    View.ld_unit_zero (S := S1x2) hz]
  obtain ⟨e00, e01, e10, e11, e20, e21, e30, e31⟩ := idx_facts t
  funext j
  obtain ⟨p, q, rfl⟩ : ∃ (p : Fin 256) (q : Fin 2), j = ix2 p q := ⟨j 0, j 1, eq_ix2 j⟩
  show k4_pay1 (iblk4 V c 0 t) (iblk4 V c 1 t) (iblk4 V c 2 t) (ix2 p q)
    = G V c (((cfg4.win 3).blk t).view.emb (ix2 p q))
  rw [pay_apply]
  have hb1 : iblk4 V c 1 t = V c main_arg16 := by
    funext y
    obtain ⟨a, b, rfl⟩ : ∃ (a : Fin 2) (b : Fin 256), y = ix2 a b := ⟨y 0, y 1, eq_ix2 y⟩
    refine congrArg (fun z => V c main_arg16 z) ?_
    funext ax; apply Fin.ext
    match ax with
    | ⟨0, _⟩ => show win4_1.index t (0 : Fin 2) * 2 + 1 * a.val = a.val; omega
    | ⟨1, _⟩ => show win4_1.index t (1 : Fin 2) * 256 + 1 * b.val = b.val; omega
  have hq : q = (⟨((((cfg4.win 3).blk t).view.emb (ix2 p q)) 1).val, ((((cfg4.win 3).blk t).view.emb (ix2 p q)) 1).isLt⟩ : Fin 2) := Fin.ext (by show q.val = win4_3.index t (1 : Fin 2) * 2 + 1 * q.val; omega)
  have h0 : ∀ k : Fin 256, ((cfg4.win 0).blk t).view.emb (ix2 p k) = ix2 (⟨((((cfg4.win 3).blk t).view.emb (ix2 p q)) 0).val, ((((cfg4.win 3).blk t).view.emb (ix2 p q)) 0).isLt⟩ : Fin 256) k := fun k => by
    funext ax; apply Fin.ext
    match ax with
    | ⟨0, _⟩ => show win4_0.index t (0 : Fin 2) * 256 + 1 * p.val = win4_3.index t (0 : Fin 2) * 256 + 1 * p.val; omega
    | ⟨1, _⟩ => show win4_0.index t (1 : Fin 2) * 256 + 1 * k.val = k.val; omega
  have h2 : ((cfg4.win 2).blk t).view.emb (ix2 (0 : Fin 1) q) = ix2 (0 : Fin 1) (⟨((((cfg4.win 3).blk t).view.emb (ix2 p q)) 1).val, ((((cfg4.win 3).blk t).view.emb (ix2 p q)) 1).isLt⟩ : Fin 2) := by
    funext ax; apply Fin.ext
    match ax with
    | ⟨0, _⟩ => show win4_2.index t (0 : Fin 2) * 1 + 1 * 0 = 0; omega
    | ⟨1, _⟩ => show win4_2.index t (1 : Fin 2) * 2 + 1 * q.val = win4_3.index t (1 : Fin 2) * 2 + 1 * q.val; omega
  refine affineAt_congr (fun k => ?_) (fun k => ?_) ?_
  · exact congrArg (fun z => V c main_v90 z) (h0 k)
  · exact (congrArg (fun f => transpose S256x2 [1, 0] f transposes_S2x256_p1_0_S256x2 (ix2 k q)) hb1).trans
      (congrArg (fun z => transpose S256x2 [1, 0] (V c main_arg16) transposes_S2x256_p1_0_S256x2 (ix2 k z)) hq)
  · exact congrArg (fun z => V c main_v91 z) h2

/-- An index of the array is in the one point's block iff each coordinate is in the block's range on its axis. -/
theorem mem_blk (t : Fin cfg4.N) (i : S256x2.Idx) :
    i ∈ ((cfg4.win 3).blk t).view.set ↔ ∀ a : Fin 2, win4_3.index t a * S256x2.size a ≤ (i a).val ∧ (i a).val < win4_3.index t a * S256x2.size a + S256x2.size a := by
  show i ∈ ((View.whole main_v92).slice (win4_3.rect t)).set ↔ _
  rw [View.set_slice_whole, Rect.mem_set_unit]
  exact Iff.rfl

/-- The output array after the region: the affine head of the arrays the region finds. -/
theorem final (c : Dev nD) : (dat4 V c).arrAt 3 cfg4.N = G V c :=
  (dat4 V c).arrAt_eq_of_cover 3 (G V c) (fun t _ => flushed_eq V c t) fun i => by
    have hi0 : (i 0).val < 256 := (i 0).isLt
    have hi1 : (i 1).val < 2 := (i 1).isLt
    have t : Fin cfg4.N := ⟨0, by decide⟩
    obtain ⟨e00, e01, e10, e11, e20, e21, e30, e31⟩ := idx_facts t
    refine ⟨t, flush4_3 t, ?_⟩
    rw [mem_blk]
    intro a
    match a with
    | ⟨0, _⟩ => show win4_3.index t (0 : Fin 2) * 256 ≤ (i 0).val ∧ (i 0).val < win4_3.index t (0 : Fin 2) * 256 + 256; omega
    | ⟨1, _⟩ => show win4_3.index t (1 : Fin 2) * 2 ≤ (i 1).val ∧ (i 1).val < win4_3.index t (1 : Fin 2) * 2 + 2; omega

end Cert.KernelIdeal.Region4

end
-- ==== Proof.KChain.lean ====
/-
  The idealized kernel's buffers at the segment boundaries, read back to the argument arrays.

  `Gen.W0` … `Gen.W10` are the TensorCore's buffer contents at the boundaries of @main's ten segments.  A stretch of host
  operations writes its results as its operations' functions of what it reads; a region writes its output array (the
  layer, or the affine head, of the arrays it finds) and keeps every other buffer.  Walking from the launch memory: the
  source row, the target row and the inverse-degree column are written once, before the first region, and kept; each
  layer's features are the layer of the previous features; the last boundary's result buffer is the whole network of
  the argument arrays.
-/
import proofs.«144729_j33328946217667_2_alg».proof.Proof.Gen.KernelIdeal.Frame
import proofs.«144729_j33328946217667_2_alg».proof.Proof.Net
import proofs.«144729_j33328946217667_2_alg».proof.Proof.Region0
import proofs.«144729_j33328946217667_2_alg».proof.Proof.Region1
import proofs.«144729_j33328946217667_2_alg».proof.Proof.Region2
import proofs.«144729_j33328946217667_2_alg».proof.Proof.Region3
import proofs.«144729_j33328946217667_2_alg».proof.Proof.Region4
import Idealize.ShloMosaic.Lib.StableHlo.Run

set_option maxRecDepth 16384

noncomputable section

namespace Cert.KernelIdeal.KChain

open Cert.KernelIdeal Cert.KernelIdeal.Gen Cert.KernelIdeal.Stages Cert.KernelIdeal.Net Cert.LayerForms
open Idealize.ShloMosaic Idealize.ShloMosaic.TcCoe Idealize.SL.Sem
open Idealize.ShloMosaic.Pipeline (Dat Cfg Window)

/-- A buffer no operation of a stretch writes keeps its contents through the stretch. -/
macro "skip_host" : tactic => `(tactic|
  (refine StableHlo.after_of_forall_not_mem _ _ (List.forall_iff_forall_mem.mp ?_)
   simp only [hostOps0, hostOps1, hostOps2, hostOps3, hostOps4, List.flatten_cons, List.flatten_nil, List.append_nil, List.cons_append,
     List.nil_append, List.Forall, StableHlo.nullary_writes, StableHlo.unary_writes, StableHlo.binary_writes, StableHlo.ternary_writes,
     StableHlo.quaternary_writes, StableHlo.reshape_writes, StableHlo.binaryIndexed_writes, Finset.mem_singleton]
   repeat' apply And.intro
   all_goals exact StableHlo.devRef_ne_of_ne (by decide)))

/-- A buffer a stretch writes holds its operations' functions of what the stretch reads. -/
macro "read_host" ops:ident : tactic => `(tactic| (dsimp only [$ops:ident]; after_results_simp <;> rfl))

variable (m : (ℓ : Loc nD τ sig) → Buf (Elt Ideal) ℓ) (ρ : Dev nD → PrngReg) (c : Dev nD)

/-! ## Before the first region -/

theorem W1_src : W1 m ρ c (Proc.devRef .tc main_v1) = srcOf (m ((c : Thread nD τ).loc main_arg1)) := by
  show StableHlo.after hostOps0 (W0 m ρ c) (Proc.devRef .tc main_v1) = _
  read_host hostOps0
theorem W1_tgt : W1 m ρ c (Proc.devRef .tc main_v3) = tgtOf (m ((c : Thread nD τ).loc main_arg1)) := by
  show StableHlo.after hostOps0 (W0 m ρ c) (Proc.devRef .tc main_v3) = _
  read_host hostOps0
theorem W1_dv : W1 m ρ c (Proc.devRef .tc main_v13) = degInvK (F := Ideal) (m ((c : Thread nD τ).loc main_arg1)) := by
  show StableHlo.after hostOps0 (W0 m ρ c) (Proc.devRef .tc main_v13) = _
  read_host hostOps0
theorem W1_agg : W1 m ρ c (Proc.devRef .tc main_v25) = aggOf (F := Ideal) (m ((c : Thread nD τ).loc main_arg0)) (m ((c : Thread nD τ).loc main_arg1)) := by
  show StableHlo.after hostOps0 (W0 m ρ c) (Proc.devRef .tc main_v25) = _
  read_host hostOps0
theorem W1_wl : W1 m ρ c (Proc.devRef .tc main_v14) = transpose S128x128 [1, 0] (m ((c : Thread nD τ).loc main_arg4)) transposes_S128x128_S128x128_1_0 := by
  show StableHlo.after hostOps0 (W0 m ρ c) (Proc.devRef .tc main_v14) = _
  read_host hostOps0
theorem W1_wr : W1 m ρ c (Proc.devRef .tc main_v15) = transpose S128x128 [1, 0] (m ((c : Thread nD τ).loc main_arg6)) transposes_S128x128_S128x128_1_0 := by
  show StableHlo.after hostOps0 (W0 m ρ c) (Proc.devRef .tc main_v15) = _
  read_host hostOps0
theorem W1_b : W1 m ρ c (Proc.devRef .tc main_v26) = shapeCast _ (m ((c : Thread nD τ).loc main_arg5)) shapeCasts_S128_S1x128 := by
  show StableHlo.after hostOps0 (W0 m ρ c) (Proc.devRef .tc main_v26) = _
  read_host hostOps0
theorem W1_x : W1 m ρ c (Proc.devRef .tc main_arg0) = (m ((c : Thread nD τ).loc main_arg0)) :=
  (by skip_host : W1 m ρ c (Proc.devRef .tc main_arg0) = W0 m ρ c (Proc.devRef .tc main_arg0)).trans rfl

/-! ## Layer 1 (region 0) -/

theorem W2_feat : W2 m ρ c (Proc.devRef .tc main_v27) = (sage (m ((c : Thread nD τ).loc main_arg0)) (m ((c : Thread nD τ).loc main_arg1)) (m ((c : Thread nD τ).loc main_arg4)) (m ((c : Thread nD τ).loc main_arg5)) (m ((c : Thread nD τ).loc main_arg6))) := by
  refine (W2_arr m ρ c 6).trans ((Region0.final (V1 m ρ) c).trans ?_)
  show layerArr (M := 50000) (K := 128) (N := 128) (W1 m ρ c (Proc.devRef .tc main_v25)) (W1 m ρ c (Proc.devRef .tc main_arg0)) (W1 m ρ c (Proc.devRef .tc main_v13))
    (W1 m ρ c (Proc.devRef .tc main_v14)) (W1 m ρ c (Proc.devRef .tc main_v15)) (W1 m ρ c (Proc.devRef .tc main_v26)) = _
  rw [W1_agg, W1_x, W1_dv, W1_wl, W1_wr, W1_b]
  rfl
theorem W2_src : W2 m ρ c (Proc.devRef .tc main_v1) = srcOf (m ((c : Thread nD τ).loc main_arg1)) := (W2_of_ne m ρ c main_v1 (by decide)).trans (W1_src m ρ c)
theorem W2_tgt : W2 m ρ c (Proc.devRef .tc main_v3) = tgtOf (m ((c : Thread nD τ).loc main_arg1)) := (W2_of_ne m ρ c main_v3 (by decide)).trans (W1_tgt m ρ c)
theorem W2_dv : W2 m ρ c (Proc.devRef .tc main_v13) = degInvK (F := Ideal) (m ((c : Thread nD τ).loc main_arg1)) :=
  (W2_arr m ρ c 2).trans (((dat0 (V1 m ρ) c).arrAt_in 2 rfl _).trans ((A_eq0 (V1 m ρ) c 2).trans (W1_dv m ρ c)))

/-! ## Layer 2 (region 1) -/

theorem W2_arg7 : W2 m ρ c (Proc.devRef .tc main_arg7) = (m ((c : Thread nD τ).loc main_arg7)) := (W2_of_ne m ρ c main_arg7 (by decide)).trans ((by skip_host : W1 m ρ c (Proc.devRef .tc main_arg7) = W0 m ρ c (Proc.devRef .tc main_arg7)).trans (rfl))
theorem W2_arg8 : W2 m ρ c (Proc.devRef .tc main_arg8) = (m ((c : Thread nD τ).loc main_arg8)) := (W2_of_ne m ρ c main_arg8 (by decide)).trans ((by skip_host : W1 m ρ c (Proc.devRef .tc main_arg8) = W0 m ρ c (Proc.devRef .tc main_arg8)).trans (rfl))
theorem W2_arg9 : W2 m ρ c (Proc.devRef .tc main_arg9) = (m ((c : Thread nD τ).loc main_arg9)) := (W2_of_ne m ρ c main_arg9 (by decide)).trans ((by skip_host : W1 m ρ c (Proc.devRef .tc main_arg9) = W0 m ρ c (Proc.devRef .tc main_arg9)).trans (rfl))
theorem W3_agg : W3 m ρ c (Proc.devRef .tc main_v39) = aggOf (F := Ideal) (sage (m ((c : Thread nD τ).loc main_arg0)) (m ((c : Thread nD τ).loc main_arg1)) (m ((c : Thread nD τ).loc main_arg4)) (m ((c : Thread nD τ).loc main_arg5)) (m ((c : Thread nD τ).loc main_arg6))) (m ((c : Thread nD τ).loc main_arg1)) := by
  have h : W3 m ρ c (Proc.devRef .tc main_v39) = aggOfST (F := Ideal) (W2 m ρ c (Proc.devRef .tc main_v27)) (W2 m ρ c (Proc.devRef .tc main_v1)) (W2 m ρ c (Proc.devRef .tc main_v3)) := by
    show StableHlo.after hostOps1 (W2 m ρ c) (Proc.devRef .tc main_v39) = _
    read_host hostOps1
  rw [h, W2_feat, W2_src, W2_tgt, aggOfST_eq]
theorem W3_wl : W3 m ρ c (Proc.devRef .tc main_v28) = transpose S128x128 [1, 0] (m ((c : Thread nD τ).loc main_arg7)) transposes_S128x128_S128x128_1_0 := by
  have h : W3 m ρ c (Proc.devRef .tc main_v28) = transpose S128x128 [1, 0] (W2 m ρ c (Proc.devRef .tc main_arg7)) transposes_S128x128_S128x128_1_0 := by
    show StableHlo.after hostOps1 (W2 m ρ c) (Proc.devRef .tc main_v28) = _
    read_host hostOps1
  rw [h, W2_arg7]
theorem W3_wr : W3 m ρ c (Proc.devRef .tc main_v29) = transpose S128x128 [1, 0] (m ((c : Thread nD τ).loc main_arg9)) transposes_S128x128_S128x128_1_0 := by
  have h : W3 m ρ c (Proc.devRef .tc main_v29) = transpose S128x128 [1, 0] (W2 m ρ c (Proc.devRef .tc main_arg9)) transposes_S128x128_S128x128_1_0 := by
    show StableHlo.after hostOps1 (W2 m ρ c) (Proc.devRef .tc main_v29) = _
    read_host hostOps1
  rw [h, W2_arg9]
theorem W3_b : W3 m ρ c (Proc.devRef .tc main_v40) = shapeCast _ (m ((c : Thread nD τ).loc main_arg8)) shapeCasts_S128_S1x128 := by
  have h : W3 m ρ c (Proc.devRef .tc main_v40) = shapeCast _ (W2 m ρ c (Proc.devRef .tc main_arg8)) shapeCasts_S128_S1x128 := by
    show StableHlo.after hostOps1 (W2 m ρ c) (Proc.devRef .tc main_v40) = _
    read_host hostOps1
  rw [h, W2_arg8]
theorem W3_x : W3 m ρ c (Proc.devRef .tc main_v27) = (sage (m ((c : Thread nD τ).loc main_arg0)) (m ((c : Thread nD τ).loc main_arg1)) (m ((c : Thread nD τ).loc main_arg4)) (m ((c : Thread nD τ).loc main_arg5)) (m ((c : Thread nD τ).loc main_arg6))) :=
  (by skip_host : W3 m ρ c (Proc.devRef .tc main_v27) = W2 m ρ c (Proc.devRef .tc main_v27)).trans (W2_feat m ρ c)
theorem W3_dv : W3 m ρ c (Proc.devRef .tc main_v13) = degInvK (F := Ideal) (m ((c : Thread nD τ).loc main_arg1)) :=
  (by skip_host : W3 m ρ c (Proc.devRef .tc main_v13) = W2 m ρ c (Proc.devRef .tc main_v13)).trans (W2_dv m ρ c)
theorem W4_feat : W4 m ρ c (Proc.devRef .tc main_v41) = (sage (sage (m ((c : Thread nD τ).loc main_arg0)) (m ((c : Thread nD τ).loc main_arg1)) (m ((c : Thread nD τ).loc main_arg4)) (m ((c : Thread nD τ).loc main_arg5)) (m ((c : Thread nD τ).loc main_arg6))) (m ((c : Thread nD τ).loc main_arg1)) (m ((c : Thread nD τ).loc main_arg7)) (m ((c : Thread nD τ).loc main_arg8)) (m ((c : Thread nD τ).loc main_arg9))) := by
  refine (W4_arr m ρ c 6).trans ((Region1.final (V3 m ρ) c).trans ?_)
  show layerArr (M := 50000) (K := 128) (N := 128) (W3 m ρ c (Proc.devRef .tc main_v39)) (W3 m ρ c (Proc.devRef .tc main_v27)) (W3 m ρ c (Proc.devRef .tc main_v13))
    (W3 m ρ c (Proc.devRef .tc main_v28)) (W3 m ρ c (Proc.devRef .tc main_v29)) (W3 m ρ c (Proc.devRef .tc main_v40)) = _
  rw [W3_agg, W3_x, W3_dv, W3_wl, W3_wr, W3_b]
  rfl
theorem W4_src : W4 m ρ c (Proc.devRef .tc main_v1) = srcOf (m ((c : Thread nD τ).loc main_arg1)) :=
  (W4_of_ne m ρ c main_v1 (by decide)).trans ((by skip_host : W3 m ρ c (Proc.devRef .tc main_v1) = W2 m ρ c (Proc.devRef .tc main_v1)).trans (W2_src m ρ c))
theorem W4_tgt : W4 m ρ c (Proc.devRef .tc main_v3) = tgtOf (m ((c : Thread nD τ).loc main_arg1)) :=
  (W4_of_ne m ρ c main_v3 (by decide)).trans ((by skip_host : W3 m ρ c (Proc.devRef .tc main_v3) = W2 m ρ c (Proc.devRef .tc main_v3)).trans (W2_tgt m ρ c))
theorem W4_dv : W4 m ρ c (Proc.devRef .tc main_v13) = degInvK (F := Ideal) (m ((c : Thread nD τ).loc main_arg1)) :=
  (W4_arr m ρ c 2).trans (((dat1 (V3 m ρ) c).arrAt_in 2 rfl _).trans ((A_eq1 (V3 m ρ) c 2).trans (W3_dv m ρ c)))

/-! ## Layer 3 (region 2) -/

theorem W4_arg10 : W4 m ρ c (Proc.devRef .tc main_arg10) = (m ((c : Thread nD τ).loc main_arg10)) := (W4_of_ne m ρ c main_arg10 (by decide)).trans ((by skip_host : W3 m ρ c (Proc.devRef .tc main_arg10) = W2 m ρ c (Proc.devRef .tc main_arg10)).trans ((W2_of_ne m ρ c main_arg10 (by decide)).trans ((by skip_host : W1 m ρ c (Proc.devRef .tc main_arg10) = W0 m ρ c (Proc.devRef .tc main_arg10)).trans (rfl))))
theorem W4_arg11 : W4 m ρ c (Proc.devRef .tc main_arg11) = (m ((c : Thread nD τ).loc main_arg11)) := (W4_of_ne m ρ c main_arg11 (by decide)).trans ((by skip_host : W3 m ρ c (Proc.devRef .tc main_arg11) = W2 m ρ c (Proc.devRef .tc main_arg11)).trans ((W2_of_ne m ρ c main_arg11 (by decide)).trans ((by skip_host : W1 m ρ c (Proc.devRef .tc main_arg11) = W0 m ρ c (Proc.devRef .tc main_arg11)).trans (rfl))))
theorem W4_arg12 : W4 m ρ c (Proc.devRef .tc main_arg12) = (m ((c : Thread nD τ).loc main_arg12)) := (W4_of_ne m ρ c main_arg12 (by decide)).trans ((by skip_host : W3 m ρ c (Proc.devRef .tc main_arg12) = W2 m ρ c (Proc.devRef .tc main_arg12)).trans ((W2_of_ne m ρ c main_arg12 (by decide)).trans ((by skip_host : W1 m ρ c (Proc.devRef .tc main_arg12) = W0 m ρ c (Proc.devRef .tc main_arg12)).trans (rfl))))
theorem W5_agg : W5 m ρ c (Proc.devRef .tc main_v53) = aggOf (F := Ideal) (sage (sage (m ((c : Thread nD τ).loc main_arg0)) (m ((c : Thread nD τ).loc main_arg1)) (m ((c : Thread nD τ).loc main_arg4)) (m ((c : Thread nD τ).loc main_arg5)) (m ((c : Thread nD τ).loc main_arg6))) (m ((c : Thread nD τ).loc main_arg1)) (m ((c : Thread nD τ).loc main_arg7)) (m ((c : Thread nD τ).loc main_arg8)) (m ((c : Thread nD τ).loc main_arg9))) (m ((c : Thread nD τ).loc main_arg1)) := by
  have h : W5 m ρ c (Proc.devRef .tc main_v53) = aggOfST (F := Ideal) (W4 m ρ c (Proc.devRef .tc main_v41)) (W4 m ρ c (Proc.devRef .tc main_v1)) (W4 m ρ c (Proc.devRef .tc main_v3)) := by
    show StableHlo.after hostOps2 (W4 m ρ c) (Proc.devRef .tc main_v53) = _
    read_host hostOps2
  rw [h, W4_feat, W4_src, W4_tgt, aggOfST_eq]
theorem W5_wl : W5 m ρ c (Proc.devRef .tc main_v42) = transpose S128x128 [1, 0] (m ((c : Thread nD τ).loc main_arg10)) transposes_S128x128_S128x128_1_0 := by
  have h : W5 m ρ c (Proc.devRef .tc main_v42) = transpose S128x128 [1, 0] (W4 m ρ c (Proc.devRef .tc main_arg10)) transposes_S128x128_S128x128_1_0 := by
    show StableHlo.after hostOps2 (W4 m ρ c) (Proc.devRef .tc main_v42) = _
    read_host hostOps2
  rw [h, W4_arg10]
theorem W5_wr : W5 m ρ c (Proc.devRef .tc main_v43) = transpose S128x128 [1, 0] (m ((c : Thread nD τ).loc main_arg12)) transposes_S128x128_S128x128_1_0 := by
  have h : W5 m ρ c (Proc.devRef .tc main_v43) = transpose S128x128 [1, 0] (W4 m ρ c (Proc.devRef .tc main_arg12)) transposes_S128x128_S128x128_1_0 := by
    show StableHlo.after hostOps2 (W4 m ρ c) (Proc.devRef .tc main_v43) = _
    read_host hostOps2
  rw [h, W4_arg12]
theorem W5_b : W5 m ρ c (Proc.devRef .tc main_v54) = shapeCast _ (m ((c : Thread nD τ).loc main_arg11)) shapeCasts_S128_S1x128 := by
  have h : W5 m ρ c (Proc.devRef .tc main_v54) = shapeCast _ (W4 m ρ c (Proc.devRef .tc main_arg11)) shapeCasts_S128_S1x128 := by
    show StableHlo.after hostOps2 (W4 m ρ c) (Proc.devRef .tc main_v54) = _
    read_host hostOps2
  rw [h, W4_arg11]
theorem W5_x : W5 m ρ c (Proc.devRef .tc main_v41) = (sage (sage (m ((c : Thread nD τ).loc main_arg0)) (m ((c : Thread nD τ).loc main_arg1)) (m ((c : Thread nD τ).loc main_arg4)) (m ((c : Thread nD τ).loc main_arg5)) (m ((c : Thread nD τ).loc main_arg6))) (m ((c : Thread nD τ).loc main_arg1)) (m ((c : Thread nD τ).loc main_arg7)) (m ((c : Thread nD τ).loc main_arg8)) (m ((c : Thread nD τ).loc main_arg9))) :=
  (by skip_host : W5 m ρ c (Proc.devRef .tc main_v41) = W4 m ρ c (Proc.devRef .tc main_v41)).trans (W4_feat m ρ c)
theorem W5_dv : W5 m ρ c (Proc.devRef .tc main_v13) = degInvK (F := Ideal) (m ((c : Thread nD τ).loc main_arg1)) :=
  (by skip_host : W5 m ρ c (Proc.devRef .tc main_v13) = W4 m ρ c (Proc.devRef .tc main_v13)).trans (W4_dv m ρ c)
theorem W6_feat : W6 m ρ c (Proc.devRef .tc main_v55) = (sage (sage (sage (m ((c : Thread nD τ).loc main_arg0)) (m ((c : Thread nD τ).loc main_arg1)) (m ((c : Thread nD τ).loc main_arg4)) (m ((c : Thread nD τ).loc main_arg5)) (m ((c : Thread nD τ).loc main_arg6))) (m ((c : Thread nD τ).loc main_arg1)) (m ((c : Thread nD τ).loc main_arg7)) (m ((c : Thread nD τ).loc main_arg8)) (m ((c : Thread nD τ).loc main_arg9))) (m ((c : Thread nD τ).loc main_arg1)) (m ((c : Thread nD τ).loc main_arg10)) (m ((c : Thread nD τ).loc main_arg11)) (m ((c : Thread nD τ).loc main_arg12))) := by
  refine (W6_arr m ρ c 6).trans ((Region2.final (V5 m ρ) c).trans ?_)
  show layerArr (M := 50000) (K := 128) (N := 128) (W5 m ρ c (Proc.devRef .tc main_v53)) (W5 m ρ c (Proc.devRef .tc main_v41)) (W5 m ρ c (Proc.devRef .tc main_v13))
    (W5 m ρ c (Proc.devRef .tc main_v42)) (W5 m ρ c (Proc.devRef .tc main_v43)) (W5 m ρ c (Proc.devRef .tc main_v54)) = _
  rw [W5_agg, W5_x, W5_dv, W5_wl, W5_wr, W5_b]
  rfl
theorem W6_src : W6 m ρ c (Proc.devRef .tc main_v1) = srcOf (m ((c : Thread nD τ).loc main_arg1)) :=
  (W6_of_ne m ρ c main_v1 (by decide)).trans ((by skip_host : W5 m ρ c (Proc.devRef .tc main_v1) = W4 m ρ c (Proc.devRef .tc main_v1)).trans (W4_src m ρ c))
theorem W6_tgt : W6 m ρ c (Proc.devRef .tc main_v3) = tgtOf (m ((c : Thread nD τ).loc main_arg1)) :=
  (W6_of_ne m ρ c main_v3 (by decide)).trans ((by skip_host : W5 m ρ c (Proc.devRef .tc main_v3) = W4 m ρ c (Proc.devRef .tc main_v3)).trans (W4_tgt m ρ c))
theorem W6_dv : W6 m ρ c (Proc.devRef .tc main_v13) = degInvK (F := Ideal) (m ((c : Thread nD τ).loc main_arg1)) :=
  (W6_arr m ρ c 2).trans (((dat2 (V5 m ρ) c).arrAt_in 2 rfl _).trans ((A_eq2 (V5 m ρ) c 2).trans (W5_dv m ρ c)))

/-! ## Layer 4 (region 3) -/

theorem W6_arg13 : W6 m ρ c (Proc.devRef .tc main_arg13) = (m ((c : Thread nD τ).loc main_arg13)) := (W6_of_ne m ρ c main_arg13 (by decide)).trans ((by skip_host : W5 m ρ c (Proc.devRef .tc main_arg13) = W4 m ρ c (Proc.devRef .tc main_arg13)).trans ((W4_of_ne m ρ c main_arg13 (by decide)).trans ((by skip_host : W3 m ρ c (Proc.devRef .tc main_arg13) = W2 m ρ c (Proc.devRef .tc main_arg13)).trans ((W2_of_ne m ρ c main_arg13 (by decide)).trans ((by skip_host : W1 m ρ c (Proc.devRef .tc main_arg13) = W0 m ρ c (Proc.devRef .tc main_arg13)).trans (rfl))))))
theorem W6_arg14 : W6 m ρ c (Proc.devRef .tc main_arg14) = (m ((c : Thread nD τ).loc main_arg14)) := (W6_of_ne m ρ c main_arg14 (by decide)).trans ((by skip_host : W5 m ρ c (Proc.devRef .tc main_arg14) = W4 m ρ c (Proc.devRef .tc main_arg14)).trans ((W4_of_ne m ρ c main_arg14 (by decide)).trans ((by skip_host : W3 m ρ c (Proc.devRef .tc main_arg14) = W2 m ρ c (Proc.devRef .tc main_arg14)).trans ((W2_of_ne m ρ c main_arg14 (by decide)).trans ((by skip_host : W1 m ρ c (Proc.devRef .tc main_arg14) = W0 m ρ c (Proc.devRef .tc main_arg14)).trans (rfl))))))
theorem W6_arg15 : W6 m ρ c (Proc.devRef .tc main_arg15) = (m ((c : Thread nD τ).loc main_arg15)) := (W6_of_ne m ρ c main_arg15 (by decide)).trans ((by skip_host : W5 m ρ c (Proc.devRef .tc main_arg15) = W4 m ρ c (Proc.devRef .tc main_arg15)).trans ((W4_of_ne m ρ c main_arg15 (by decide)).trans ((by skip_host : W3 m ρ c (Proc.devRef .tc main_arg15) = W2 m ρ c (Proc.devRef .tc main_arg15)).trans ((W2_of_ne m ρ c main_arg15 (by decide)).trans ((by skip_host : W1 m ρ c (Proc.devRef .tc main_arg15) = W0 m ρ c (Proc.devRef .tc main_arg15)).trans (rfl))))))
theorem W7_agg : W7 m ρ c (Proc.devRef .tc main_v67) = aggOf (F := Ideal) (sage (sage (sage (m ((c : Thread nD τ).loc main_arg0)) (m ((c : Thread nD τ).loc main_arg1)) (m ((c : Thread nD τ).loc main_arg4)) (m ((c : Thread nD τ).loc main_arg5)) (m ((c : Thread nD τ).loc main_arg6))) (m ((c : Thread nD τ).loc main_arg1)) (m ((c : Thread nD τ).loc main_arg7)) (m ((c : Thread nD τ).loc main_arg8)) (m ((c : Thread nD τ).loc main_arg9))) (m ((c : Thread nD τ).loc main_arg1)) (m ((c : Thread nD τ).loc main_arg10)) (m ((c : Thread nD τ).loc main_arg11)) (m ((c : Thread nD τ).loc main_arg12))) (m ((c : Thread nD τ).loc main_arg1)) := by
  have h : W7 m ρ c (Proc.devRef .tc main_v67) = aggOfST (F := Ideal) (W6 m ρ c (Proc.devRef .tc main_v55)) (W6 m ρ c (Proc.devRef .tc main_v1)) (W6 m ρ c (Proc.devRef .tc main_v3)) := by
    show StableHlo.after hostOps3 (W6 m ρ c) (Proc.devRef .tc main_v67) = _
    read_host hostOps3
  rw [h, W6_feat, W6_src, W6_tgt, aggOfST_eq]
theorem W7_wl : W7 m ρ c (Proc.devRef .tc main_v56) = transpose S128x128 [1, 0] (m ((c : Thread nD τ).loc main_arg13)) transposes_S128x128_S128x128_1_0 := by
  have h : W7 m ρ c (Proc.devRef .tc main_v56) = transpose S128x128 [1, 0] (W6 m ρ c (Proc.devRef .tc main_arg13)) transposes_S128x128_S128x128_1_0 := by
    show StableHlo.after hostOps3 (W6 m ρ c) (Proc.devRef .tc main_v56) = _
    read_host hostOps3
  rw [h, W6_arg13]
theorem W7_wr : W7 m ρ c (Proc.devRef .tc main_v57) = transpose S128x128 [1, 0] (m ((c : Thread nD τ).loc main_arg15)) transposes_S128x128_S128x128_1_0 := by
  have h : W7 m ρ c (Proc.devRef .tc main_v57) = transpose S128x128 [1, 0] (W6 m ρ c (Proc.devRef .tc main_arg15)) transposes_S128x128_S128x128_1_0 := by
    show StableHlo.after hostOps3 (W6 m ρ c) (Proc.devRef .tc main_v57) = _
    read_host hostOps3
  rw [h, W6_arg15]
theorem W7_b : W7 m ρ c (Proc.devRef .tc main_v68) = shapeCast _ (m ((c : Thread nD τ).loc main_arg14)) shapeCasts_S128_S1x128 := by
  have h : W7 m ρ c (Proc.devRef .tc main_v68) = shapeCast _ (W6 m ρ c (Proc.devRef .tc main_arg14)) shapeCasts_S128_S1x128 := by
    show StableHlo.after hostOps3 (W6 m ρ c) (Proc.devRef .tc main_v68) = _
    read_host hostOps3
  rw [h, W6_arg14]
theorem W7_x : W7 m ρ c (Proc.devRef .tc main_v55) = (sage (sage (sage (m ((c : Thread nD τ).loc main_arg0)) (m ((c : Thread nD τ).loc main_arg1)) (m ((c : Thread nD τ).loc main_arg4)) (m ((c : Thread nD τ).loc main_arg5)) (m ((c : Thread nD τ).loc main_arg6))) (m ((c : Thread nD τ).loc main_arg1)) (m ((c : Thread nD τ).loc main_arg7)) (m ((c : Thread nD τ).loc main_arg8)) (m ((c : Thread nD τ).loc main_arg9))) (m ((c : Thread nD τ).loc main_arg1)) (m ((c : Thread nD τ).loc main_arg10)) (m ((c : Thread nD τ).loc main_arg11)) (m ((c : Thread nD τ).loc main_arg12))) :=
  (by skip_host : W7 m ρ c (Proc.devRef .tc main_v55) = W6 m ρ c (Proc.devRef .tc main_v55)).trans (W6_feat m ρ c)
theorem W7_dv : W7 m ρ c (Proc.devRef .tc main_v13) = degInvK (F := Ideal) (m ((c : Thread nD τ).loc main_arg1)) :=
  (by skip_host : W7 m ρ c (Proc.devRef .tc main_v13) = W6 m ρ c (Proc.devRef .tc main_v13)).trans (W6_dv m ρ c)
theorem W8_feat : W8 m ρ c (Proc.devRef .tc main_v69) = (sage (sage (sage (sage (m ((c : Thread nD τ).loc main_arg0)) (m ((c : Thread nD τ).loc main_arg1)) (m ((c : Thread nD τ).loc main_arg4)) (m ((c : Thread nD τ).loc main_arg5)) (m ((c : Thread nD τ).loc main_arg6))) (m ((c : Thread nD τ).loc main_arg1)) (m ((c : Thread nD τ).loc main_arg7)) (m ((c : Thread nD τ).loc main_arg8)) (m ((c : Thread nD τ).loc main_arg9))) (m ((c : Thread nD τ).loc main_arg1)) (m ((c : Thread nD τ).loc main_arg10)) (m ((c : Thread nD τ).loc main_arg11)) (m ((c : Thread nD τ).loc main_arg12))) (m ((c : Thread nD τ).loc main_arg1)) (m ((c : Thread nD τ).loc main_arg13)) (m ((c : Thread nD τ).loc main_arg14)) (m ((c : Thread nD τ).loc main_arg15))) := by
  refine (W8_arr m ρ c 6).trans ((Region3.final (V7 m ρ) c).trans ?_)
  show layerArr (M := 50000) (K := 128) (N := 128) (W7 m ρ c (Proc.devRef .tc main_v67)) (W7 m ρ c (Proc.devRef .tc main_v55)) (W7 m ρ c (Proc.devRef .tc main_v13))
    (W7 m ρ c (Proc.devRef .tc main_v56)) (W7 m ρ c (Proc.devRef .tc main_v57)) (W7 m ρ c (Proc.devRef .tc main_v68)) = _
  rw [W7_agg, W7_x, W7_dv, W7_wl, W7_wr, W7_b]
  rfl
theorem W8_src : W8 m ρ c (Proc.devRef .tc main_v1) = srcOf (m ((c : Thread nD τ).loc main_arg1)) :=
  (W8_of_ne m ρ c main_v1 (by decide)).trans ((by skip_host : W7 m ρ c (Proc.devRef .tc main_v1) = W6 m ρ c (Proc.devRef .tc main_v1)).trans (W6_src m ρ c))
theorem W8_tgt : W8 m ρ c (Proc.devRef .tc main_v3) = tgtOf (m ((c : Thread nD τ).loc main_arg1)) :=
  (W8_of_ne m ρ c main_v3 (by decide)).trans ((by skip_host : W7 m ρ c (Proc.devRef .tc main_v3) = W6 m ρ c (Proc.devRef .tc main_v3)).trans (W6_tgt m ρ c))
theorem W8_dv : W8 m ρ c (Proc.devRef .tc main_v13) = degInvK (F := Ideal) (m ((c : Thread nD τ).loc main_arg1)) :=
  (W8_arr m ρ c 2).trans (((dat3 (V7 m ρ) c).arrAt_in 2 rfl _).trans ((A_eq3 (V7 m ρ) c 2).trans (W7_dv m ρ c)))

/-! ## The readout and the classifier (region 4) -/

theorem W8_arg2 : W8 m ρ c (Proc.devRef .tc main_arg2) = (m ((c : Thread nD τ).loc main_arg2)) := (W8_of_ne m ρ c main_arg2 (by decide)).trans ((by skip_host : W7 m ρ c (Proc.devRef .tc main_arg2) = W6 m ρ c (Proc.devRef .tc main_arg2)).trans ((W6_of_ne m ρ c main_arg2 (by decide)).trans ((by skip_host : W5 m ρ c (Proc.devRef .tc main_arg2) = W4 m ρ c (Proc.devRef .tc main_arg2)).trans ((W4_of_ne m ρ c main_arg2 (by decide)).trans ((by skip_host : W3 m ρ c (Proc.devRef .tc main_arg2) = W2 m ρ c (Proc.devRef .tc main_arg2)).trans ((W2_of_ne m ρ c main_arg2 (by decide)).trans ((by skip_host : W1 m ρ c (Proc.devRef .tc main_arg2) = W0 m ρ c (Proc.devRef .tc main_arg2)).trans (rfl))))))))
theorem W8_arg3 : W8 m ρ c (Proc.devRef .tc main_arg3) = (m ((c : Thread nD τ).loc main_arg3)) := (W8_of_ne m ρ c main_arg3 (by decide)).trans ((by skip_host : W7 m ρ c (Proc.devRef .tc main_arg3) = W6 m ρ c (Proc.devRef .tc main_arg3)).trans ((W6_of_ne m ρ c main_arg3 (by decide)).trans ((by skip_host : W5 m ρ c (Proc.devRef .tc main_arg3) = W4 m ρ c (Proc.devRef .tc main_arg3)).trans ((W4_of_ne m ρ c main_arg3 (by decide)).trans ((by skip_host : W3 m ρ c (Proc.devRef .tc main_arg3) = W2 m ρ c (Proc.devRef .tc main_arg3)).trans ((W2_of_ne m ρ c main_arg3 (by decide)).trans ((by skip_host : W1 m ρ c (Proc.devRef .tc main_arg3) = W0 m ρ c (Proc.devRef .tc main_arg3)).trans (rfl))))))))
theorem W8_arg17 : W8 m ρ c (Proc.devRef .tc main_arg17) = (m ((c : Thread nD τ).loc main_arg17)) := (W8_of_ne m ρ c main_arg17 (by decide)).trans ((by skip_host : W7 m ρ c (Proc.devRef .tc main_arg17) = W6 m ρ c (Proc.devRef .tc main_arg17)).trans ((W6_of_ne m ρ c main_arg17 (by decide)).trans ((by skip_host : W5 m ρ c (Proc.devRef .tc main_arg17) = W4 m ρ c (Proc.devRef .tc main_arg17)).trans ((W4_of_ne m ρ c main_arg17 (by decide)).trans ((by skip_host : W3 m ρ c (Proc.devRef .tc main_arg17) = W2 m ρ c (Proc.devRef .tc main_arg17)).trans ((W2_of_ne m ρ c main_arg17 (by decide)).trans ((by skip_host : W1 m ρ c (Proc.devRef .tc main_arg17) = W0 m ρ c (Proc.devRef .tc main_arg17)).trans (rfl))))))))
theorem W9_arg16 : W9 m ρ c (Proc.devRef .tc main_arg16) = (m ((c : Thread nD τ).loc main_arg16)) := (by skip_host : W9 m ρ c (Proc.devRef .tc main_arg16) = W8 m ρ c (Proc.devRef .tc main_arg16)).trans ((W8_of_ne m ρ c main_arg16 (by decide)).trans ((by skip_host : W7 m ρ c (Proc.devRef .tc main_arg16) = W6 m ρ c (Proc.devRef .tc main_arg16)).trans ((W6_of_ne m ρ c main_arg16 (by decide)).trans ((by skip_host : W5 m ρ c (Proc.devRef .tc main_arg16) = W4 m ρ c (Proc.devRef .tc main_arg16)).trans ((W4_of_ne m ρ c main_arg16 (by decide)).trans ((by skip_host : W3 m ρ c (Proc.devRef .tc main_arg16) = W2 m ρ c (Proc.devRef .tc main_arg16)).trans ((W2_of_ne m ρ c main_arg16 (by decide)).trans ((by skip_host : W1 m ρ c (Proc.devRef .tc main_arg16) = W0 m ρ c (Proc.devRef .tc main_arg16)).trans (rfl)))))))))
/-- Two concatenations of two pieces agree when the pieces agree one by one. -/
theorem concat2_congr {α : Type} {t s : Shape} (a : Fin t.rank) {x₁ y₁ x₂ y₂ : s.Idx → α} (e₁ : x₁ = y₁) (e₂ : x₂ = y₂)
    (h : Shape.Concatenates ([(⟨s, x₁⟩ : (s : Shape) × (s.Idx → α)), ⟨s, x₂⟩].map (·.1)) t a)
    (h' : Shape.Concatenates ([(⟨s, y₁⟩ : (s : Shape) × (s.Idx → α)), ⟨s, y₂⟩].map (·.1)) t a) :
    concatenate t a [⟨s, x₁⟩, ⟨s, x₂⟩] h = concatenate t a [⟨s, y₁⟩, ⟨s, y₂⟩] h' := by
  subst e₁; subst e₂; rfl

set_option maxHeartbeats 1000000 in
theorem W9_pooled : W9 m ρ c (Proc.devRef .tc main_v90) = pooled (F := Ideal) (sage (sage (sage (sage (m ((c : Thread nD τ).loc main_arg0)) (m ((c : Thread nD τ).loc main_arg1)) (m ((c : Thread nD τ).loc main_arg4)) (m ((c : Thread nD τ).loc main_arg5)) (m ((c : Thread nD τ).loc main_arg6))) (m ((c : Thread nD τ).loc main_arg1)) (m ((c : Thread nD τ).loc main_arg7)) (m ((c : Thread nD τ).loc main_arg8)) (m ((c : Thread nD τ).loc main_arg9))) (m ((c : Thread nD τ).loc main_arg1)) (m ((c : Thread nD τ).loc main_arg10)) (m ((c : Thread nD τ).loc main_arg11)) (m ((c : Thread nD τ).loc main_arg12))) (m ((c : Thread nD τ).loc main_arg1)) (m ((c : Thread nD τ).loc main_arg13)) (m ((c : Thread nD τ).loc main_arg14)) (m ((c : Thread nD τ).loc main_arg15))) (m ((c : Thread nD τ).loc main_arg2)) (m ((c : Thread nD τ).loc main_arg3)) (cntI (F := Ideal) (m ((c : Thread nD τ).loc main_arg3))) := by
  have h : W9 m ρ c (Proc.devRef .tc main_v90) = pooled (F := Ideal) (W8 m ρ c (Proc.devRef .tc main_v69)) (W8 m ρ c (Proc.devRef .tc main_arg2)) (W8 m ρ c (Proc.devRef .tc main_arg3))
      (cntI (F := Ideal) (W8 m ρ c (Proc.devRef .tc main_arg3))) := by
    show StableHlo.after hostOps4 (W8 m ρ c) (Proc.devRef .tc main_v90) = _
    dsimp only [hostOps4]
    after_results_simp
    unfold pooled
    refine concat2_congr _ ?_ ?_ _ _
    · after_results_simp <;> rfl
    · after_results_simp <;> rfl
  rw [h, W8_feat, W8_arg2, W8_arg3]
theorem W9_bc : W9 m ρ c (Proc.devRef .tc main_v91) = shapeCast _ (m ((c : Thread nD τ).loc main_arg17)) shapeCasts_S2_S1x2 := by
  have h : W9 m ρ c (Proc.devRef .tc main_v91) = shapeCast _ (W8 m ρ c (Proc.devRef .tc main_arg17)) shapeCasts_S2_S1x2 := by
    show StableHlo.after hostOps4 (W8 m ρ c) (Proc.devRef .tc main_v91) = _
    read_host hostOps4
  rw [h, W8_arg17]

/-- THE RESULT: the last boundary's result buffer is the whole network of the argument arrays. -/
theorem W10_result : W10 m ρ c (Proc.devRef .tc main_v92) = head (sage (sage (sage (sage (m ((c : Thread nD τ).loc main_arg0)) (m ((c : Thread nD τ).loc main_arg1)) (m ((c : Thread nD τ).loc main_arg4)) (m ((c : Thread nD τ).loc main_arg5)) (m ((c : Thread nD τ).loc main_arg6))) (m ((c : Thread nD τ).loc main_arg1)) (m ((c : Thread nD τ).loc main_arg7)) (m ((c : Thread nD τ).loc main_arg8)) (m ((c : Thread nD τ).loc main_arg9))) (m ((c : Thread nD τ).loc main_arg1)) (m ((c : Thread nD τ).loc main_arg10)) (m ((c : Thread nD τ).loc main_arg11)) (m ((c : Thread nD τ).loc main_arg12))) (m ((c : Thread nD τ).loc main_arg1)) (m ((c : Thread nD τ).loc main_arg13)) (m ((c : Thread nD τ).loc main_arg14)) (m ((c : Thread nD τ).loc main_arg15))) (m ((c : Thread nD τ).loc main_arg2)) (m ((c : Thread nD τ).loc main_arg3)) (m ((c : Thread nD τ).loc main_arg16)) (m ((c : Thread nD τ).loc main_arg17)) := by
  refine (W10_arr m ρ c 3).trans ((Region4.final (V9 m ρ) c).trans ?_)
  show affineArr (M := 256) (K := 256) (N := 2) (W9 m ρ c (Proc.devRef .tc main_v90)) (transpose S256x2 [1, 0] (W9 m ρ c (Proc.devRef .tc main_arg16)) transposes_S2x256_p1_0_S256x2)
    (W9 m ρ c (Proc.devRef .tc main_v91)) = _
  rw [W9_pooled, W9_arg16, W9_bc]
  rfl

end Cert.KernelIdeal.KChain

end
-- ==== Proof.RefValue.lean ====
/-
  The idealized reference, stage by stage, is the same network.

  Each of its four layers is the host form of the layer (Proof/LayerForms.lean) of the same neighbour sums, features,
  inverse degrees (from the float count), transposed weights and bias row (by a broadcast); its readout is the host
  form of the affine head of the same pooled features (graph sizes from the float count).  Those forms are the
  network's (Proof/Net.lean): the two counts agree, a column or a row from a vector is one array however it is made,
  and the sum of three terms does not depend on their order.
-/
import proofs.«144729_j33328946217667_2_alg».proof.Proof.Gen.ReferenceIdeal.Read
import proofs.«144729_j33328946217667_2_alg».proof.Proof.Net

set_option maxRecDepth 16384

noncomputable section

namespace Cert.ReferenceIdeal.RefValue

open Cert.ReferenceIdeal Cert.ReferenceIdeal.Gen Cert.ReferenceIdeal.Read Idealize.ShloMosaic Idealize.ShloMosaic.TcCoe Idealize.SL.Sem

/-- Layer 1 of the reference is the network's layer of the previous features. -/
theorem layer1 (x0 : (⟨S50000x128, .f32⟩ : BufTy).Contents (Elt Ideal)) (x1 : (⟨S2x600000, .i32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) :
    val_main_v33 (F := Ideal) x0 x1 x4 x5 x6 = Cert.KernelIdeal.Net.sage x0 x1 x4 x5 x6 := by
  refine Eq.trans ?_ (Cert.KernelIdeal.Net.sage_eq_host x0 x1 x4 x5 x6 bcast_S128_S1x128_1)
  exact Cert.LayerForms.host_layer_eq dot_S50000x128_S128x128_S50000x128_1_0_0_1_n_n rfl rfl rfl rfl rfl rfl
    bcast_S50000x1_S50000x128_0_1 bcast_S1x128_S50000x128_0_1 bcast_S_S50000x128
    (val_main_v22 (F := Ideal) x0 x1) x0 (val_main_v12 (F := Ideal) x1) (val_main_v25 (F := Ideal) x4) (val_main_v30 (F := Ideal) x6) (val_main_v27 (F := Ideal) x5)

/-- Layer 2 of the reference is the network's layer of the previous features. -/
theorem layer2 (x0 : (⟨S50000x128, .f32⟩ : BufTy).Contents (Elt Ideal)) (x1 : (⟨S2x600000, .i32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) :
    val_main_v54 (F := Ideal) x0 x1 x4 x5 x6 x7 x8 x9 = Cert.KernelIdeal.Net.sage (val_main_v33 (F := Ideal) x0 x1 x4 x5 x6) x1 x7 x8 x9 := by
  refine Eq.trans ?_ (Cert.KernelIdeal.Net.sage_eq_host (val_main_v33 (F := Ideal) x0 x1 x4 x5 x6) x1 x7 x8 x9 bcast_S128_S1x128_1)
  exact Cert.LayerForms.host_layer_eq dot_S50000x128_S128x128_S50000x128_1_0_0_1_n_n rfl rfl rfl rfl rfl rfl
    bcast_S50000x1_S50000x128_0_1 bcast_S1x128_S50000x128_0_1 bcast_S_S50000x128
    (val_main_v43 (F := Ideal) x0 x1 x4 x5 x6) (val_main_v33 (F := Ideal) x0 x1 x4 x5 x6) (val_main_v12 (F := Ideal) x1) (val_main_v46 (F := Ideal) x7) (val_main_v51 (F := Ideal) x9) (val_main_v48 (F := Ideal) x8)

/-- Layer 3 of the reference is the network's layer of the previous features. -/
theorem layer3 (x0 : (⟨S50000x128, .f32⟩ : BufTy).Contents (Elt Ideal)) (x1 : (⟨S2x600000, .i32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) (x10 : (⟨S128x128, .f32⟩ : BufTy).Contents (Elt Ideal)) (x11 : (⟨S128, .f32⟩ : BufTy).Contents (Elt Ideal)) (x12 : (⟨S128x128, .f32⟩ : BufTy).Contents (Elt Ideal)) :
    val_main_v75 (F := Ideal) x0 x1 x4 x5 x6 x7 x8 x9 x10 x11 x12 = Cert.KernelIdeal.Net.sage (val_main_v54 (F := Ideal) x0 x1 x4 x5 x6 x7 x8 x9) x1 x10 x11 x12 := by
  refine Eq.trans ?_ (Cert.KernelIdeal.Net.sage_eq_host (val_main_v54 (F := Ideal) x0 x1 x4 x5 x6 x7 x8 x9) x1 x10 x11 x12 bcast_S128_S1x128_1)
  exact Cert.LayerForms.host_layer_eq dot_S50000x128_S128x128_S50000x128_1_0_0_1_n_n rfl rfl rfl rfl rfl rfl
    bcast_S50000x1_S50000x128_0_1 bcast_S1x128_S50000x128_0_1 bcast_S_S50000x128
    (val_main_v64 (F := Ideal) x0 x1 x4 x5 x6 x7 x8 x9) (val_main_v54 (F := Ideal) x0 x1 x4 x5 x6 x7 x8 x9) (val_main_v12 (F := Ideal) x1) (val_main_v67 (F := Ideal) x10) (val_main_v72 (F := Ideal) x12) (val_main_v69 (F := Ideal) x11)

/-- Layer 4 of the reference is the network's layer of the previous features. -/
theorem layer4 (x0 : (⟨S50000x128, .f32⟩ : BufTy).Contents (Elt Ideal)) (x1 : (⟨S2x600000, .i32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) (x10 : (⟨S128x128, .f32⟩ : BufTy).Contents (Elt Ideal)) (x11 : (⟨S128, .f32⟩ : BufTy).Contents (Elt Ideal)) (x12 : (⟨S128x128, .f32⟩ : BufTy).Contents (Elt Ideal)) (x13 : (⟨S128x128, .f32⟩ : BufTy).Contents (Elt Ideal)) (x14 : (⟨S128, .f32⟩ : BufTy).Contents (Elt Ideal)) (x15 : (⟨S128x128, .f32⟩ : BufTy).Contents (Elt Ideal)) :
    val_main_v96 (F := Ideal) x0 x1 x4 x5 x6 x7 x8 x9 x10 x11 x12 x13 x14 x15 = Cert.KernelIdeal.Net.sage (val_main_v75 (F := Ideal) x0 x1 x4 x5 x6 x7 x8 x9 x10 x11 x12) x1 x13 x14 x15 := by
  refine Eq.trans ?_ (Cert.KernelIdeal.Net.sage_eq_host (val_main_v75 (F := Ideal) x0 x1 x4 x5 x6 x7 x8 x9 x10 x11 x12) x1 x13 x14 x15 bcast_S128_S1x128_1)
  exact Cert.LayerForms.host_layer_eq dot_S50000x128_S128x128_S50000x128_1_0_0_1_n_n rfl rfl rfl rfl rfl rfl
    bcast_S50000x1_S50000x128_0_1 bcast_S1x128_S50000x128_0_1 bcast_S_S50000x128
    (val_main_v85 (F := Ideal) x0 x1 x4 x5 x6 x7 x8 x9 x10 x11 x12) (val_main_v75 (F := Ideal) x0 x1 x4 x5 x6 x7 x8 x9 x10 x11 x12) (val_main_v12 (F := Ideal) x1) (val_main_v88 (F := Ideal) x13) (val_main_v93 (F := Ideal) x15) (val_main_v90 (F := Ideal) x14)

/-- The reference's result is the network's readout of the last layer's features. -/
theorem readout (x0 : (⟨S50000x128, .f32⟩ : BufTy).Contents (Elt Ideal)) (x1 : (⟨S2x600000, .i32⟩ : BufTy).Contents (Elt Ideal)) (x2 : (⟨S256, .i32⟩ : BufTy).Contents (Elt Ideal)) (x3 : (⟨S50000, .i32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) (x10 : (⟨S128x128, .f32⟩ : BufTy).Contents (Elt Ideal)) (x11 : (⟨S128, .f32⟩ : BufTy).Contents (Elt Ideal)) (x12 : (⟨S128x128, .f32⟩ : BufTy).Contents (Elt Ideal)) (x13 : (⟨S128x128, .f32⟩ : BufTy).Contents (Elt Ideal)) (x14 : (⟨S128, .f32⟩ : BufTy).Contents (Elt Ideal)) (x15 : (⟨S128x128, .f32⟩ : BufTy).Contents (Elt Ideal)) (x16 : (⟨S2x256, .f32⟩ : BufTy).Contents (Elt Ideal)) (x17 : (⟨S2, .f32⟩ : BufTy).Contents (Elt Ideal)) :
    val_main_v121 (F := Ideal) x0 x1 x2 x3 x4 x5 x6 x7 x8 x9 x10 x11 x12 x13 x14 x15 x16 x17 = Cert.KernelIdeal.Net.head (val_main_v96 (F := Ideal) x0 x1 x4 x5 x6 x7 x8 x9 x10 x11 x12 x13 x14 x15) x2 x3 x16 x17 := by
  refine Eq.trans ?_ (Cert.KernelIdeal.Net.head_eq_host (val_main_v96 (F := Ideal) x0 x1 x4 x5 x6 x7 x8 x9 x10 x11 x12 x13 x14 x15) x2 x3 x16 x17 transposes_S2x256_S256x2_1_0 bcast_S2_S1x2_1)
  exact Cert.LayerForms.host_affine_eq dot_S256x256_S256x2_S256x2_1_0_0_1_n_n rfl rfl rfl rfl rfl rfl bcast_S1x2_S256x2_0_1
    (val_main_v116 (F := Ideal) x0 x1 x2 x3 x4 x5 x6 x7 x8 x9 x10 x11 x12 x13 x14 x15) (val_main_v117 (F := Ideal) x16) (val_main_v119 (F := Ideal) x17)

/-- THE REFERENCE'S RESULT, as the network of the argument arrays. -/
theorem result (x0 : (⟨S50000x128, .f32⟩ : BufTy).Contents (Elt Ideal)) (x1 : (⟨S2x600000, .i32⟩ : BufTy).Contents (Elt Ideal)) (x2 : (⟨S256, .i32⟩ : BufTy).Contents (Elt Ideal)) (x3 : (⟨S50000, .i32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) (x10 : (⟨S128x128, .f32⟩ : BufTy).Contents (Elt Ideal)) (x11 : (⟨S128, .f32⟩ : BufTy).Contents (Elt Ideal)) (x12 : (⟨S128x128, .f32⟩ : BufTy).Contents (Elt Ideal)) (x13 : (⟨S128x128, .f32⟩ : BufTy).Contents (Elt Ideal)) (x14 : (⟨S128, .f32⟩ : BufTy).Contents (Elt Ideal)) (x15 : (⟨S128x128, .f32⟩ : BufTy).Contents (Elt Ideal)) (x16 : (⟨S2x256, .f32⟩ : BufTy).Contents (Elt Ideal)) (x17 : (⟨S2, .f32⟩ : BufTy).Contents (Elt Ideal)) :
    val_main_v121 (F := Ideal) x0 x1 x2 x3 x4 x5 x6 x7 x8 x9 x10 x11 x12 x13 x14 x15 x16 x17
      = Cert.KernelIdeal.Net.head (Cert.KernelIdeal.Net.sage (Cert.KernelIdeal.Net.sage (Cert.KernelIdeal.Net.sage (Cert.KernelIdeal.Net.sage x0 x1 x4 x5 x6) x1 x7 x8 x9) x1 x10 x11 x12) x1 x13 x14 x15) x2 x3 x16 x17 := by
  rw [readout, layer4, layer3, layer2, layer1]

end Cert.ReferenceIdeal.RefValue

end
-- ==== Proof.lean ====
/-
  A four-layer mean-aggregation graph network with a root-and-mean-pool readout, as a Pallas program against plain jnp.

  The kernel program computes each layer's linear stage in a pipelined region over blocks of 10000 nodes — the
  neighbour sums scaled by the inverse target degree, times the transposed left weights, plus the node's own features
  times the transposed right weights, plus the bias, clamped below at zero — and the classifier in a last region; the
  gathers, scatter-adds and the readout around the regions are host operations, the same in both programs.  At the
  ideal values the two programs differ in three ways only, none of which changes a number: the kernel counts degrees and
  graph sizes on integers and converts (exact below 2^31), the reference counts on floats; a bias vector becomes a row,
  and the inverse degrees a column, by a reshape in one and by a broadcast in the other; and the three terms of a layer's
  sum are added in a different order (addition of extended reals is commutative and associative).

  The kernel's result is read off its run (Proof/KRun.lean) through the buffer contents at the segment boundaries
  (Proof/KChain.lean, each region's output array by Proof/Region0.lean … Proof/Region4.lean); the reference's result
  off its run, stage by stage (Proof/RefValue.lean); both are the one network of Proof/Net.lean.
  The frames of the two kernel programs are their generated frame certificates; the reference's frame is its run with
  the result dropped; the ideal pass rewrote nothing, so `preserves` is trivial.
-/
import proofs.«144729_j33328946217667_2_alg».proof.Defs
import proofs.«144729_j33328946217667_2_alg».proof.Proof.Gen.Kernel
import proofs.«144729_j33328946217667_2_alg».proof.Proof.Gen.Kernel.Skeleton
import proofs.«144729_j33328946217667_2_alg».proof.Proof.Gen.Kernel.Launch
import proofs.«144729_j33328946217667_2_alg».proof.Proof.Gen.Kernel.Points
import proofs.«144729_j33328946217667_2_alg».proof.Proof.Gen.Kernel.Frame
import proofs.«144729_j33328946217667_2_alg».proof.Proof.Gen.KernelIdeal
import proofs.«144729_j33328946217667_2_alg».proof.Proof.Gen.KernelIdeal.Skeleton
import proofs.«144729_j33328946217667_2_alg».proof.Proof.Gen.KernelIdeal.Launch
import proofs.«144729_j33328946217667_2_alg».proof.Proof.Gen.KernelIdeal.Points
import proofs.«144729_j33328946217667_2_alg».proof.Proof.Gen.KernelIdeal.Frame
import proofs.«144729_j33328946217667_2_alg».proof.Proof.Gen.ReferenceIdeal
import proofs.«144729_j33328946217667_2_alg».proof.Proof.Gen.ReferenceIdeal.Run
import proofs.«144729_j33328946217667_2_alg».proof.Proof.Gen.ReferenceIdeal.Read
import proofs.«144729_j33328946217667_2_alg».proof.Proof.Gen.Pre_finite_inputs
import proofs.«144729_j33328946217667_2_alg».proof.Proof.KRun
import proofs.«144729_j33328946217667_2_alg».proof.Proof.KChain
import proofs.«144729_j33328946217667_2_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- At the ideal values both programs end with the one network of the argument arrays in their result buffers. -/
theorem algebraic : Cert.algebraic_KernelIdeal_ReferenceIdeal := by
  intro m ρ m' ρ' _ hagree
  refine ⟨fun c => Cert.KernelIdeal.Gen.W10 m ρ c (Proc.devRef .tc Cert.KernelIdeal.main_v92),
    Cert.KernelIdeal.KRun.run_result (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13, h14, h15, h16, h17⟩ := hagree c
  show Cert.ReferenceIdeal.Value.res_main_v121 m' c = Cert.KernelIdeal.Gen.W10 m ρ c (Proc.devRef .tc Cert.KernelIdeal.main_v92)
  rw [Cert.ReferenceIdeal.Read.val_main_v121_eq, Cert.ReferenceIdeal.RefValue.result, h0, h1, h2, h3, h4, h5, h6, h7, h8, h9, h10, h11, h12, h13, h14, h15, h16, h17]
  exact (Cert.KernelIdeal.KChain.W10_result m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
